-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32x4 : Shape := ⟨3, ![100000, 32, 4]⟩
abbrev S10x64 : Shape := ⟨2, ![10, 64]⟩
abbrev S64 : Shape := ⟨1, ![64]⟩
abbrev S100000 : Shape := ⟨1, ![100000]⟩
abbrev S100000x4 : Shape := ⟨2, ![100000, 4]⟩
abbrev S_ : Shape := ⟨0, ![]⟩

class Facts : Prop where
  bcast_S_S100000x32x4 : S_.BroadcastsInDim S100000x32x4 (![] : Fin 0 → Fin S100000x32x4.rank)
  reducesTo_S100000x32x4_S_d0_1_2 : S100000x32x4.ReducesTo [0, 1, 2] S_
  h_S_ : 0 < S_.numel
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x32x4 .f32) (main_arg1 : FVec F S10x64 .f32) (main_arg2 : FVec F S64 .f32) (main_arg3 : FVec F S64 .f32) (main_arg4 : IVec S100000 32) (main_arg5 : IVec S100000x4 32) : IVec S_ 1 :=
  let main_v0 : FVec F S100000x32x4 .f32 := Host.absf main_arg0
  let main_cst : FVec F S_ .f32 := constant S_ .f32 0x7F800000#32
  let main_v1 : FVec F S100000x32x4 .f32 := broadcastInDim S100000x32x4 ![] bcast_S_S100000x32x4 main_cst
  let main_v2 : IVec S100000x32x4 1 := cmpf .olt main_v0 main_v1
  let main_c : IVec S_ 1 := constantI S_ 1 1#1
  let main_v3 : IVec S_ 1 := (fun x v => Host.reduce IntOp.andi x v reducesTo_S100000x32x4_S_d0_1_2 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x32x4 : Shape := ⟨3, ![100000, 32, 4]⟩
abbrev S10x64 : Shape := ⟨2, ![10, 64]⟩
abbrev S64 : Shape := ⟨1, ![64]⟩
abbrev S100000 : Shape := ⟨1, ![100000]⟩
abbrev S100000x4 : Shape := ⟨2, ![100000, 4]⟩
abbrev S100000x1 : Shape := ⟨2, ![100000, 1]⟩
abbrev S1x64 : Shape := ⟨2, ![1, 64]⟩
abbrev S200x32x4 : Shape := ⟨3, ![200, 32, 4]⟩
abbrev S200x4 : Shape := ⟨2, ![200, 4]⟩
abbrev S200x1 : Shape := ⟨2, ![200, 1]⟩
abbrev S200x32x3 : Shape := ⟨3, ![200, 32, 3]⟩
abbrev S200x32 : Shape := ⟨2, ![200, 32]⟩
abbrev S200x32x1 : Shape := ⟨3, ![200, 32, 1]⟩
abbrev S200x3 : Shape := ⟨2, ![200, 3]⟩
abbrev S200x1x3 : Shape := ⟨3, ![200, 1, 3]⟩
abbrev S200x32x10 : Shape := ⟨3, ![200, 32, 10]⟩
abbrev S6400x10 : Shape := ⟨2, ![6400, 10]⟩
abbrev S6400x64 : Shape := ⟨2, ![6400, 64]⟩
abbrev S_ : Shape := ⟨0, ![]⟩
abbrev S100000x64 : Shape := ⟨2, ![100000, 64]⟩
abbrev S200x64 : Shape := ⟨2, ![200, 64]⟩
abbrev S200x32x64 : Shape := ⟨3, ![200, 32, 64]⟩
abbrev S1x1x64 : Shape := ⟨3, ![1, 1, 64]⟩

abbrev nBuf : Space → Nat
  | .hbm => 23
  | .vmem => 24
  | .smem => 0
  | _ => 0

abbrev bufTy : (tb : Table) → Fin (tcTables nBuf tb) → BufTy
  | .hbm, ⟨0, _⟩ => ⟨S100000x32x4, .f32⟩
  | .hbm, ⟨1, _⟩ => ⟨S10x64, .f32⟩
  | .hbm, ⟨2, _⟩ => ⟨S64, .f32⟩
  | .hbm, ⟨3, _⟩ => ⟨S64, .f32⟩
  | .hbm, ⟨4, _⟩ => ⟨S100000, .i32⟩
  | .hbm, ⟨5, _⟩ => ⟨S100000x4, .i32⟩
  | .hbm, ⟨6, _⟩ => ⟨S100000x1, .i32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S100000x64, .f32⟩
  | .local _ .vmem, ⟨0, _⟩ => ⟨S200x32x4, .f32⟩
  | .local _ .vmem, ⟨1, _⟩ => ⟨S200x32x4, .f32⟩
  | .local _ .vmem, ⟨2, _⟩ => ⟨S200x4, .i32⟩
  | .local _ .vmem, ⟨3, _⟩ => ⟨S200x4, .i32⟩
  | .local _ .vmem, ⟨4, _⟩ => ⟨S200x1, .i32⟩
  | .local _ .vmem, ⟨5, _⟩ => ⟨S200x1, .i32⟩
  | .local _ .vmem, ⟨6, _⟩ => ⟨S10x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S200x32x4, .f32⟩
  | .local _ .vmem, ⟨12, _⟩ => ⟨S200x32x4, .f32⟩
  | .local _ .vmem, ⟨13, _⟩ => ⟨S200x4, .i32⟩
  | .local _ .vmem, ⟨14, _⟩ => ⟨S200x4, .i32⟩
  | .local _ .vmem, ⟨15, _⟩ => ⟨S200x1, .i32⟩
  | .local _ .vmem, ⟨16, _⟩ => ⟨S200x1, .i32⟩
  | .local _ .vmem, ⟨17, _⟩ => ⟨S10x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S200x64, .f32⟩
  | .local _ .vmem, ⟨23, _⟩ => ⟨S200x64, .f32⟩
  | _, _ => ⟨S100000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![500], ![false]⟩

def k0_cond2 (i : grid0.Coords) : BitVec 1 :=
  let arg0 : BitVec 32 := BitVec.ofNat 32 (i 0).val
  let c499_i32 : BitVec 32 := 499#32
  let v70 : BitVec 1 := Scalar.cmpi .eq arg0 c499_i32
  let v71 : BitVec 32 := Scalar.extui v70
  let c0_i32_26 : BitVec 32 := 0#32
  let v72 : BitVec 1 := Scalar.cmpi .ne v71 c0_i32_26
  v72

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![500], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x32x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x4 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S10x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S200x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S100000_S100000x1 : S100000.ShapeCasts S100000x1
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S200x32x4_S200x32x4_0_0_0 : ∀ a, (![0, 0, 0] : Fin 3 → Nat) a + S200x32x4.size a ≤ S200x32x4.size a
  h_S200x32x4 : 0 < S200x32x4.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S200x4_S200x4_0_0 : ∀ a, (![0, 0] : Fin 2 → Nat) a + S200x4.size a ≤ S200x4.size a
  h_S200x4 : 0 < S200x4.numel
  slices_S200x32x4_o0_0_0_S200x32x3 : S200x32x4.Slices ![0, 0, 0] S200x32x3
  iota_S200x32_d1_w32 : S200x32.Iotas .tc 32 [1]
  broadcasts_S200x1_S200x32 : S200x1.Broadcasts S200x32
  natLt_1_32 : 1 < 32
  shapeCasts_S200x32_S200x32x1 : S200x32.ShapeCasts S200x32x1
  broadcasts_S200x32x1_S200x32x3 : S200x32x1.Broadcasts S200x32x3
  reduces_S200x32x3_S200x3 : S200x32x3.Reduces [1] S200x3
  broadcasts_S200x1_S200x3 : S200x1.Broadcasts S200x3
  shapeCasts_S200x3_S200x1x3 : S200x3.ShapeCasts S200x1x3
  broadcasts_S200x1x3_S200x32x3 : S200x1x3.Broadcasts S200x32x3
  slices_S200x4_o0_1_S200x1 : S200x4.Slices ![0, 1] S200x1
  slices_S200x4_o0_2_S200x1 : S200x4.Slices ![0, 2] S200x1
  slices_S200x4_o0_3_S200x1 : S200x4.Slices ![0, 3] S200x1
  concatenates_S200x1_S200x1_S200x1_S200x3_d1 : Shape.Concatenates [S200x1, S200x1, S200x1] S200x3 1
  concatenates_S200x32x4_S200x32x3_S200x32x3_S200x32x10_d2 : Shape.Concatenates [S200x32x4, S200x32x3, S200x32x3] S200x32x10 2
  broadcasts_S200x32x1_S200x32x10 : S200x32x1.Broadcasts S200x32x10
  shapeCasts_S200x32x10_S6400x10 : S200x32x10.ShapeCasts S6400x10
  bitsLt_bf16_f32 : FTy.bits .bf16 < FTy.bits .f32
  inb_S10x64_S10x64_0_0 : ∀ a, (![0, 0] : Fin 2 → Nat) a + S10x64.size a ≤ S10x64.size a
  h_S10x64 : 0 < S10x64.numel
  reduces_S6400x64_S64 : S6400x64.Reduces [0] S64
  bcast_S_S1x64 : S_.BroadcastsInDim S1x64 (![] : Fin 0 → Fin S1x64.rank)
  shapeCasts_S6400x64_S200x32x64 : S6400x64.ShapeCasts S200x32x64
  shapeCasts_S1x64_S1x1x64 : S1x64.ShapeCasts S1x1x64
  broadcasts_S1x1x64_S200x32x64 : S1x1x64.Broadcasts S200x32x64
  reduces_S200x32x64_S200x64 : S200x32x64.Reduces [1] S200x64
  inb_S200x64_S200x64_0_0 : ∀ a, (![0, 0] : Fin 2 → Nat) a + S200x64.size a ≤ S200x64.size a
  h_S200x64 : 0 < S200x64.numel
  dot_S6400x10_S10x64_S6400x64_1_0_0_1_n_n_wf : DotDims.WF S6400x10 S10x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x4.size a ≤ S100000x32x4.size a
  hwx0_0 : ∀ i : grid0.Coords, EltTy.bits .f32 = 32 ∨ (Rect.block (s := S100000x32x4) S200x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x4.size a ≤ S100000x4.size a
  hwx0_1 : ∀ i : grid0.Coords, EltTy.bits .i32 = 32 ∨ (Rect.block (s := S100000x4) S200x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x1.size a ≤ S100000x1.size a
  hwx0_2 : ∀ i : grid0.Coords, EltTy.bits .i32 = 32 ∨ (Rect.block (s := S100000x1) S200x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x64.size a ≤ S10x64.size a
  hwx0_3 : ∀ i : grid0.Coords, EltTy.bits .f32 = 32 ∨ (Rect.block (s := S10x64) S10x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x32x4.size a ≤ S100000x32x4.size a
  hwx1_0 : ∀ i : grid1.Coords, EltTy.bits .f32 = 32 ∨ (Rect.block (s := S100000x32x4) S200x32x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x4.size a ≤ S100000x4.size a
  hwx1_1 : ∀ i : grid1.Coords, EltTy.bits .i32 = 32 ∨ (Rect.block (s := S100000x4) S200x4.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x1.size a ≤ S100000x1.size a
  hwx1_2 : ∀ i : grid1.Coords, EltTy.bits .i32 = 32 ∨ (Rect.block (s := S100000x1) S200x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x64.size a ≤ S10x64.size a
  hwx1_3 : ∀ i : grid1.Coords, EltTy.bits .f32 = 32 ∨ (Rect.block (s := S10x64) S10x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S200x64.size a ≤ S100000x64.size a
  hwx1_8 : ∀ i : grid1.Coords, EltTy.bits .f32 = 32 ∨ (Rect.block (s := S100000x64) S200x64.size (cc1_transform_8 i) (hinb1_8 i)).WholeWords (EltTy.packing .f32)

variable [Facts₀]

def dot_S6400x10_S10x64_S6400x64_1_0_0_1_n_n : DotDims S6400x10 S10x64 S6400x64 where
  lhsContracting := [1]
  rhsContracting := [0]
  lhsNonContracting := [0]
  rhsNonContracting := [1]
  lhsBatch := []
  rhsBatch := []
  wf := dot_S6400x10_S10x64_S6400x64_1_0_0_1_n_n_wf

abbrev win0_0 : Pipeline.Window sig grid0 :=
  Pipeline.Window.ofSpec (Memref.whole main_arg0) S200x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S200x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S10x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S200x32x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S200x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S200x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S10x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12) S200x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x32x4 : Shape := ⟨3, ![100000, 32, 4]⟩
abbrev S10x64 : Shape := ⟨2, ![10, 64]⟩
abbrev S64 : Shape := ⟨1, ![64]⟩
abbrev S100000 : Shape := ⟨1, ![100000]⟩
abbrev S100000x4 : Shape := ⟨2, ![100000, 4]⟩
abbrev S3 : Shape := ⟨1, ![3]⟩
abbrev S100000x32x3 : Shape := ⟨3, ![100000, 32, 3]⟩
abbrev S32 : Shape := ⟨1, ![32]⟩
abbrev S1x32 : Shape := ⟨2, ![1, 32]⟩
abbrev S100000x1 : Shape := ⟨2, ![100000, 1]⟩
abbrev S100000x32 : Shape := ⟨2, ![100000, 32]⟩
abbrev S100000x32x1 : Shape := ⟨3, ![100000, 32, 1]⟩
abbrev S_ : Shape := ⟨0, ![]⟩
abbrev S100000x3 : Shape := ⟨2, ![100000, 3]⟩
abbrev S100000x1x3 : Shape := ⟨3, ![100000, 1, 3]⟩
abbrev S1x3 : Shape := ⟨2, ![1, 3]⟩
abbrev S100000x32x10 : Shape := ⟨3, ![100000, 32, 10]⟩
abbrev S100000x32x64 : Shape := ⟨3, ![100000, 32, 64]⟩
abbrev S1x1x64 : Shape := ⟨3, ![1, 1, 64]⟩
abbrev S100000x64 : Shape := ⟨2, ![100000, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x32x4, .f32⟩
  | .hbm, ⟨1, _⟩ => ⟨S10x64, .f32⟩
  | .hbm, ⟨2, _⟩ => ⟨S64, .f32⟩
  | .hbm, ⟨3, _⟩ => ⟨S64, .f32⟩
  | .hbm, ⟨4, _⟩ => ⟨S100000, .i32⟩
  | .hbm, ⟨5, _⟩ => ⟨S100000x4, .i32⟩
  | .hbm, ⟨6, _⟩ => ⟨S3, .f32⟩
  | .hbm, ⟨7, _⟩ => ⟨S100000x32x3, .f32⟩
  | .hbm, ⟨8, _⟩ => ⟨S32, .i32⟩
  | .hbm, ⟨9, _⟩ => ⟨S1x32, .i32⟩
  | .hbm, ⟨10, _⟩ => ⟨S100000x1, .i32⟩
  | .hbm, ⟨11, _⟩ => ⟨S100000x32, .i32⟩
  | .hbm, ⟨12, _⟩ => ⟨S100000x32, .i32⟩
  | .hbm, ⟨13, _⟩ => ⟨S100000x32, .i1⟩
  | .hbm, ⟨14, _⟩ => ⟨S100000x32, .f32⟩
  | .hbm, ⟨15, _⟩ => ⟨S100000x32x1, .f32⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .f32⟩
  | .hbm, ⟨20, _⟩ => ⟨S100000x1, .f32⟩
  | .hbm, ⟨21, _⟩ => ⟨S100000x32x3, .f32⟩
  | .hbm, ⟨22, _⟩ => ⟨S100000x32x3, .f32⟩
  | .hbm, ⟨23, _⟩ => ⟨S_, .f32⟩
  | .hbm, ⟨24, _⟩ => ⟨S100000x3, .f32⟩
  | .hbm, ⟨25, _⟩ => ⟨S100000x3, .f32⟩
  | .hbm, ⟨26, _⟩ => ⟨S100000x3, .f32⟩
  | .hbm, ⟨27, _⟩ => ⟨S100000x1x3, .f32⟩
  | .hbm, ⟨28, _⟩ => ⟨S100000x32x3, .f32⟩
  | .hbm, ⟨29, _⟩ => ⟨S100000x32x3, .f32⟩
  | .hbm, ⟨30, _⟩ => ⟨S100000x3, .i32⟩
  | .hbm, ⟨31, _⟩ => ⟨S100000x3, .f32⟩
  | .hbm, ⟨32, _⟩ => ⟨S_, .f32⟩
  | .hbm, ⟨33, _⟩ => ⟨S100000x3, .f32⟩
  | .hbm, ⟨34, _⟩ => ⟨S100000x3, .f32⟩
  | .hbm, ⟨35, _⟩ => ⟨S1x3, .f32⟩
  | .hbm, ⟨36, _⟩ => ⟨S100000x3, .f32⟩
  | .hbm, ⟨37, _⟩ => ⟨S100000x3, .f32⟩
  | .hbm, ⟨38, _⟩ => ⟨S100000x1x3, .f32⟩
  | .hbm, ⟨39, _⟩ => ⟨S100000x32x3, .f32⟩
  | .hbm, ⟨40, _⟩ => ⟨S100000x32x3, .f32⟩
  | .hbm, ⟨41, _⟩ => ⟨S100000x32x10, .f32⟩
  | .hbm, ⟨42, _⟩ => ⟨S100000x32x10, .f32⟩
  | .hbm, ⟨43, _⟩ => ⟨S100000x32x10, .f32⟩
  | .hbm, ⟨44, _⟩ => ⟨S100000x32x64, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .i32⟩
  | .hbm, ⟨51, _⟩ => ⟨S_, .f32⟩
  | .hbm, ⟨52, _⟩ => ⟨S64, .f32⟩
  | .hbm, ⟨53, _⟩ => ⟨S1x1x64, .f32⟩
  | .hbm, ⟨54, _⟩ => ⟨S_, .f32⟩
  | .hbm, ⟨55, _⟩ => ⟨S1x1x64, .f32⟩
  | .hbm, ⟨56, _⟩ => ⟨S1x1x64, .f32⟩
  | .hbm, ⟨57, _⟩ => ⟨S100000x32x64, .f32⟩
  | .hbm, ⟨58, _⟩ => ⟨S100000x32x64, .f32⟩
  | .hbm, ⟨59, _⟩ => ⟨S100000x32x64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S1x1x64, .f32⟩
  | .hbm, ⟨74, _⟩ => ⟨S100000x32x64, .f32⟩
  | .hbm, ⟨75, _⟩ => ⟨S100000x32x64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S1x1x64, .f32⟩
  | .hbm, ⟨81, _⟩ => ⟨S100000x32x64, .f32⟩
  | .hbm, ⟨82, _⟩ => ⟨S100000x32x64, .f32⟩
  | .hbm, ⟨83, _⟩ => ⟨S1x1x64, .f32⟩
  | .hbm, ⟨84, _⟩ => ⟨S100000x32x64, .f32⟩
  | .hbm, ⟨85, _⟩ => ⟨S100000x32x64, .f32⟩
  | .hbm, ⟨86, _⟩ => ⟨S1x1x64, .f32⟩
  | .hbm, ⟨87, _⟩ => ⟨S100000x32x64, .f32⟩
  | .hbm, ⟨88, _⟩ => ⟨S100000x32x64, .f32⟩
  | .hbm, ⟨89, _⟩ => ⟨S_, .f32⟩
  | .hbm, ⟨90, _⟩ => ⟨S100000x32x64, .f32⟩
  | .hbm, ⟨91, _⟩ => ⟨S100000x32x64, .f32⟩
  | .hbm, ⟨92, _⟩ => ⟨S_, .f32⟩
  | .hbm, ⟨93, _⟩ => ⟨S100000x64, .f32⟩
  | _, _ => ⟨S100000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_5 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_call1_cst : Ref sig .tc := ⟨.hbm, 89, rfl⟩
abbrev main_call1_v0 : Ref sig .tc := ⟨.hbm, 90, rfl⟩
abbrev main_v54 : Ref sig .tc := ⟨.hbm, 91, rfl⟩
abbrev main_cst_6 : Ref sig .tc := ⟨.hbm, 92, rfl⟩
abbrev main_v55 : Ref sig .tc := ⟨.hbm, 93, rfl⟩

abbrev nD : Nat := 1
abbrev τ : Topo := Topo.v7x

variable {F : FTy → Type} [FloatOps F]

class Facts₀ : Prop where
  slices_S100000x32x4_S100000x32x3_0_0_0 : S100000x32x4.Slices ![0, 0, 0] S100000x32x3
  bcast_S32_S1x32_1 : S32.BroadcastsInDim S1x32 (![1] : Fin 1 → Fin S1x32.rank)
  bcast_S100000_S100000x1_0 : S100000.BroadcastsInDim S100000x1 (![0] : Fin 1 → Fin S100000x1.rank)
  bcast_S1x32_S100000x32_0_1 : S1x32.BroadcastsInDim S100000x32 (![0, 1] : Fin 2 → Fin S100000x32.rank)
  bcast_S100000x1_S100000x32_0_1 : S100000x1.BroadcastsInDim S100000x32 (![0, 1] : Fin 2 → Fin S100000x32.rank)
  bcast_S100000x32_S100000x32x1_0_1 : S100000x32.BroadcastsInDim S100000x32x1 (![0, 1] : Fin 2 → Fin S100000x32x1.rank)
  bcast_S_S100000 : S_.BroadcastsInDim S100000 (![] : Fin 0 → Fin S100000.rank)
  bcast_S100000x32x1_S100000x32x3_0_1_2 : S100000x32x1.BroadcastsInDim S100000x32x3 (![0, 1, 2] : Fin 3 → Fin S100000x32x3.rank)
  reducesTo_S100000x32x3_S100000x3_d1 : S100000x32x3.ReducesTo [1] S100000x3
  h_S_ : 0 < S_.numel
  bcast_S100000x1_S100000x3_0_1 : S100000x1.BroadcastsInDim S100000x3 (![0, 1] : Fin 2 → Fin S100000x3.rank)
  bcast_S100000x3_S100000x1x3_0_2 : S100000x3.BroadcastsInDim S100000x1x3 (![0, 2] : Fin 2 → Fin S100000x1x3.rank)
  bcast_S100000x1x3_S100000x32x3_0_1_2 : S100000x1x3.BroadcastsInDim S100000x32x3 (![0, 1, 2] : Fin 3 → Fin S100000x32x3.rank)
  slices_S100000x4_S100000x3_0_1 : S100000x4.Slices ![0, 1] S100000x3
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  concatenates_S100000x32x4_S100000x32x3_S100000x32x3_S100000x32x10_d2 : Shape.Concatenates [S100000x32x4, S100000x32x3, S100000x32x3] S100000x32x10 2
  bcast_S100000x32x1_S100000x32x10_0_1_2 : S100000x32x1.BroadcastsInDim S100000x32x10 (![0, 1, 2] : Fin 3 → Fin S100000x32x10.rank)
  reducesTo_S100000x32x64_S64_d0_1 : S100000x32x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S100000x32x64_0_1_2 : S1x1x64.BroadcastsInDim S100000x32x64 (![0, 1, 2] : Fin 3 → Fin S100000x32x64.rank)
  bcast_S_S100000x32x64 : S_.BroadcastsInDim S100000x32x64 (![] : Fin 0 → Fin S100000x32x64.rank)
  reducesTo_S100000x32x64_S100000x64_d1 : S100000x32x64.ReducesTo [1] S100000x64
  dot_S100000x32x10_S10x64_S100000x32x64_2_0_01_1_n_n_wf : DotDims.WF S100000x32x10 S10x64 S100000x32x64 [2] [0] [0, 1] [1] [] []

variable [Facts₀]

def dot_S100000x32x10_S10x64_S100000x32x64_2_0_01_1_n_n : DotDims S100000x32x10 S10x64 S100000x32x64 where
  lhsContracting := [2]
  rhsContracting := [0]
  lhsNonContracting := [0, 1]
  rhsNonContracting := [1]
  lhsBatch := []
  rhsBatch := []
  wf := dot_S100000x32x10_S10x64_S100000x32x64_2_0_01_1_n_n_wf

class Facts : Prop extends Facts₀ where

variable [Facts]
-- ==== Proof.R0BaseBits.lean ====
/-
  The first pallas_call (the statistics kernel) on its grid of 500 points, the facts its runs share.
  A point's body zeroes two accumulators (two scratch rows of 64 channels) at the first point, adds the
  block's column sums and column sums of squares to them at every point, and copies them to the two
  output rows at the last point. So the grid has three kinds of points: the first (zero, then add),
  a middle one (add), the last (add, then copy out). Here: each window's block read off the array as
  the region finds it; the two branch conditions in closed form over the grid; where the two output
  windows are idle (everywhere but the last point); the staging and scratch memrefs; and the region
  invariant split at the two scratch rows.
-/
import proofs.«109379_j63986422775810_2_alg».proof.Proof.Gen.Kernel.Launch
import proofs.«109379_j63986422775810_2_alg».proof.Proof.Gen.Kernel.Skeleton
import proofs.«109379_j63986422775810_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- "This is the first point": the condition of the body's first branch, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the condition of the body's second branch. -/
abbrev cond0_1 (i : grid0.Coords) : Prop := k0_cond2 i = 1#1
theorem hcond0_1 : ∀ t : Fin cfg0.N, cond0_1 (grid0.coords t) ↔ t.val = 499 :=
  (by decide +kernel : ∀ t : Fin grid0.N, cond0_1 (grid0.coords t) ↔ t.val = 499)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the two output windows are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev VO0_4 : View sig .tc .vmem S1x64 .f32 := (Memref.whole cc0_stg4_0 : Memref sig .tc .vmem S1x64 .f32).view
abbrev VO0_5 : View sig .tc .vmem S1x64 .f32 := (Memref.whole cc0_stg5_0 : Memref sig .tc .vmem S1x64 .f32).view
abbrev ms0_0 (t : Fin cfg0.N) : Memref sig .tc .vmem S200x32x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
/-- The two accumulator rows. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The scoped buffers of the core other than this call's staging buffers and its two accumulator rows. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class invariant with the two accumulator rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA
  rw [Pipeline.scopedRest_split_of_list spec0 c [cc0_scratch0, cc0_scratch1] (by decide) (by decide)]
  simp only [scM0_0, scM0_1, owns_whole, Idealize.SL.BI.bigSepL_cons_cons, Idealize.SL.BI.bigSepL_singleton]; try rfl

end Cert.Kernel.Gen

end
-- ==== Proof.R0RunABits.lean ====
/-
  The statistics kernel's body run whole at a first point of its grid (symbolic execution of its memory
  operations over the pure payloads): which pieces each accumulator row, and at the last point each output
  row, ends up holding.
-/
import proofs.«109379_j63986422775810_2_alg».proof.Proof.R0BaseBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at the FIRST point (not the last): on whole staging memrefs, the inputs at their contents, the two idle
    output rows at contents handed back untouched, the two accumulator rows at anything, it runs to the continuation
    holding the inputs as they were and each accumulator row with its pieces written; the pieces are what the run finds. -/
noncomputable def kernelRun0_A (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S200x32x4 .f32) (x1 : Vec F S200x4 .i32) (x2 : Vec F S200x1 .i32) (x3 : Vec F S10x64 .f32) :
    Σ' (LS0 : List (View.Piece (Elt F) S1x64 .f32)), { LS1 : List (View.Piece (Elt F) S1x64 .f32) //
      ∀ (xi4 xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_stats_kernel i arg1 harg1 arg2 harg2 arg3 harg3 arg4 harg4 arg5 harg5 arg6 harg6 arg7 harg7 arg8 harg8) K } := by
  refine ⟨?_, ?_, fun xi4 xi5 E K => ?run⟩
  case run =>
    haveI : Fact (cond0_0 i) := ⟨hc0⟩
    haveI : Fact (¬cond0_1 i) := ⟨hc1⟩
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Gen

end
-- ==== Proof.R0RunBBits.lean ====
/-
  The statistics kernel's body run whole at a middle point of its grid (symbolic execution of its memory
  operations over the pure payloads): which pieces each accumulator row, and at the last point each output
  row, ends up holding.
-/
import proofs.«109379_j63986422775810_2_alg».proof.Proof.R0BaseBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE point (neither first nor last): the accumulator rows come in at the contents the point
    before left (`xs0`, `xs1`) and go out with this point's pieces written; the idle output rows pass untouched. -/
noncomputable def kernelRun0_B (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S200x32x4 .f32) (x1 : Vec F S200x4 .i32) (x2 : Vec F S200x1 .i32) (x3 : Vec F S10x64 .f32) (xs0 xs1 : Vec F S1x64 .f32) :
    Σ' (LS0 : List (View.Piece (Elt F) S1x64 .f32)), { LS1 : List (View.Piece (Elt F) S1x64 .f32) //
      ∀ (xi4 xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_stats_kernel i arg1 harg1 arg2 harg2 arg3 harg3 arg4 harg4 arg5 harg5 arg6 harg6 arg7 harg7 arg8 harg8) K } := by
  refine ⟨?_, ?_, fun xi4 xi5 E K => ?run⟩
  case run =>
    haveI : Fact (¬cond0_0 i) := ⟨hc0⟩
    haveI : Fact (¬cond0_1 i) := ⟨hc1⟩
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Gen

end
-- ==== Proof.R0RunCBits.lean ====
/-
  The statistics kernel's body run whole at a last point of its grid (symbolic execution of its memory
  operations over the pure payloads): which pieces each accumulator row, and at the last point each output
  row, ends up holding.
-/
import proofs.«109379_j63986422775810_2_alg».proof.Proof.R0BaseBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the LAST point (not the first): as a middle point, and then the two output rows — at anything on
    entry — receive the accumulators: each leaves with its pieces written. -/
noncomputable def kernelRun0_C (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S200x32x4 .f32) (x1 : Vec F S200x4 .i32) (x2 : Vec F S200x1 .i32) (x3 : Vec F S10x64 .f32) (xs0 xs1 : Vec F S1x64 .f32) :
    Σ' (L4 : List (View.Piece (Elt F) S1x64 .f32)) (L5 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_stats_kernel i arg1 harg1 arg2 harg2 arg3 harg3 arg4 harg4 arg5 harg5 arg6 harg6 arg7 harg7 arg8 harg8) K } := by
  refine ⟨?_, ?_, ?_, ?_, fun E K => ?run⟩
  case run =>
    haveI : Fact (¬cond0_0 i) := ⟨hc0⟩
    haveI : Fact (cond0_1 i) := ⟨hc1⟩
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Gen

end
-- ==== Proof.Region0Bits.lean ====
/-
  The statistics kernel over its grid: what the two accumulator rows (and, at the last point, the two output
  rows) hold after each point as a recursion over the points, the region's invariant that names the accumulators'
  contents between points, the pipeline's proof data, and the body obligation at every point.
-/
import proofs.«109379_j63986422775810_2_alg».proof.Proof.R0RunABits
import proofs.«109379_j63986422775810_2_alg».proof.Proof.R0RunBBits
import proofs.«109379_j63986422775810_2_alg».proof.Proof.R0RunCBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves in the accumulator rows and the output rows -/

/-- A row nothing consults: what stands for an output row's staging buffer at a point where the window is idle. -/
def idleRow4 : Vec F S1x64 .f32 := VO0_4.read (Elt F) VO0_4.junk
def idleRow5 : Vec F S1x64 .f32 := VO0_5.read (Elt F) VO0_5.junk

theorem scover0_A_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) (y : S1x64.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S1x64.size (by sl_kernel_rfl) y
theorem scover0_A_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) (y : S1x64.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S1x64.size (by sl_kernel_rfl) y
/-- The first accumulator row after the first point, -/
def sout0_A_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).1)
/-- and the second. -/
def sout0_A_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.1)

theorem scover0_B_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S1x64.size (by sl_kernel_rfl) y
theorem scover0_B_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S1x64.size (by sl_kernel_rfl) y
/-- The accumulator rows after a middle point, from what the point before left. -/
def sout0_B_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).1)
def sout0_B_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.1)

theorem cover0_C_4 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x64.size (by sl_kernel_rfl) y
theorem cover0_C_5 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x64.size (by sl_kernel_rfl) y
theorem scover0_C_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x64.size (by sl_kernel_rfl) y
theorem scover0_C_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x64.size (by sl_kernel_rfl) y
/-- The two output rows and the two accumulator rows after the last point. -/
def out0_C_4 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) : Vec F S1x64 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)
def out0_C_5 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) : Vec F S1x64 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)
def sout0_C_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)
def sout0_C_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

section
variable (V : (c : Dev nD) → (b : Ref sig .tc) → Buf (Elt F) ((c : Thread nD τ).loc b))

/-! ## The accumulation over the grid -/

/-- After the body at position `n`: the two output rows' staging buffers and the two accumulator rows
    (a tuple: output 4, output 5, accumulator 0, accumulator 1). The first point starts the accumulators; every later
    point continues from what the point before left; only the last writes the output rows. -/
def outsAt0 (c : Dev nD) : (n : ℕ) → n < cfg0.N → Vec F S1x64 .f32 × Vec F S1x64 .f32 × Vec F S1x64 .f32 × Vec F S1x64 .f32
  | 0, hn => (idleRow4, idleRow5,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 499 by decide)) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 499 by decide)) (iblk0 V c 0 ⟨0, hn⟩) (iblk0 V c 1 ⟨0, hn⟩) (iblk0 V c 2 ⟨0, hn⟩) (iblk0 V c 3 ⟨0, hn⟩))
  | n + 1, hn =>
    if h1 : n + 1 = 499 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (idleRow4, idleRow5,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- The point before `t` (when `t` is not the first). -/
abbrev prevOuts (c : Dev nD) (t : Fin cfg0.N) := outsAt0 V c (t.val - 1) (Nat.lt_of_le_of_lt (Nat.sub_le _ _) t.isLt)

theorem outsAt0_A (c : Dev nD) (t : Fin cfg0.N) (h0 : t.val = 0) (hc0 : cond0_0 (grid0.coords t)) (hc1 : ¬cond0_1 (grid0.coords t)) :
    outsAt0 V c t.val t.isLt = (idleRow4, idleRow5,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)) := by
  obtain ⟨n, hn⟩ := t
  cases n with
  | zero => rfl
  | succ n => exact absurd h0 (Nat.succ_ne_zero n)

theorem outsAt0_B (c : Dev nD) (t : Fin cfg0.N) (h0 : ¬t.val = 0) (h1 : ¬t.val = 499) (hc0 : ¬cond0_0 (grid0.coords t)) (hc1 : ¬cond0_1 (grid0.coords t)) :
    outsAt0 V c t.val t.isLt = (idleRow4, idleRow5,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 499) (hc0 : ¬cond0_0 (grid0.coords t)) (hc1 : cond0_1 (grid0.coords t)) :
    outsAt0 V c t.val t.isLt = (
      out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2) := by
  obtain ⟨n, hn⟩ := t
  cases n with
  | zero => exact absurd rfl h0
  | succ n => exact (dif_pos h1).trans rfl

/-! ## The region's invariant: the accumulator rows named between points -/

/-- Before position `n`: before the first point the class's invariant (the accumulator rows at anything); afterwards
    the two accumulator rows at what the point before left, the other scoped buffers and the generator register at anything. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ restBut0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0_0 fullShare ((outsAt0 V c n hn).2.2.1) ∗ owns (c : Thread nD τ) scM0_1 fullShare ((outsAt0 V c n hn).2.2.2)) ∗ restBut0 c) ∗ (∃ r, prngReg c r)) := rfl
theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ restBut0 c) ∗ (∃ r, prngReg c r)) := by
  cases n with
  | zero => exact absurd rfl hz
  | succ n => rfl

/-! ## The pipeline's proof data -/

/-- The arrays as the region finds them; after the body at a point each input's buffer at its block and the outputs'
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point: the inputs' memrefs hold their blocks; the closed forms say which kind of point it is; the
    invariant hands the body the accumulator rows (at anything at the first point, else at what the point before left) and
    takes them back at this point's contents; the idle output rows pass through; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 500 := lt_of_lt_of_eq t.isLt (show cfg0.N = 500 from N_0)
  by_cases h0 : t.val = 0
  · have h1 : ¬t.val = 499 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [Dat.leavesExact_idle (dat0 V c) 5 t (idleAt0_5 t hc1) (noFlush0_5 t hc1)]
    rw [outsAt0_A V c t h0 hc0 hc1]
    unfold sout0_A_0 sout0_A_1; (try dsimp only)
    rw [PhiS_castSucc V c t, PhiS_zero V c _ _ h0, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ hc0 hc1 (iblk0 V c 0 t) (iblk0 V c 1 t) (iblk0 V c 2 t) (iblk0 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond0_0 (grid0.coords t) := fun h => h0 ((hcond0_0 t).mp h)
    by_cases h1 : t.val = 499
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1 hc0 hc1]
      unfold out0_C_4 out0_C_5 sout0_C_0 sout0_C_1; (try dsimp only)
      rw [PhiS_castSucc V c t, PhiS_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      · unfold owns; iexists _; isplitr
        swap; · iexact H5
        ipureintro; exact View.read_writes_of_cover _ _ _ _ _ (cover0_C_5 c _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 4 t (idleAt0_4 t hc1) (noFlush0_4 t hc1)]
      rw [Dat.leavesExact_idle (dat0 V c) 5 t (idleAt0_5 t hc1) (noFlush0_5 t hc1)]
      rw [outsAt0_B V c t h0 h1 hc0 hc1]
      unfold sout0_B_0 sout0_B_1; (try dsimp only)
      rw [PhiS_castSucc V c t, PhiS_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator rows' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 500 := N_0; omega)

/-- The same with the class's invariant spelt out: the scoped buffers at anything, the generator register at some state. -/
theorem hout0' (c : Dev nD) : (dat0 V c).Φ (Fin.last cfg0.N)
    ⊢ (iprop(Pipeline.scopedRest (Ix := Unit) (Name := ℕ) (U := UR sig nD τ) (Lvl := ℕ) (Val := Elt F) spec0 c ∗ ∃ r, prngReg c r) : sProp 𝕄) := by
  have h := hout0 V c
  unfold Pipeline.ΦA at h
  exact h

end

end Cert.Kernel.Gen

end
-- ==== Proof.Region1Bits.lean ====
/-
  The frame half of the second pallas_call (`cc1_pfn_kernel`, pipeline 1), at any float model `F` and at a
  parameter `V`: the TensorCore's buffer contents when the call is entered.

  The body is of the plainest class: at every grid point it loads its eight input windows' staging buffers whole
  (features, coordinates, point counts, the projection matrix, γ, β, the per-channel mean and variance), computes, and
  stores the whole output window once. So what it finds in each input buffer is that window's block of its array at
  the point (`iblk1`), fetched there or not — the five one-block windows are fetched at the first point only and their
  block index never moves —, and what it leaves in the output buffer is a closed function of those blocks: the one
  store's payload laid over the buffer (`out1_8`). From the body's triple (`sound_kernel1`) follow the pipeline's proof
  data (`dat1`) and the body obligation at every point (`body_obligation1`).
-/
import proofs.«109379_j63986422775810_2_alg».proof.Proof.Gen.Kernel.Launch
import proofs.«109379_j63986422775810_2_alg».proof.Proof.Gen.Kernel.Skeleton
import proofs.«109379_j63986422775810_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the
-- long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter this region's half is stated at
variable (V : (c : Dev nD) → (b : Ref sig .tc) → Buf (Elt F) ((c : Thread nD τ).loc b))

/-! # The second pallas_call (`cc1_pfn_kernel`, pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has the
    block index of the point before it, the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has the
    block index of the point before it, the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has the
    block index of the point before it, the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has the
    block index of the point before it, the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): an unfetched point has the
    block index of the point before it, the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): an unfetched point has the
    block index of the point before it, the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): an unfetched point has the
    block index of the point before it, the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s (`hA`) and whose body leaves the block in place (`hafter`): an unfetched point has the
    block index of the point before it, the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S200x64 := Rect.unit (s := S200x64) ![0, 0] S200x64.size inb_S200x64_S200x64_0_0
abbrev r1_1 : Rect S200x32x4 := Rect.unit (s := S200x32x4) ![0, 0, 0] S200x32x4.size inb_S200x32x4_S200x32x4_0_0_0
abbrev r1_2 : Rect S200x4 := Rect.unit (s := S200x4) ![0, 0] S200x4.size inb_S200x4_S200x4_0_0
abbrev r1_3 : Rect S200x1 := Rect.unit (s := S200x1) ![0, 0] S200x1.size inb_S200x1_S200x1_0_0
abbrev r1_4 : Rect S10x64 := Rect.unit (s := S10x64) ![0, 0] S10x64.size inb_S10x64_S10x64_0_0
abbrev r1_5 : Rect S1x64 := Rect.unit (s := S1x64) ![0, 0] S1x64.size inb_S1x64_S1x64_0_0

/-! ## What the body leaves in the output window's buffer -/

/-- Window 8's staging buffer after the body, from the input windows' blocks: its one store, whose payload is the
    normalised, affinely mapped, clipped and pillar-wise maximised projection of the block's features. -/
def out1_8 (x0 : Vec F S200x32x4 .f32) (x1 : Vec F S200x4 .i32) (x2 : Vec F S200x1 .i32) (x3 : Vec F S10x64 .f32) (x4 : Vec F S1x64 .f32) (x5 : Vec F S1x64 .f32) (x6 : Vec F S1x64 .f32) (x7 : Vec F S1x64 .f32) : Vec F S200x64 .f32 :=
  View.canon [⟨r1_0, k1_pay1 (View.ld x0 r1_1) (k1_pay4 (View.ld x2 r1_3)) (k1_pay5 (View.ld x0 r1_1) (View.ld x2 r1_3)) (k1_pay6 (View.ld x0 r1_1) (View.ld x1 r1_2)) (View.ld x3 r1_4) (View.ld x6 r1_5) (View.ld x7 r1_5) (View.ld x4 r1_5) (View.ld x5 r1_5)⟩]

/-- The store tiles the buffer (checked by evaluation), so it covers it. -/
theorem cover1_8 (p0 : Vec F S200x64 .f32) (y : S200x64.Idx) :
    ∃ pc ∈ ([⟨r1_0, p0⟩] : List (View.Piece (Elt F) S200x64 .f32)), y ∈ pc.1.set :=
  View.cover_of_tiled [⟨r1_0, p0⟩] S200x64.size (by rfl) y

/-! ## The body's triple -/

set_option maxHeartbeats 1000000 in
/-- The kernel body on whole staging memrefs, the inputs' at read contents `xW` and the output's at anything, runs to
    the continuation holding the inputs' as they were and the output's at `out1_8` of the inputs': the printed functions
    are their skeletons, run operation by operation through the part call; the output's load before its store reads
    contents nothing uses. -/
theorem sound_kernel1 (c : Dev nD) (E : Set ℕ) (i : grid1.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S200x64 .f32) (harg9 : arg9.IsWhole)
    (x0 : Vec F S200x32x4 .f32) (x1 : Vec F S200x4 .i32) (x2 : Vec F S200x1 .i32) (x3 : Vec F S10x64 .f32) (x4 : Vec F S1x64 .f32) (x5 : Vec F S1x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1_pfn_kernel i arg1 harg1 arg2 harg2 arg3 harg3 arg4 harg4 arg5 harg5 arg6 harg6 arg7 harg7 arg8 harg8 arg9 harg9) K := by
  simp only [cc1_pfn_kernel_eq_skeleton]; unfold cc1_pfn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at
    point `t` each input's buffer at its block and the output's at `out1_8` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.MainRunBits.lean ====
/-
  The whole program's run: @main is three reshapes, the statistics kernel, eleven host lines (mean, mean of squares,
  variance clipped at zero) and the second kernel. The buffer contents at each boundary are a fold from the launch
  memory: a host stretch applies its operations, a kernel leaves each of its arrays at what its pipeline's write-backs
  leave and every other buffer as entered. Each kernel is a segment whose body obligation is proved elsewhere; the
  arguments are read back through the fold to their launch contents, the result array to the second pipeline's final array.
-/
import proofs.«109379_j63986422775810_2_alg».proof.Proof.Region0Bits
import proofs.«109379_j63986422775810_2_alg».proof.Proof.Region1Bits
import proofs.«109379_j63986422775810_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The buffer contents at each boundary of @main: a fold from the launch memory -/

/-- Core `c`'s buffers at launch. -/
abbrev W0 : Dev nD → Valuation τ sig (Elt F) := fun c b => (s₀ m ρ).mem ((c : Dev nD), b)
/-- After the three reshapes (the first kernel's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host lines between the kernels (the second kernel's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second kernel's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## A buffer no stretch writes keeps its contents across it -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
/-- An input window's array leaves the first kernel as it entered, -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
/-- and the second. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))

/-! ## The arguments end as launched -/

theorem W4_main_arg0 (c : Dev nD) : W4 m ρ c (Proc.devRef .tc main_arg0) = m ((c : Thread nD τ).loc main_arg0) :=
  (W4_in m ρ c 0 rfl).trans <| (W3_keep m ρ c main_arg0 (by decide)).trans <| (W2_in m ρ c 0 rfl).trans <| (W1_keep m ρ c main_arg0 (by decide)).trans rfl
theorem W4_main_arg1 (c : Dev nD) : W4 m ρ c (Proc.devRef .tc main_arg1) = m ((c : Thread nD τ).loc main_arg1) :=
  (W4_in m ρ c 3 rfl).trans <| (W3_keep m ρ c main_arg1 (by decide)).trans <| (W2_in m ρ c 3 rfl).trans <| (W1_keep m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_keep m ρ c main_arg2 (by decide)).trans <| (W2_of_ne m ρ c main_arg2 (by decide)).trans <| (W1_keep m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_keep m ρ c main_arg3 (by decide)).trans <| (W2_of_ne m ρ c main_arg3 (by decide)).trans <| (W1_keep m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_keep m ρ c main_arg4 (by decide)).trans <| (W2_of_ne m ρ c main_arg4 (by decide)).trans <| (W1_keep m ρ c main_arg4 (by decide)).trans rfl
theorem W4_main_arg5 (c : Dev nD) : W4 m ρ c (Proc.devRef .tc main_arg5) = m ((c : Thread nD τ).loc main_arg5) :=
  (W4_in m ρ c 1 rfl).trans <| (W3_keep m ρ c main_arg5 (by decide)).trans <| (W2_in m ρ c 1 rfl).trans <| (W1_keep m ρ c main_arg5 (by decide)).trans rfl
/-- The result array ends at what the second pipeline's write-backs leave. -/
theorem W4_main_v12 (c : Dev nD) : W4 m ρ c (Proc.devRef .tc main_v12) = (dat1 (U3 m ρ) c).arrAt 8 cfg1.N :=
  W4_arr m ρ c 8

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The first kernel over the thread state: entered from every unscoped buffer at `W1`, left at `W2`; the generator
    register and the scoped buffers go into the region's invariant and come back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS (U1 m ρ) c 0 (Nat.zero_le _) from rfl, PhiS_zero (U1 m ρ) c 0 _ rfl]
    unfold Pipeline.ΦA
    iintro ⟨Hp, -, Hr⟩
    isplitl [Hr]; · iexact Hr
    iexact Hp
  hout c := by
    rw [Pipeline.ownSems0_none, show (pdats m ρ 0 c).Φ (Fin.last _) = (dat0 (U1 m ρ) c).Φ (Fin.last cfg0.N) from rfl]
    have hΦ := hout0' (U1 m ρ) c
    iintro H
    ihave H' := hΦ $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final state holds the result array at what the second pipeline's write-backs leave and every argument as launched. -/
theorem run_all : θ_run defs (onTc (τ := τ) (main (F := F))) ⟨m, fun _ => 0, ρ⟩ (fun r => ∀ c : Dev nD,
      r.2.mem ((c.tc : Thread nD τ).loc main_v12) = (dat1 (U3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v12 (by decide))).trans (W4_main_v12 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Kernel.Run

end
-- ==== Proof.R0Base.lean ====
/-
  The first pallas_call (the statistics kernel) on its grid of 500 points, the facts its runs share.
  A point's body zeroes two accumulators (two scratch rows of 64 channels) at the first point, adds the
  block's column sums and column sums of squares to them at every point, and copies them to the two
  output rows at the last point. So the grid has three kinds of points: the first (zero, then add),
  a middle one (add), the last (add, then copy out). Here: each window's block read off the array as
  the region finds it; the two branch conditions in closed form over the grid; where the two output
  windows are idle (everywhere but the last point); the staging and scratch memrefs; and the region
  invariant split at the two scratch rows.
-/
import proofs.«109379_j63986422775810_2_alg».proof.Proof.Gen.KernelIdeal.Launch
import proofs.«109379_j63986422775810_2_alg».proof.Proof.Gen.KernelIdeal.Skeleton
import proofs.«109379_j63986422775810_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's branch conditions -/

/-- "This is the first point": the condition of the body's first branch, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the condition of the body's second branch. -/
abbrev cond0_1 (i : grid0.Coords) : Prop := k0_cond2 i = 1#1
theorem hcond0_1 : ∀ t : Fin cfg0.N, cond0_1 (grid0.coords t) ↔ t.val = 499 :=
  (by decide +kernel : ∀ t : Fin grid0.N, cond0_1 (grid0.coords t) ↔ t.val = 499)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the two output windows are idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point they are live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev VO0_4 : View sig .tc .vmem S1x64 .f32 := (Memref.whole cc0_stg4_0 : Memref sig .tc .vmem S1x64 .f32).view
abbrev VO0_5 : View sig .tc .vmem S1x64 .f32 := (Memref.whole cc0_stg5_0 : Memref sig .tc .vmem S1x64 .f32).view
abbrev ms0_0 (t : Fin cfg0.N) : Memref sig .tc .vmem S200x32x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
/-- The two accumulator rows. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The scoped buffers of the core other than this call's staging buffers and its two accumulator rows. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class invariant with the two accumulator rows as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA
  rw [Pipeline.scopedRest_split_of_list spec0 c [cc0_scratch0, cc0_scratch1] (by decide) (by decide)]
  simp only [scM0_0, scM0_1, owns_whole, Idealize.SL.BI.bigSepL_cons_cons, Idealize.SL.BI.bigSepL_singleton]; try rfl

end Cert.KernelIdeal.Gen

end
-- ==== Proof.R0RunA.lean ====
/-
  The statistics kernel's body run whole at a first point of its grid (symbolic execution of its memory
  operations over the pure payloads): which pieces each accumulator row, and at the last point each output
  row, ends up holding.
-/
import proofs.«109379_j63986422775810_2_alg».proof.Proof.R0Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body at the FIRST point (not the last): on whole staging memrefs, the inputs at their contents, the two idle
    output rows at contents handed back untouched, the two accumulator rows at anything, it runs to the continuation
    holding the inputs as they were and each accumulator row with its pieces written; the pieces are what the run finds. -/
noncomputable def kernelRun0_A (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x0 : Vec F S200x32x4 .f32) (x1 : Vec F S200x4 .i32) (x2 : Vec F S200x1 .i32) (x3 : Vec F S10x64 .f32) :
    Σ' (LS0 : List (View.Piece (Elt F) S1x64 .f32)), { LS1 : List (View.Piece (Elt F) S1x64 .f32) //
      ∀ (xi4 xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_stats_kernel i arg1 harg1 arg2 harg2 arg3 harg3 arg4 harg4 arg5 harg5 arg6 harg6 arg7 harg7 arg8 harg8) K } := by
  refine ⟨?_, ?_, fun xi4 xi5 E K => ?run⟩
  case run =>
    haveI : Fact (cond0_0 i) := ⟨hc0⟩
    haveI : Fact (¬cond0_1 i) := ⟨hc1⟩
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Gen

end
-- ==== Proof.R0RunB.lean ====
/-
  The statistics kernel's body run whole at a middle point of its grid (symbolic execution of its memory
  operations over the pure payloads): which pieces each accumulator row, and at the last point each output
  row, ends up holding.
-/
import proofs.«109379_j63986422775810_2_alg».proof.Proof.R0Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE point (neither first nor last): the accumulator rows come in at the contents the point
    before left (`xs0`, `xs1`) and go out with this point's pieces written; the idle output rows pass untouched. -/
noncomputable def kernelRun0_B (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x0 : Vec F S200x32x4 .f32) (x1 : Vec F S200x4 .i32) (x2 : Vec F S200x1 .i32) (x3 : Vec F S10x64 .f32) (xs0 xs1 : Vec F S1x64 .f32) :
    Σ' (LS0 : List (View.Piece (Elt F) S1x64 .f32)), { LS1 : List (View.Piece (Elt F) S1x64 .f32) //
      ∀ (xi4 xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_stats_kernel i arg1 harg1 arg2 harg2 arg3 harg3 arg4 harg4 arg5 harg5 arg6 harg6 arg7 harg7 arg8 harg8) K } := by
  refine ⟨?_, ?_, fun xi4 xi5 E K => ?run⟩
  case run =>
    haveI : Fact (¬cond0_0 i) := ⟨hc0⟩
    haveI : Fact (¬cond0_1 i) := ⟨hc1⟩
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Gen

end
-- ==== Proof.R0RunC.lean ====
/-
  The statistics kernel's body run whole at a last point of its grid (symbolic execution of its memory
  operations over the pure payloads): which pieces each accumulator row, and at the last point each output
  row, ends up holding.
-/
import proofs.«109379_j63986422775810_2_alg».proof.Proof.R0Base

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the LAST point (not the first): as a middle point, and then the two output rows — at anything on
    entry — receive the accumulators: each leaves with its pieces written. -/
noncomputable def kernelRun0_C (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x0 : Vec F S200x32x4 .f32) (x1 : Vec F S200x4 .i32) (x2 : Vec F S200x1 .i32) (x3 : Vec F S10x64 .f32) (xs0 xs1 : Vec F S1x64 .f32) :
    Σ' (L4 : List (View.Piece (Elt F) S1x64 .f32)) (L5 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_stats_kernel i arg1 harg1 arg2 harg2 arg3 harg3 arg4 harg4 arg5 harg5 arg6 harg6 arg7 harg7 arg8 harg8) K } := by
  refine ⟨?_, ?_, ?_, ?_, fun E K => ?run⟩
  case run =>
    haveI : Fact (¬cond0_0 i) := ⟨hc0⟩
    haveI : Fact (cond0_1 i) := ⟨hc1⟩
    simp only [cc0_stats_kernel_eq_skeleton]; unfold cc0_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Gen

end
-- ==== Proof.Region0.lean ====
/-
  The statistics kernel over its grid: what the two accumulator rows (and, at the last point, the two output
  rows) hold after each point as a recursion over the points, the region's invariant that names the accumulators'
  contents between points, the pipeline's proof data, and the body obligation at every point.
-/
import proofs.«109379_j63986422775810_2_alg».proof.Proof.R0RunA
import proofs.«109379_j63986422775810_2_alg».proof.Proof.R0RunB
import proofs.«109379_j63986422775810_2_alg».proof.Proof.R0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves in the accumulator rows and the output rows -/

/-- A row nothing consults: what stands for an output row's staging buffer at a point where the window is idle. -/
def idleRow4 : Vec F S1x64 .f32 := VO0_4.read (Elt F) VO0_4.junk
def idleRow5 : Vec F S1x64 .f32 := VO0_5.read (Elt F) VO0_5.junk

theorem scover0_A_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) (y : S1x64.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S1x64.size (by sl_kernel_rfl) y
theorem scover0_A_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) (y : S1x64.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S1x64.size (by sl_kernel_rfl) y
/-- The first accumulator row after the first point, -/
def sout0_A_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) : Vec F S1x64 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).1)
/-- and the second. -/
def sout0_A_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.1)

theorem scover0_B_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S1x64.size (by sl_kernel_rfl) y
theorem scover0_B_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S1x64.size (by sl_kernel_rfl) y
/-- The accumulator rows after a middle point, from what the point before left. -/
def sout0_B_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) : Vec F S1x64 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).1)
def sout0_B_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.1)

theorem cover0_C_4 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x64.size (by sl_kernel_rfl) y
theorem cover0_C_5 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x64.size (by sl_kernel_rfl) y
theorem scover0_C_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x64.size (by sl_kernel_rfl) y
theorem scover0_C_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) (y : S1x64.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x64.size (by sl_kernel_rfl) y
/-- The two output rows and the two accumulator rows after the last point. -/
def out0_C_4 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) : Vec F S1x64 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)
def out0_C_5 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) : Vec F S1x64 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)
def sout0_C_0 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) : Vec F S1x64 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)
def sout0_C_1 (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) : Vec F S1x64 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

section
variable (V : (c : Dev nD) → (b : Ref sig .tc) → Buf (Elt F) ((c : Thread nD τ).loc b))

/-! ## The accumulation over the grid -/

/-- After the body at position `n`: the two output rows' staging buffers and the two accumulator rows
    (a tuple: output 4, output 5, accumulator 0, accumulator 1). The first point starts the accumulators; every later
    point continues from what the point before left; only the last writes the output rows. -/
def outsAt0 (c : Dev nD) : (n : ℕ) → n < cfg0.N → Vec F S1x64 .f32 × Vec F S1x64 .f32 × Vec F S1x64 .f32 × Vec F S1x64 .f32
  | 0, hn => (idleRow4, idleRow5,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 499 by decide)) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (fun h => absurd ((hcond0_1 ⟨0, hn⟩).mp h) (show ¬(0 : ℕ) = 499 by decide)) (iblk0 V c 0 ⟨0, hn⟩) (iblk0 V c 1 ⟨0, hn⟩) (iblk0 V c 2 ⟨0, hn⟩) (iblk0 V c 3 ⟨0, hn⟩))
  | n + 1, hn =>
    if h1 : n + 1 = 499 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (idleRow4, idleRow5,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- The point before `t` (when `t` is not the first). -/
abbrev prevOuts (c : Dev nD) (t : Fin cfg0.N) := outsAt0 V c (t.val - 1) (Nat.lt_of_le_of_lt (Nat.sub_le _ _) t.isLt)

theorem outsAt0_A (c : Dev nD) (t : Fin cfg0.N) (h0 : t.val = 0) (hc0 : cond0_0 (grid0.coords t)) (hc1 : ¬cond0_1 (grid0.coords t)) :
    outsAt0 V c t.val t.isLt = (idleRow4, idleRow5,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t)) := by
  obtain ⟨n, hn⟩ := t
  cases n with
  | zero => rfl
  | succ n => exact absurd h0 (Nat.succ_ne_zero n)

theorem outsAt0_B (c : Dev nD) (t : Fin cfg0.N) (h0 : ¬t.val = 0) (h1 : ¬t.val = 499) (hc0 : ¬cond0_0 (grid0.coords t)) (hc1 : ¬cond0_1 (grid0.coords t)) :
    outsAt0 V c t.val t.isLt = (idleRow4, idleRow5,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 499) (hc0 : ¬cond0_0 (grid0.coords t)) (hc1 : cond0_1 (grid0.coords t)) :
    outsAt0 V c t.val t.isLt = (
      out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2,
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) (prevOuts V c t).2.2.1 (prevOuts V c t).2.2.2) := by
  obtain ⟨n, hn⟩ := t
  cases n with
  | zero => exact absurd rfl h0
  | succ n => exact (dif_pos h1).trans rfl

/-! ## The region's invariant: the accumulator rows named between points -/

/-- Before position `n`: before the first point the class's invariant (the accumulator rows at anything); afterwards
    the two accumulator rows at what the point before left, the other scoped buffers and the generator register at anything. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ restBut0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0_0 fullShare ((outsAt0 V c n hn).2.2.1) ∗ owns (c : Thread nD τ) scM0_1 fullShare ((outsAt0 V c n hn).2.2.2)) ∗ restBut0 c) ∗ (∃ r, prngReg c r)) := rfl
theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ restBut0 c) ∗ (∃ r, prngReg c r)) := by
  cases n with
  | zero => exact absurd rfl hz
  | succ n => rfl

/-! ## The pipeline's proof data -/

/-- The arrays as the region finds them; after the body at a point each input's buffer at its block and the outputs'
    at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point: the inputs' memrefs hold their blocks; the closed forms say which kind of point it is; the
    invariant hands the body the accumulator rows (at anything at the first point, else at what the point before left) and
    takes them back at this point's contents; the idle output rows pass through; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3]
  have hN : t.val < 500 := lt_of_lt_of_eq t.isLt (show cfg0.N = 500 from N_0)
  by_cases h0 : t.val = 0
  · have h1 : ¬t.val = 499 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [Dat.leavesExact_idle (dat0 V c) 5 t (idleAt0_5 t hc1) (noFlush0_5 t hc1)]
    rw [outsAt0_A V c t h0 hc0 hc1]
    unfold sout0_A_0 sout0_A_1; (try dsimp only)
    rw [PhiS_castSucc V c t, PhiS_zero V c _ _ h0, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ hc0 hc1 (iblk0 V c 0 t) (iblk0 V c 1 t) (iblk0 V c 2 t) (iblk0 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond0_0 (grid0.coords t) := fun h => h0 ((hcond0_0 t).mp h)
    by_cases h1 : t.val = 499
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1 hc0 hc1]
      unfold out0_C_4 out0_C_5 sout0_C_0 sout0_C_1; (try dsimp only)
      rw [PhiS_castSucc V c t, PhiS_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ hc0 hc1 (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      · unfold owns; iexists _; isplitr
        swap; · iexact H5
        ipureintro; exact View.read_writes_of_cover _ _ _ _ _ (cover0_C_5 c _ _ _ _ _ _ _ _ _ _ _ _ _ _ _ _ _ _ _ _ _ _ _ _ _)
    · have hc1 : ¬cond0_1 (grid0.coords t) := fun h => h1 ((hcond0_1 t).mp h)
      rw [Dat.leavesExact_idle (dat0 V c) 4 t (idleAt0_4 t hc1) (noFlush0_4 t hc1)]
      rw [Dat.leavesExact_idle (dat0 V c) 5 t (idleAt0_5 t hc1) (noFlush0_5 t hc1)]
      rw [outsAt0_B V c t h0 h1 hc0 hc1]
      unfold sout0_B_0 sout0_B_1; (try dsimp only)
      rw [PhiS_castSucc V c t, PhiS_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ hc0 hc1 (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator rows' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 500 := N_0; omega)

/-- The same with the class's invariant spelt out: the scoped buffers at anything, the generator register at some state. -/
theorem hout0' (c : Dev nD) : (dat0 V c).Φ (Fin.last cfg0.N)
    ⊢ (iprop(Pipeline.scopedRest (Ix := Unit) (Name := ℕ) (U := UR sig nD τ) (Lvl := ℕ) (Val := Elt F) spec0 c ∗ ∃ r, prngReg c r) : sProp 𝕄) := by
  have h := hout0 V c
  unfold Pipeline.ΦA at h
  exact h

end

end Cert.KernelIdeal.Gen

end
-- ==== Proof.Region1.lean ====
/-
  The frame half of the second pallas_call (`cc1_pfn_kernel`, pipeline 1), at any float model `F` and at a
  parameter `V`: the TensorCore's buffer contents when the call is entered.

  The body is of the plainest class: at every grid point it loads its eight input windows' staging buffers whole
  (features, coordinates, point counts, the projection matrix, γ, β, the per-channel mean and variance), computes, and
  stores the whole output window once. So what it finds in each input buffer is that window's block of its array at
  the point (`iblk1`), fetched there or not — the five one-block windows are fetched at the first point only and their
  block index never moves —, and what it leaves in the output buffer is a closed function of those blocks: the one
  store's payload laid over the buffer (`out1_8`). From the body's triple (`sound_kernel1`) follow the pipeline's proof
  data (`dat1`) and the body obligation at every point (`body_obligation1`).
-/
import proofs.«109379_j63986422775810_2_alg».proof.Proof.Gen.KernelIdeal.Launch
import proofs.«109379_j63986422775810_2_alg».proof.Proof.Gen.KernelIdeal.Skeleton
import proofs.«109379_j63986422775810_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per coordinate of the
-- long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter this region's half is stated at
variable (V : (c : Dev nD) → (b : Ref sig .tc) → Buf (Elt F) ((c : Thread nD τ).loc b))

/-! # The second pallas_call (`cc1_pfn_kernel`, pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has the
    block index of the point before it, the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has the
    block index of the point before it, the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has the
    block index of the point before it, the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has the
    block index of the point before it, the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): an unfetched point has the
    block index of the point before it, the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): an unfetched point has the
    block index of the point before it, the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s (`hA`) and whose body leaves the block in place (`hafter`): an unfetched point has the
    block index of the point before it, the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s (`hA`) and whose body leaves the block in place (`hafter`): an unfetched point has the
    block index of the point before it, the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S200x64 := Rect.unit (s := S200x64) ![0, 0] S200x64.size inb_S200x64_S200x64_0_0
abbrev r1_1 : Rect S200x32x4 := Rect.unit (s := S200x32x4) ![0, 0, 0] S200x32x4.size inb_S200x32x4_S200x32x4_0_0_0
abbrev r1_2 : Rect S200x4 := Rect.unit (s := S200x4) ![0, 0] S200x4.size inb_S200x4_S200x4_0_0
abbrev r1_3 : Rect S200x1 := Rect.unit (s := S200x1) ![0, 0] S200x1.size inb_S200x1_S200x1_0_0
abbrev r1_4 : Rect S10x64 := Rect.unit (s := S10x64) ![0, 0] S10x64.size inb_S10x64_S10x64_0_0
abbrev r1_5 : Rect S1x64 := Rect.unit (s := S1x64) ![0, 0] S1x64.size inb_S1x64_S1x64_0_0

/-! ## What the body leaves in the output window's buffer -/

/-- Window 8's staging buffer after the body, from the input windows' blocks: its one store, whose payload is the
    normalised, affinely mapped, clipped and pillar-wise maximised projection of the block's features. -/
def out1_8 (x0 : Vec F S200x32x4 .f32) (x1 : Vec F S200x4 .i32) (x2 : Vec F S200x1 .i32) (x3 : Vec F S10x64 .f32) (x4 : Vec F S1x64 .f32) (x5 : Vec F S1x64 .f32) (x6 : Vec F S1x64 .f32) (x7 : Vec F S1x64 .f32) : Vec F S200x64 .f32 :=
  View.canon [⟨r1_0, k1_pay1 (View.ld x0 r1_1) (k1_pay4 (View.ld x2 r1_3)) (k1_pay5 (View.ld x0 r1_1) (View.ld x2 r1_3)) (k1_pay6 (View.ld x0 r1_1) (View.ld x1 r1_2)) (View.ld x3 r1_4) (View.ld x6 r1_5) (View.ld x7 r1_5) (View.ld x4 r1_5) (View.ld x5 r1_5)⟩]

/-- The store tiles the buffer (checked by evaluation), so it covers it. -/
theorem cover1_8 (p0 : Vec F S200x64 .f32) (y : S200x64.Idx) :
    ∃ pc ∈ ([⟨r1_0, p0⟩] : List (View.Piece (Elt F) S200x64 .f32)), y ∈ pc.1.set :=
  View.cover_of_tiled [⟨r1_0, p0⟩] S200x64.size (by rfl) y

/-! ## The body's triple -/

set_option maxHeartbeats 1000000 in
/-- The kernel body on whole staging memrefs, the inputs' at read contents `xW` and the output's at anything, runs to
    the continuation holding the inputs' as they were and the output's at `out1_8` of the inputs': the printed functions
    are their skeletons, run operation by operation through the part call; the output's load before its store reads
    contents nothing uses. -/
theorem sound_kernel1 (c : Dev nD) (E : Set ℕ) (i : grid1.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S200x64 .f32) (harg9 : arg9.IsWhole)
    (x0 : Vec F S200x32x4 .f32) (x1 : Vec F S200x4 .i32) (x2 : Vec F S200x1 .i32) (x3 : Vec F S10x64 .f32) (x4 : Vec F S1x64 .f32) (x5 : Vec F S1x64 .f32) (x6 : Vec F S1x64 .f32) (x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1_pfn_kernel i arg1 harg1 arg2 harg2 arg3 harg3 arg4 harg4 arg5 harg5 arg6 harg6 arg7 harg7 arg8 harg8 arg9 harg9) K := by
  simp only [cc1_pfn_kernel_eq_skeleton]; unfold cc1_pfn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at
    point `t` each input's buffer at its block and the output's at `out1_8` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the definition's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.MainRun.lean ====
/-
  The whole program's run: @main is three reshapes, the statistics kernel, eleven host lines (mean, mean of squares,
  variance clipped at zero) and the second kernel. The buffer contents at each boundary are a fold from the launch
  memory: a host stretch applies its operations, a kernel leaves each of its arrays at what its pipeline's write-backs
  leave and every other buffer as entered. Each kernel is a segment whose body obligation is proved elsewhere; the
  arguments are read back through the fold to their launch contents, the result array to the second pipeline's final array.
-/
import proofs.«109379_j63986422775810_2_alg».proof.Proof.Region0
import proofs.«109379_j63986422775810_2_alg».proof.Proof.Region1
import proofs.«109379_j63986422775810_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The buffer contents at each boundary of @main: a fold from the launch memory -/

/-- Core `c`'s buffers at launch. -/
abbrev W0 : Dev nD → Valuation τ sig (Elt F) := fun c b => (s₀ m ρ).mem ((c : Dev nD), b)
/-- After the three reshapes (the first kernel's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the host lines between the kernels (the second kernel's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second kernel's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## A buffer no stretch writes keeps its contents across it -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 m ρ c (Proc.devRef .tc r) = W2 m ρ c (Proc.devRef .tc r) :=
  StableHlo.after_of_writes_sub hostOps1 _ hostOps1_writes h
/-- An input window's array leaves the first kernel as it entered, -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (U1 m ρ) c).arrAt_in w hw _).trans (A_eq0 (U1 m ρ) c w))
/-- and the second. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (U3 m ρ) c).arrAt_in w hw _).trans (A_eq1 (U3 m ρ) c w))

/-! ## The arguments end as launched -/

theorem W4_main_arg0 (c : Dev nD) : W4 m ρ c (Proc.devRef .tc main_arg0) = m ((c : Thread nD τ).loc main_arg0) :=
  (W4_in m ρ c 0 rfl).trans <| (W3_keep m ρ c main_arg0 (by decide)).trans <| (W2_in m ρ c 0 rfl).trans <| (W1_keep m ρ c main_arg0 (by decide)).trans rfl
theorem W4_main_arg1 (c : Dev nD) : W4 m ρ c (Proc.devRef .tc main_arg1) = m ((c : Thread nD τ).loc main_arg1) :=
  (W4_in m ρ c 3 rfl).trans <| (W3_keep m ρ c main_arg1 (by decide)).trans <| (W2_in m ρ c 3 rfl).trans <| (W1_keep m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_keep m ρ c main_arg2 (by decide)).trans <| (W2_of_ne m ρ c main_arg2 (by decide)).trans <| (W1_keep m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_keep m ρ c main_arg3 (by decide)).trans <| (W2_of_ne m ρ c main_arg3 (by decide)).trans <| (W1_keep m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_keep m ρ c main_arg4 (by decide)).trans <| (W2_of_ne m ρ c main_arg4 (by decide)).trans <| (W1_keep m ρ c main_arg4 (by decide)).trans rfl
theorem W4_main_arg5 (c : Dev nD) : W4 m ρ c (Proc.devRef .tc main_arg5) = m ((c : Thread nD τ).loc main_arg5) :=
  (W4_in m ρ c 1 rfl).trans <| (W3_keep m ρ c main_arg5 (by decide)).trans <| (W2_in m ρ c 1 rfl).trans <| (W1_keep m ρ c main_arg5 (by decide)).trans rfl
/-- The result array ends at what the second pipeline's write-backs leave. -/
theorem W4_main_v12 (c : Dev nD) : W4 m ρ c (Proc.devRef .tc main_v12) = (dat1 (U3 m ρ) c).arrAt 8 cfg1.N :=
  W4_arr m ρ c 8

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- The first kernel over the thread state: entered from every unscoped buffer at `W1`, left at `W2`; the generator
    register and the scoped buffers go into the region's invariant and come back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS (U1 m ρ) c 0 (Nat.zero_le _) from rfl, PhiS_zero (U1 m ρ) c 0 _ rfl]
    unfold Pipeline.ΦA
    iintro ⟨Hp, -, Hr⟩
    isplitl [Hr]; · iexact Hr
    iexact Hp
  hout c := by
    rw [Pipeline.ownSems0_none, show (pdats m ρ 0 c).Φ (Fin.last _) = (dat0 (U1 m ρ) c).Φ (Fin.last cfg0.N) from rfl]
    have hΦ := hout0' (U1 m ρ) c
    iintro H
    ihave H' := hΦ $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final state holds the result array at what the second pipeline's write-backs leave and every argument as launched. -/
theorem run_all : θ_run defs (onTc (τ := τ) (main (F := F))) ⟨m, fun _ => 0, ρ⟩ (fun r => ∀ c : Dev nD,
      r.2.mem ((c.tc : Thread nD τ).loc main_v12) = (dat1 (U3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v12 (by decide))).trans (W4_main_v12 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.Blocks.lean ====
/-
  From blocks to arrays. Both calls walk the 100000 pillars in 500 blocks of 200: at grid point `t` the features',
  coordinates' and point counts' windows hold rows `200 t … 200 t + 199` of their arrays (every other axis whole), and
  the one-block windows (the projection matrix and the per-channel rows) hold their whole arrays. Read index by index,
  a window's block at a point is therefore its array at the shifted row — the index maps are decided once over the
  grid. In the other direction the second call writes block `t` of its result at every point, the blocks tile the
  result array (row `n` lies in block `n / 200`), so the array ends holding any `G` the per-point results agree with
  row by row. The first call writes each of its two result rows back once, at the last point, whose one block is
  the whole row: each row's array ends holding what the accumulation over the grid left at that point.
-/
import proofs.«109379_j63986422775810_2_alg».proof.Proof.Region1
import proofs.«109379_j63986422775810_2_alg».proof.Proof.Region0
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)

variable {F : FTy → Type} [FloatOps F]

section Blocks
variable (V : (c : Dev nD) → (b : Ref sig .tc) → Buf (Elt F) ((c : Thread nD τ).loc b))

/-! # From blocks to arrays: the second call's input blocks -/

/-- The printed index maps of call 1's row-blocked windows, decided over the 500 grid points: block `t` on the
    pillar axis, block 0 on every other; and of its one-block windows: block 0 on both axes. -/
theorem idx1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- The features' block at point `t` is pillars `200 t … 200 t + 199` of the features array. -/
theorem iblk1_0 (c : Dev nD) (t : Fin cfg1.N) (r : Fin 200) (p : Fin 32) (ch : Fin 4) (h : t.val * 200 + r.val < 100000) :
    (iblk1 V c 0 t : Vec F S200x32x4 .f32) (ix3 r p ch) = V c main_arg0 (ix3 ⟨t.val * 200 + r.val, h⟩ p ch) := by
  obtain ⟨e0, e1, e2, -⟩ := idx1 t
  unfold iblk1
  rw [View.read_apply]
  show V c main_arg0 _ = V c main_arg0 _
  congr 1
  funext a
  apply Fin.ext
  match a with
  | ⟨0, _⟩ => show win1_0.index t (0 : Fin 3) * 200 + 1 * r.val = t.val * 200 + r.val; rw [e0]; omega
  | ⟨1, _⟩ => show win1_0.index t (1 : Fin 3) * 32 + 1 * p.val = p.val; rw [e1]; omega
  | ⟨2, _⟩ => show win1_0.index t (2 : Fin 3) * 4 + 1 * ch.val = ch.val; rw [e2]; omega

/-- The coordinates' block at point `t` is rows `200 t … 200 t + 199` of the coordinates array. -/
theorem iblk1_1 (c : Dev nD) (t : Fin cfg1.N) (r : Fin 200) (j : Fin 4) (h : t.val * 200 + r.val < 100000) :
    (iblk1 V c 1 t : Vec F S200x4 .i32) (ix2 r j) = V c main_arg5 (ix2 ⟨t.val * 200 + r.val, h⟩ j) := by
  obtain ⟨-, -, -, e0, e1, -⟩ := idx1 t
  unfold iblk1
  rw [View.read_apply]
  show V c main_arg5 _ = V c main_arg5 _
  congr 1
  funext a
  apply Fin.ext
  match a with
  | ⟨0, _⟩ => show win1_1.index t (0 : Fin 2) * 200 + 1 * r.val = t.val * 200 + r.val; rw [e0]; omega
  | ⟨1, _⟩ => show win1_1.index t (1 : Fin 2) * 4 + 1 * j.val = j.val; rw [e1]; omega

/-- The point counts' block at point `t` is rows `200 t … 200 t + 199` of the (column) point-count array. -/
theorem iblk1_2 (c : Dev nD) (t : Fin cfg1.N) (r : Fin 200) (h : t.val * 200 + r.val < 100000) :
    (iblk1 V c 2 t : Vec F S200x1 .i32) (ix2 r 0) = V c main_v0 (ix2 ⟨t.val * 200 + r.val, h⟩ 0) := by
  obtain ⟨-, -, -, -, -, e0, e1, -⟩ := idx1 t
  unfold iblk1
  rw [View.read_apply]
  show V c main_v0 _ = V c main_v0 _
  congr 1
  funext a
  apply Fin.ext
  match a with
  | ⟨0, _⟩ => show win1_2.index t (0 : Fin 2) * 200 + 1 * r.val = t.val * 200 + r.val; rw [e0]; omega
  | ⟨1, _⟩ => show win1_2.index t (1 : Fin 2) * 1 + 1 * (0 : Fin 1).val = (0 : Fin 1).val; rw [e1]; rfl

/-- The projection matrix's one block is the whole matrix. -/
theorem iblk1_3 (c : Dev nD) (t : Fin cfg1.N) : (iblk1 V c 3 t : Vec F S10x64 .f32) = V c main_arg1 := by
  obtain ⟨-, -, -, -, -, -, -, e0, e1⟩ := idx1 t
  funext j
  unfold iblk1
  rw [View.read_apply]
  show V c main_arg1 _ = V c main_arg1 j
  congr 1
  funext a
  apply Fin.ext
  match a with
  | ⟨0, _⟩ => show win1_3.index t (0 : Fin 2) * 10 + 1 * (j 0).val = (j 0).val; rw [e0]; omega
  | ⟨1, _⟩ => show win1_3.index t (1 : Fin 2) * 64 + 1 * (j 1).val = (j 1).val; rw [e1]; omega

/-- The index maps of the second call's one-row windows and of its output window, decided over the grid. -/
theorem idx1_rows : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The one block of γ's row is the whole row. -/
theorem iblk1_4 (c : Dev nD) (t : Fin cfg1.N) : (iblk1 V c 4 t : Vec F S1x64 .f32) = V c main_v1 := by
  obtain ⟨e0, e1, -⟩ := idx1_rows t
  funext j
  unfold iblk1
  rw [View.read_apply]
  show V c main_v1 _ = V c main_v1 j
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 64 + 1 * (j 1).val = (j 1).val; rw [e1]; omega

/-- The one block of β's row is the whole row. -/
theorem iblk1_5 (c : Dev nD) (t : Fin cfg1.N) : (iblk1 V c 5 t : Vec F S1x64 .f32) = V c main_v2 := by
  obtain ⟨-, -, e0, e1, -⟩ := idx1_rows t
  funext j
  unfold iblk1
  rw [View.read_apply]
  show V c main_v2 _ = V c main_v2 j
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 64 + 1 * (j 1).val = (j 1).val; rw [e1]; omega

/-- The one block of the per-channel mean's row is the whole row. -/
theorem iblk1_6 (c : Dev nD) (t : Fin cfg1.N) : (iblk1 V c 6 t : Vec F S1x64 .f32) = V c main_v5 := by
  obtain ⟨-, -, -, -, e0, e1, -⟩ := idx1_rows t
  funext j
  unfold iblk1
  rw [View.read_apply]
  show V c main_v5 _ = V c main_v5 j
  congr 1
  funext a
  apply Fin.ext
  match a with
  | ⟨0, _⟩ => show win1_6.index t (0 : Fin 2) * 1 + 1 * (j 0).val = (j 0).val; rw [e0]; omega
  | ⟨1, _⟩ => show win1_6.index t (1 : Fin 2) * 64 + 1 * (j 1).val = (j 1).val; rw [e1]; omega

/-- The one block of the per-channel variance's row is the whole row. -/
theorem iblk1_7 (c : Dev nD) (t : Fin cfg1.N) : (iblk1 V c 7 t : Vec F S1x64 .f32) = V c main_v11 := by
  obtain ⟨-, -, -, -, -, -, e0, e1, -⟩ := idx1_rows t
  funext j
  unfold iblk1
  rw [View.read_apply]
  show V c main_v11 _ = V c main_v11 j
  congr 1
  funext a
  apply Fin.ext
  match a with
  | ⟨0, _⟩ => show win1_7.index t (0 : Fin 2) * 1 + 1 * (j 0).val = (j 0).val; rw [e0]; omega
  | ⟨1, _⟩ => show win1_7.index t (1 : Fin 2) * 64 + 1 * (j 1).val = (j 1).val; rw [e1]; omega

/-! # The first call's input blocks -/

/-- The printed index maps of call 0's row-blocked windows, decided over the 500 grid points: block `t` on the
    pillar axis, block 0 on every other; and of its one-block windows: block 0 on both axes. -/
theorem idx0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The features' block at point `t` is pillars `200 t … 200 t + 199` of the features array. -/
theorem iblk0_0 (c : Dev nD) (t : Fin cfg0.N) (r : Fin 200) (p : Fin 32) (ch : Fin 4) (h : t.val * 200 + r.val < 100000) :
    (iblk0 V c 0 t : Vec F S200x32x4 .f32) (ix3 r p ch) = V c main_arg0 (ix3 ⟨t.val * 200 + r.val, h⟩ p ch) := by
  obtain ⟨e0, e1, e2, -⟩ := idx0 t
  unfold iblk0
  rw [View.read_apply]
  show V c main_arg0 _ = V c main_arg0 _
  congr 1
  funext a
  apply Fin.ext
  match a with
  | ⟨0, _⟩ => show win0_0.index t (0 : Fin 3) * 200 + 1 * r.val = t.val * 200 + r.val; rw [e0]; omega
  | ⟨1, _⟩ => show win0_0.index t (1 : Fin 3) * 32 + 1 * p.val = p.val; rw [e1]; omega
  | ⟨2, _⟩ => show win0_0.index t (2 : Fin 3) * 4 + 1 * ch.val = ch.val; rw [e2]; omega

/-- The coordinates' block at point `t` is rows `200 t … 200 t + 199` of the coordinates array. -/
theorem iblk0_1 (c : Dev nD) (t : Fin cfg0.N) (r : Fin 200) (j : Fin 4) (h : t.val * 200 + r.val < 100000) :
    (iblk0 V c 1 t : Vec F S200x4 .i32) (ix2 r j) = V c main_arg5 (ix2 ⟨t.val * 200 + r.val, h⟩ j) := by
  obtain ⟨-, -, -, e0, e1, -⟩ := idx0 t
  unfold iblk0
  rw [View.read_apply]
  show V c main_arg5 _ = V c main_arg5 _
  congr 1
  funext a
  apply Fin.ext
  match a with
  | ⟨0, _⟩ => show win0_1.index t (0 : Fin 2) * 200 + 1 * r.val = t.val * 200 + r.val; rw [e0]; omega
  | ⟨1, _⟩ => show win0_1.index t (1 : Fin 2) * 4 + 1 * j.val = j.val; rw [e1]; omega

/-- The point counts' block at point `t` is rows `200 t … 200 t + 199` of the (column) point-count array. -/
theorem iblk0_2 (c : Dev nD) (t : Fin cfg0.N) (r : Fin 200) (h : t.val * 200 + r.val < 100000) :
    (iblk0 V c 2 t : Vec F S200x1 .i32) (ix2 r 0) = V c main_v0 (ix2 ⟨t.val * 200 + r.val, h⟩ 0) := by
  obtain ⟨-, -, -, -, -, e0, e1, -⟩ := idx0 t
  unfold iblk0
  rw [View.read_apply]
  show V c main_v0 _ = V c main_v0 _
  congr 1
  funext a
  apply Fin.ext
  match a with
  | ⟨0, _⟩ => show win0_2.index t (0 : Fin 2) * 200 + 1 * r.val = t.val * 200 + r.val; rw [e0]; omega
  | ⟨1, _⟩ => show win0_2.index t (1 : Fin 2) * 1 + 1 * (0 : Fin 1).val = (0 : Fin 1).val; rw [e1]; rfl

/-- The projection matrix's one block is the whole matrix. -/
theorem iblk0_3 (c : Dev nD) (t : Fin cfg0.N) : (iblk0 V c 3 t : Vec F S10x64 .f32) = V c main_arg1 := by
  obtain ⟨-, -, -, -, -, -, -, e0, e1⟩ := idx0 t
  funext j
  unfold iblk0
  rw [View.read_apply]
  show V c main_arg1 _ = V c main_arg1 j
  congr 1
  funext a
  apply Fin.ext
  match a with
  | ⟨0, _⟩ => show win0_3.index t (0 : Fin 2) * 10 + 1 * (j 0).val = (j 0).val; rw [e0]; omega
  | ⟨1, _⟩ => show win0_3.index t (1 : Fin 2) * 64 + 1 * (j 1).val = (j 1).val; rw [e1]; omega

/-! ## The second call's result array from its blocks -/

/-- An index of the result array is in point `t`'s block iff each coordinate is in the block's range on its axis. -/
theorem mem_blk1_8 (t : Fin cfg1.N) (i : S100000x64.Idx) :
    i ∈ ((cfg1.win 8).blk t).view.set ↔ ∀ a : Fin 2, win1_8.index t a * S200x64.size a ≤ (i a).val ∧ (i a).val < win1_8.index t a * S200x64.size a + S200x64.size a := by
  show i ∈ ((View.whole main_v12).slice (win1_8.rect t)).set ↔ _
  rw [View.set_slice_whole, Rect.mem_set_unit]
  exact Iff.rfl

/-- What point `t` writes back is block `t` of any array `G` that the body's results agree with row by row. -/
theorem flushed1_8_eq (c : Dev nD) (G : Buf (Elt F) ((c : Thread nD τ).loc main_v12))
    (hG : ∀ (t : Fin cfg1.N) (r : Fin 200) (d : Fin 64) (h : t.val * 200 + r.val < 100000),
      ((dat1 V c).after 8 t : Vec F S200x64 .f32) (ix2 r d) = G (ix2 ⟨t.val * 200 + r.val, h⟩ d))
    (t : Fin cfg1.N) : (dat1 V c).flushed 8 t = ((cfg1.win 8).blk t).view.read (Elt F) G := by
  obtain ⟨-, -, -, -, -, -, -, -, e0, e1⟩ := idx1_rows t
  have hN : cfg1.N = 500 := N_1
  refine funext fun (j : S200x64.Idx) => ?_
  have hlt : t.val * 200 + (j 0).val < 100000 := by have := t.isLt; have := idx2_lt0 j; omega
  rw [View.read_apply]
  show ((dat1 V c).after 8 t : Vec F S200x64 .f32) j = G (((cfg1.win 8).blk t).view.emb j)
  refine (congrArg ((dat1 V c).after 8 t : Vec F S200x64 .f32) (eq_ix2 j)).trans ((hG t (j 0) (j 1) hlt).trans (congrArg G ?_))
  funext a
  apply Fin.ext
  match a with
  | ⟨0, _⟩ => show t.val * 200 + (j 0).val = win1_8.index t (0 : Fin 2) * 200 + 1 * (j 0).val; rw [e0]; omega
  | ⟨1, _⟩ => show (j 1).val = win1_8.index t (1 : Fin 2) * 64 + 1 * (j 1).val; rw [e1]; omega

/-- So the result array ends holding `G`: every point writes its block back, and row `n` is in block `n / 200`. -/
theorem final1 (c : Dev nD) (G : Buf (Elt F) ((c : Thread nD τ).loc main_v12))
    (hG : ∀ (t : Fin cfg1.N) (r : Fin 200) (d : Fin 64) (h : t.val * 200 + r.val < 100000),
      ((dat1 V c).after 8 t : Vec F S200x64 .f32) (ix2 r d) = G (ix2 ⟨t.val * 200 + r.val, h⟩ d)) :
    (dat1 V c).arrAt 8 cfg1.N = G :=
  (dat1 V c).arrAt_eq_of_cover 8 G (fun t _ => flushed1_8_eq V c G hG t) fun (i : S100000x64.Idx) => by
    have hN : cfg1.N = 500 := N_1
    have hi0 : (i 0).val < 100000 := idx2_lt0 i
    have hi1 : (i 1).val < 64 := idx2_lt1 i
    refine ⟨⟨(i 0).val / 200, by omega⟩, flush1_8 _, ?_⟩
    rw [mem_blk1_8]
    obtain ⟨-, -, -, -, -, -, -, -, e0, e1⟩ := idx1_rows ⟨(i 0).val / 200, by omega⟩
    intro a
    match a with
    | ⟨0, _⟩ => show win1_8.index ⟨(i 0).val / 200, _⟩ (0 : Fin 2) * 200 ≤ (i 0).val ∧ (i 0).val < win1_8.index ⟨(i 0).val / 200, _⟩ (0 : Fin 2) * 200 + 200; rw [e0]; dsimp only; omega
    | ⟨1, _⟩ => show win1_8.index ⟨(i 0).val / 200, _⟩ (1 : Fin 2) * 64 ≤ (i 1).val ∧ (i 1).val < win1_8.index ⟨(i 0).val / 200, _⟩ (1 : Fin 2) * 64 + 64; rw [e1]; omega

/-! ## The first call's two result rows -/

/-- The index maps of the first call's two output windows, decided over the grid: block 0 on both axes. -/
theorem idx0_out : ∀ t : Fin cfg0.N,
    win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The grid's last point is point 499. -/
theorem lt499 : 499 < cfg0.N := by rw [show cfg0.N = 500 from N_0]; decide

/-- The one write-back of the first result row, at the last point (point `n`, `n = 499`), writes what the accumulation left there:
    block (0, 0) of the [1,64] array read through zero offsets is the array. -/
theorem flushed0_4_eq_at (c : Dev nD) (n : ℕ) (hn : n < cfg0.N) (h : n = 499) (t : Fin cfg0.N) (hf : (cfg0.win 4).flush t = true) :
    (dat0 V c).flushed 4 t = ((cfg0.win 4).blk t).view.read (Elt F) ((outsAt0 V c n hn).1 : Vec F S1x64 .f32) := by
  have hN : cfg0.N = 500 := N_0
  have h3 : t.val = n := by have := (flush0_4 t).mp hf; have := t.isLt; omega
  obtain rfl : t = ⟨n, hn⟩ := Fin.ext h3
  obtain ⟨e0, e1, -⟩ := idx0_out ⟨n, hn⟩
  show (cfg0.win 4).cut (grid0.coords ⟨n, hn⟩) ((dat0 V c).after 4 ⟨n, hn⟩) = _
  rw [after0_4]
  have hz' : (fun a => win0_4.index ⟨n, hn⟩ a * main_v3_0.ty.shape.size a) = fun _ => 0 := funext fun a => by
    match a with
    | ⟨0, _⟩ => show win0_4.index ⟨n, hn⟩ (0 : Fin 2) * 1 = 0; rw [e0]
    | ⟨1, _⟩ => show win0_4.index ⟨n, hn⟩ (1 : Fin 2) * 64 = 0; rw [e1]
  exact (Memref.read_access_unit_zero (Elt F) main_v3_0 hz' (fun a => by rw [congrFun hz' a]; simp) _).symm

/-- So the array of the first result row ends holding what the last point left (that point's block covers it). -/
theorem final0_4_at (c : Dev nD) (n : ℕ) (hn : n < cfg0.N) (h : n = 499) : (dat0 V c).arrAt 4 cfg0.N = (outsAt0 V c n hn).1 :=
  (dat0 V c).arrAt_eq_of_cover 4 ((outsAt0 V c n hn).1 : Vec F S1x64 .f32) (flushed0_4_eq_at V c n hn h) fun (i : S1x64.Idx) => by
    obtain ⟨e0, e1, -⟩ := idx0_out ⟨n, hn⟩
    refine ⟨⟨n, hn⟩, (flush0_4 _).mpr (by show n % 500 = 499; omega), ?_⟩
    show i ∈ ((View.whole main_v3_0).slice (win0_4.rect ⟨n, hn⟩)).set
    rw [View.set_slice_whole, Rect.mem_set_unit]
    intro a
    have h0 : (i 0).val < 1 := idx2_lt0 i
    have h1 : (i 1).val < 64 := idx2_lt1 i
    match a with
    | ⟨0, _⟩ => show win0_4.index ⟨n, hn⟩ (0 : Fin 2) * 1 ≤ (i 0).val ∧ (i 0).val < win0_4.index ⟨n, hn⟩ (0 : Fin 2) * 1 + 1; rw [e0]; omega
    | ⟨1, _⟩ => show win0_4.index ⟨n, hn⟩ (1 : Fin 2) * 64 ≤ (i 1).val ∧ (i 1).val < win0_4.index ⟨n, hn⟩ (1 : Fin 2) * 64 + 64; rw [e1]; omega

/-- The same at the literal point 499 (the general statement instantiated: the accumulation is never evaluated). -/
theorem final0_4 (c : Dev nD) (h : 499 < cfg0.N) : (dat0 V c).arrAt 4 cfg0.N = (outsAt0 V c 499 h).1 :=
  final0_4_at V c 499 h rfl

/-- The one write-back of the second result row, at the last point (point `n`, `n = 499`), writes what the accumulation left there:
    block (0, 0) of the [1,64] array read through zero offsets is the array. -/
theorem flushed0_5_eq_at (c : Dev nD) (n : ℕ) (hn : n < cfg0.N) (h : n = 499) (t : Fin cfg0.N) (hf : (cfg0.win 5).flush t = true) :
    (dat0 V c).flushed 5 t = ((cfg0.win 5).blk t).view.read (Elt F) ((outsAt0 V c n hn).2.1 : Vec F S1x64 .f32) := by
  have hN : cfg0.N = 500 := N_0
  have h3 : t.val = n := by have := (flush0_5 t).mp hf; have := t.isLt; omega
  obtain rfl : t = ⟨n, hn⟩ := Fin.ext h3
  obtain ⟨-, -, e0, e1⟩ := idx0_out ⟨n, hn⟩
  show (cfg0.win 5).cut (grid0.coords ⟨n, hn⟩) ((dat0 V c).after 5 ⟨n, hn⟩) = _
  rw [after0_5]
  have hz' : (fun a => win0_5.index ⟨n, hn⟩ a * main_v3_1.ty.shape.size a) = fun _ => 0 := funext fun a => by
    match a with
    | ⟨0, _⟩ => show win0_5.index ⟨n, hn⟩ (0 : Fin 2) * 1 = 0; rw [e0]
    | ⟨1, _⟩ => show win0_5.index ⟨n, hn⟩ (1 : Fin 2) * 64 = 0; rw [e1]
  exact (Memref.read_access_unit_zero (Elt F) main_v3_1 hz' (fun a => by rw [congrFun hz' a]; simp) _).symm

/-- So the array of the second result row ends holding what the last point left (that point's block covers it). -/
theorem final0_5_at (c : Dev nD) (n : ℕ) (hn : n < cfg0.N) (h : n = 499) : (dat0 V c).arrAt 5 cfg0.N = (outsAt0 V c n hn).2.1 :=
  (dat0 V c).arrAt_eq_of_cover 5 ((outsAt0 V c n hn).2.1 : Vec F S1x64 .f32) (flushed0_5_eq_at V c n hn h) fun (i : S1x64.Idx) => by
    obtain ⟨-, -, e0, e1⟩ := idx0_out ⟨n, hn⟩
    refine ⟨⟨n, hn⟩, (flush0_5 _).mpr (by show n % 500 = 499; omega), ?_⟩
    show i ∈ ((View.whole main_v3_1).slice (win0_5.rect ⟨n, hn⟩)).set
    rw [View.set_slice_whole, Rect.mem_set_unit]
    intro a
    have h0 : (i 0).val < 1 := idx2_lt0 i
    have h1 : (i 1).val < 64 := idx2_lt1 i
    match a with
    | ⟨0, _⟩ => show win0_5.index ⟨n, hn⟩ (0 : Fin 2) * 1 ≤ (i 0).val ∧ (i 0).val < win0_5.index ⟨n, hn⟩ (0 : Fin 2) * 1 + 1; rw [e0]; omega
    | ⟨1, _⟩ => show win0_5.index ⟨n, hn⟩ (1 : Fin 2) * 64 ≤ (i 1).val ∧ (i 1).val < win0_5.index ⟨n, hn⟩ (1 : Fin 2) * 64 + 64; rw [e1]; omega

/-- The same at the literal point 499 (the general statement instantiated: the accumulation is never evaluated). -/
theorem final0_5 (c : Dev nD) (h : 499 < cfg0.N) : (dat0 V c).arrAt 5 cfg0.N = (outsAt0 V c 499 h).2.1 :=
  final0_5_at V c 499 h rfl

end Blocks

end Cert.KernelIdeal.Gen

end
-- ==== Proof.KPieces.lean ====
/-
  What each kind of point of the statistics kernel leaves in its two accumulator rows and, at the last point,
  in its two output rows, as values: every row is one whole-row store, so what it holds afterwards is that
  store's payload, and every load of the point reads a whole buffer. The first accumulator row ends holding
  what it held plus the block's column sums of the projections, the second what it held plus the column sums
  of their squares; at the first point "what it held" is the zero row the point has just stored, and at the
  last point each output row is a copy of the accumulator row after its update.
-/
import proofs.«109379_j63986422775810_2_alg».proof.Proof.Region0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point leaves, in the first accumulator row, the zero row plus the block's column sums: it stores
    the zero row, reads it back and adds. -/
theorem sout0_A_0_eq (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) :
    sout0_A_0 c i arg1 harg1 arg2 harg2 arg3 harg3 arg4 harg4 arg5 harg5 arg6 harg6 arg7 harg7 arg8 harg8 hc0 hc1 x0 x1 x2 x3 = k0_pay2 x0 (k0_pay7 x0) (k0_pay8 x2) (k0_pay9 x0 x2) (k0_pay10 x1) (k0_pay11 x1) (k0_pay12 x1) (Scalar.ofBits .f32 0x40800000#32) x3 k0_pay4 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread,
    harg7.read_unread, harg8.read_unread, View.ld_unit_zero (S := S1x64) hz2, View.ld_unit_zero (S := S10x64) hz2,
    View.ld_unit_zero (S := S200x1) hz2, View.ld_unit_zero (S := S200x4) hz2, View.ld_unit_zero (S := S200x32x4) hz3]

/-- and in the second the zero row plus the column sums of squares. -/
theorem sout0_A_1_eq (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i) (x0 : Vec F S200x32x4 .f32) (x1 : Vec F S200x4 .i32) (x2 : Vec F S200x1 .i32) (x3 : Vec F S10x64 .f32) :
    sout0_A_1 c i arg1 harg1 arg2 harg2 arg3 harg3 arg4 harg4 arg5 harg5 arg6 harg6 arg7 harg7 arg8 harg8 hc0 hc1 x0 x1 x2 x3 = k0_pay3 x0 (k0_pay7 x0) (k0_pay8 x2) (k0_pay9 x0 x2) (k0_pay10 x1) (k0_pay11 x1) (k0_pay12 x1) (Scalar.ofBits .f32 0x40800000#32) x3 k0_pay5 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread,
    harg7.read_unread, harg8.read_unread, View.ld_unit_zero (S := S1x64) hz2, View.ld_unit_zero (S := S10x64) hz2,
    View.ld_unit_zero (S := S200x1) hz2, View.ld_unit_zero (S := S200x4) hz2, View.ld_unit_zero (S := S200x32x4) hz3]

/-- A middle point adds the block's column sums to what the first accumulator row held, -/
theorem sout0_B_0_eq (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) :
    sout0_B_0 c i arg1 harg1 arg2 harg2 arg3 harg3 arg4 harg4 arg5 harg5 arg6 harg6 arg7 harg7 arg8 harg8 hc0 hc1 x0 x1 x2 x3 xs0 xs1 = k0_pay2 x0 (k0_pay7 x0) (k0_pay8 x2) (k0_pay9 x0 x2) (k0_pay10 x1) (k0_pay11 x1) (k0_pay12 x1) (Scalar.ofBits .f32 0x40800000#32) x3 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg1.read_unread, harg2.read_unread, harg3.read_unread, harg4.read_unread,
    harg7.read_unread, harg8.read_unread, View.ld_unit_zero (S := S1x64) hz2, View.ld_unit_zero (S := S10x64) hz2,
    View.ld_unit_zero (S := S200x1) hz2, View.ld_unit_zero (S := S200x4) hz2, View.ld_unit_zero (S := S200x32x4) hz3]

/-- and the column sums of squares to what the second held. -/
theorem sout0_B_1_eq (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i) (x0 : Vec F S200x32x4 .f32) (x1 : Vec F S200x4 .i32) (x2 : Vec F S200x1 .i32) (x3 : Vec F S10x64 .f32) (xs0 xs1 : Vec F S1x64 .f32) :
    sout0_B_1 c i arg1 harg1 arg2 harg2 arg3 harg3 arg4 harg4 arg5 harg5 arg6 harg6 arg7 harg7 arg8 harg8 hc0 hc1 x0 x1 x2 x3 xs0 xs1 = k0_pay3 x0 (k0_pay7 x0) (k0_pay8 x2) (k0_pay9 x0 x2) (k0_pay10 x1) (k0_pay11 x1) (k0_pay12 x1) (Scalar.ofBits .f32 0x40800000#32) x3 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg1.read_unread, harg2.read_unread, harg3.read_unread, harg4.read_unread,
    harg7.read_unread, harg8.read_unread, View.ld_unit_zero (S := S1x64) hz2, View.ld_unit_zero (S := S10x64) hz2,
    View.ld_unit_zero (S := S200x1) hz2, View.ld_unit_zero (S := S200x4) hz2, View.ld_unit_zero (S := S200x32x4) hz3]

/-- The last point does the same to the accumulator rows, -/
theorem sout0_C_0_eq (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) :
    sout0_C_0 c i arg1 harg1 arg2 harg2 arg3 harg3 arg4 harg4 arg5 harg5 arg6 harg6 arg7 harg7 arg8 harg8 hc0 hc1 x0 x1 x2 x3 xs0 xs1 = k0_pay2 x0 (k0_pay7 x0) (k0_pay8 x2) (k0_pay9 x0 x2) (k0_pay10 x1) (k0_pay11 x1) (k0_pay12 x1) (Scalar.ofBits .f32 0x40800000#32) x3 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg1.read_unread, harg2.read_unread, harg3.read_unread, harg4.read_unread,
    harg7.read_unread, harg8.read_unread, View.ld_unit_zero (S := S1x64) hz2, View.ld_unit_zero (S := S10x64) hz2,
    View.ld_unit_zero (S := S200x1) hz2, View.ld_unit_zero (S := S200x4) hz2, View.ld_unit_zero (S := S200x32x4) hz3]

theorem sout0_C_1_eq (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) :
    sout0_C_1 c i arg1 harg1 arg2 harg2 arg3 harg3 arg4 harg4 arg5 harg5 arg6 harg6 arg7 harg7 arg8 harg8 hc0 hc1 x0 x1 x2 x3 xs0 xs1 = k0_pay3 x0 (k0_pay7 x0) (k0_pay8 x2) (k0_pay9 x0 x2) (k0_pay10 x1) (k0_pay11 x1) (k0_pay12 x1) (Scalar.ofBits .f32 0x40800000#32) x3 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg1.read_unread, harg2.read_unread, harg3.read_unread, harg4.read_unread,
    harg7.read_unread, harg8.read_unread, View.ld_unit_zero (S := S1x64) hz2, View.ld_unit_zero (S := S10x64) hz2,
    View.ld_unit_zero (S := S200x1) hz2, View.ld_unit_zero (S := S200x4) hz2, View.ld_unit_zero (S := S200x32x4) hz3]

/-- and copies the updated rows out: each output row is a load of the accumulator row after its store. -/
theorem out0_C_4_eq (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) :
    out0_C_4 c i arg1 harg1 arg2 harg2 arg3 harg3 arg4 harg4 arg5 harg5 arg6 harg6 arg7 harg7 arg8 harg8 hc0 hc1 x0 x1 x2 x3 xs0 xs1 = k0_pay2 x0 (k0_pay7 x0) (k0_pay8 x2) (k0_pay9 x0 x2) (k0_pay10 x1) (k0_pay11 x1) (k0_pay12 x1) (Scalar.ofBits .f32 0x40800000#32) x3 xs0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2, View.readCov_unit_zero (S := S1x64) _ hz2]
  simp only [View.readAt_eq_ld, harg1.read_unread, harg2.read_unread, harg3.read_unread, harg4.read_unread,
    harg7.read_unread, harg8.read_unread, View.ld_unit_zero (S := S1x64) hz2, View.ld_unit_zero (S := S10x64) hz2,
    View.ld_unit_zero (S := S200x1) hz2, View.ld_unit_zero (S := S200x4) hz2, View.ld_unit_zero (S := S200x32x4) hz3]

theorem out0_C_5_eq (c : Dev nD) (i : grid0.Coords) (arg1 : Memref sig .tc .vmem S200x32x4 .f32) (harg1 : arg1.IsWhole) (arg2 : Memref sig .tc .vmem S200x4 .i32) (harg2 : arg2.IsWhole) (arg3 : Memref sig .tc .vmem S200x1 .i32) (harg3 : arg3.IsWhole) (arg4 : Memref sig .tc .vmem S10x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i) (x0 : Vec F S200x32x4 .f32) (x1 : Vec F S200x4 .i32) (x2 : Vec F S200x1 .i32) (x3 : Vec F S10x64 .f32) (xs0 xs1 : Vec F S1x64 .f32) :
    out0_C_5 c i arg1 harg1 arg2 harg2 arg3 harg3 arg4 harg4 arg5 harg5 arg6 harg6 arg7 harg7 arg8 harg8 hc0 hc1 x0 x1 x2 x3 xs0 xs1 = k0_pay3 x0 (k0_pay7 x0) (k0_pay8 x2) (k0_pay9 x0 x2) (k0_pay10 x1) (k0_pay11 x1) (k0_pay12 x1) (Scalar.ofBits .f32 0x40800000#32) x3 xs1 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2, View.readCov_unit_zero (S := S1x64) _ hz2]
  simp only [View.readAt_eq_ld, harg1.read_unread, harg2.read_unread, harg3.read_unread, harg4.read_unread,
    harg7.read_unread, harg8.read_unread, View.ld_unit_zero (S := S1x64) hz2, View.ld_unit_zero (S := S10x64) hz2,
    View.ld_unit_zero (S := S200x1) hz2, View.ld_unit_zero (S := S200x4) hz2, View.ld_unit_zero (S := S200x32x4) hz3]

end Cert.KernelIdeal.Gen

end
-- ==== Proof.Spec.lean ====
/-
  What both programs compute, written once over coordinate functions (no shapes, no memory):
  a pillar `n` holds 32 points of 4 channels; a point `p` of pillar `n` is valid when `p < num_points n`.
  Each point is extended to 10 features — its 4 channels, its first 3 channels minus the pillar's
  masked mean, and minus the pillar's voxel centre — and masked; the features are projected to 64
  channels by `W` (`proj`). Over all points of all pillars the projected values have, per channel, a
  sum (`sum1`), a sum of squares (`sum2`) and a sum of squared deviations from a given centre
  (`sumDev`). The result normalises each projected value by the per-channel mean and variance, applies
  the affine map `γ, β` and the positive part, and takes the maximum over the pillar's points.
  The variance is written twice: as mean of squares minus squared mean, clipped at zero (`varSq`),
  and as the mean squared deviation (`varDev`); over finite data they agree (proved elsewhere).
-/
import Idealize.ShloMosaic.PureOps.Ideal
import Idealize.ShloMosaic.Lib.ValueIdx

noncomputable section

namespace Cert.Spec

open Idealize.ShloMosaic Idealize.ShloMosaic.ValueIdx
open scoped BigOperators

/-! ## Arrays as coordinate functions -/

/-- A rank-1 array read by its coordinate. -/
def cur1 {α : Type} {a : Nat} (A : (⟨1, ![a]⟩ : Shape).Idx → α) : Fin a → α := fun x => A (ix1 x)
/-- A rank-2 array read by its coordinates. -/
def cur2 {α : Type} {a b : Nat} (A : (⟨2, ![a, b]⟩ : Shape).Idx → α) : Fin a → Fin b → α := fun x y => A (ix2 x y)
/-- A rank-3 array read by its coordinates. -/
def cur3 {α : Type} {a b c : Nat} (A : (⟨3, ![a, b, c]⟩ : Shape).Idx → α) : Fin a → Fin b → Fin c → α :=
  fun x y z => A (ix3 x y z)
/-- A function of two coordinates as a rank-2 array. -/
def arr2 {α : Type} {a b : Nat} (f : Fin a → Fin b → α) : (⟨2, ![a, b]⟩ : Shape).Idx → α :=
  fun i => f ⟨(i 0).val, idx2_lt0 i⟩ ⟨(i 1).val, idx2_lt1 i⟩

theorem arr2_ix2 {α : Type} {a b : Nat} (f : Fin a → Fin b → α) (x : Fin a) (y : Fin b) : arr2 f (ix2 x y) = f x y := rfl

/-! ## The constants (kept as their f32 words; both programs print the same words) -/

/-- 0.5 -/
def half : EReal := Ideal.ofBits .f32 0x3F000000#32
/-- f32(0.2) -/
def fifth : EReal := Ideal.ofBits .f32 0x3E4CCCCD#32
/-- 4.0 -/
def four : EReal := Ideal.ofBits .f32 0x40800000#32
/-- f32(0.001) -/
def eps : EReal := Ideal.ofBits .f32 0x3A83126F#32
/-- 3200000.0 = 100000 · 32, the number of points -/
def count : EReal := Ideal.ofBits .f32 0x4A435000#32

/-- The voxel size along axis `j`: 0.2, 0.2, 4. -/
def vsz (j : Fin 3) : EReal := if j.val = 2 then four else fifth

/-! ## Per pillar (any number `N` of pillars) -/

section
variable {N : Nat}
variable (X : Fin N → Fin 32 → Fin 4 → EReal) (W : Fin 10 → Fin 64 → EReal)
variable (np : Fin N → BitVec 32) (co : Fin N → Fin 4 → BitVec 32)

/-- 1 when point `p` of pillar `n` is valid (`p < num_points n`, signed), else 0. -/
def mask (n : Fin N) (p : Fin 32) : EReal := if (p.val : ℤ) < (np n).toInt then 1 else 0

/-- The pillar's divisor: `max(num_points n, 1)` as a real. -/
def cnt (n : Fin N) : EReal := (((max (np n).toInt 1 : ℤ) : ℝ) : EReal)

/-- Channel `j < 3` of a point. -/
def xyz (n : Fin N) (p : Fin 32) (j : Fin 3) : EReal := X n p (Fin.castLE (by decide) j)

/-- The pillar's masked mean of channel `j`. -/
def mean (n : Fin N) (j : Fin 3) : EReal := Ideal.div (∑ p : Fin 32, xyz X n p j * mask np n p) (cnt np n)

/-- The pillar's voxel centre along axis `j`: (coordinate `j+1` + 0.5) · voxel size. -/
def center (n : Fin N) (j : Fin 3) : EReal := ((((co n j.succ).toInt : ℝ) : EReal) + half) * vsz j

/-- The 10 masked features of a point: 4 channels, 3 offsets from the mean, 3 offsets from the centre. -/
def feat (n : Fin N) (p : Fin 32) (c : Fin 10) : EReal :=
  (if h4 : c.val < 4 then X n p ⟨c.val, h4⟩
    else if h7 : c.val < 7 then xyz X n p ⟨c.val - 4, by omega⟩ - mean X np n ⟨c.val - 4, by omega⟩
    else xyz X n p ⟨c.val - 7, by omega⟩ - center co n ⟨c.val - 7, by omega⟩) * mask np n p

/-- The projection of a point to channel `d`. -/
def proj (n : Fin N) (p : Fin 32) (d : Fin 64) : EReal := ∑ c : Fin 10, feat X np co n p c * W c d

/-- Per channel: the sum of the projections over all points, -/
def sum1 (d : Fin 64) : EReal := ∑ n : Fin N, ∑ p : Fin 32, proj X W np co n p d
/-- the sum of their squares, -/
def sum2 (d : Fin 64) : EReal := ∑ n : Fin N, ∑ p : Fin 32, proj X W np co n p d * proj X W np co n p d
/-- and the sum of their squared deviations from `μ d`. -/
def sumDev (μ : Fin 64 → EReal) (d : Fin 64) : EReal :=
  ∑ n : Fin N, ∑ p : Fin 32, (proj X W np co n p d - μ d) * (proj X W np co n p d - μ d)

/-- A projected value normalised by `μ`, `σ2`, mapped by `γ, β`, positive part. -/
def act (γ β μ σ2 : Fin 64 → EReal) (v : EReal) (d : Fin 64) : EReal :=
  max (((v - μ d) * Ideal.rsqrt (σ2 d + eps)) * γ d + β d) 0

/-- The pillar's result in channel `d`: the maximum of `act` over its 32 points (`⊥` is the maximum's unit). -/
def outAt (γ β μ σ2 : Fin 64 → EReal) (n : Fin N) (d : Fin 64) : EReal :=
  (Finset.univ : Finset (Fin 32)).sup fun p => act γ β μ σ2 (proj X W np co n p d) d

/-- Rows `B·t … B·t + B − 1` of a pillar-indexed function (block `t` of `B` pillars). -/
def blk {α : Type} {B T : Nat} (f : Fin (T * B) → α) (t : Fin T) : Fin B → α :=
  fun r => f ⟨t.val * B + r.val, by
    have := t.isLt; have := r.isLt
    calc t.val * B + r.val < t.val * B + B := by omega
      _ = (t.val + 1) * B := by ring
      _ ≤ T * B := Nat.mul_le_mul_right B (by omega)⟩

end

/-! ## The whole result (100000 pillars) -/

section
variable (X : Fin 100000 → Fin 32 → Fin 4 → EReal) (W : Fin 10 → Fin 64 → EReal) (γ β : Fin 64 → EReal)
variable (np : Fin 100000 → BitVec 32) (co : Fin 100000 → Fin 4 → BitVec 32)

/-- The per-channel mean of the projections. -/
def mu (d : Fin 64) : EReal := Ideal.div (sum1 X W np co d) count
/-- The variance as mean of squares minus squared mean, clipped at zero. -/
def varSq (d : Fin 64) : EReal := max (Ideal.div (sum2 X W np co d) count - mu X W np co d * mu X W np co d) 0
/-- The variance as the mean squared deviation. -/
def varDev (d : Fin 64) : EReal := Ideal.div (sumDev X W np co (mu X W np co) d) count

/-- The result with the variance in its first form, -/
def resSq : Fin 100000 → Fin 64 → EReal := outAt X W np co γ β (mu X W np co) (varSq X W np co)
/-- and in its second. -/
def resDev : Fin 100000 → Fin 64 → EReal := outAt X W np co γ β (mu X W np co) (varDev X W np co)

end

end Cert.Spec

end
-- ==== Proof.KValBase.lean ====
/-
  A block of 200 pillars, read one element at a time: the words and the layout steps both kernels share.

  A point p of pillar n is valid when p, read as a signed word, is below the pillar's point count; the
  mask is the 0/1 value of that comparison, and the divisor of the pillar's mean is the count clipped below
  at one. The mean of coordinate j over a pillar is the sum over its 32 points of the masked coordinate,
  divided by that divisor. Broadcasts and unit-axis casts only repeat a value along an axis, so each of
  them read at (n, p, j) is its operand at the matching coordinates.
-/
import proofs.«109379_j63986422775810_2_alg».proof.Proof.Gen.KernelIdeal.Skeleton
import proofs.«109379_j63986422775810_2_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

namespace Cert.KernelIdeal.KVal

open Cert.KernelIdeal Cert.KernelIdeal.Gen Cert.Spec Idealize.ShloMosaic Idealize.ShloMosaic.ValueIdx
open scoped BigOperators

theorem toInt_ofNat_lt32 (p : Fin 32) : (BitVec.ofNat 32 p.val).toInt = (p.val : ℤ) := by
  have hp := p.isLt
  have h1 : (BitVec.ofNat 32 p.val).toNat = p.val := by
    rw [BitVec.toNat_ofNat]; exact Nat.mod_eq_of_lt (by omega)
  rw [BitVec.toInt_eq_toNat_of_lt (by rw [h1]; omega), h1]

theorem mask_word (p : Fin 32) (v : BitVec 32) :
    FloatOps.sitofp (F := Ideal) .f32 ((IntOp.cmpi .slt (BitVec.ofNat 32 p.val) v).setWidth 32)
      = if (p.val : ℤ) < v.toInt then 1 else 0 := by
  by_cases h : (p.val : ℤ) < v.toInt
  · have e : IntOp.cmpi .slt (BitVec.ofNat 32 p.val) v = 1#1 := IntOp.cmpi_slt.mpr (by rw [toInt_ofNat_lt32]; exact h)
    rw [e, if_pos h]
    show ((((1#1 : BitVec 1).setWidth 32).toInt : ℝ) : EReal) = 1
    rw [show ((1#1 : BitVec 1).setWidth 32).toInt = 1 from by decide]
    simp
  · have e : IntOp.cmpi .slt (BitVec.ofNat 32 p.val) v = 0#1 :=
      eq_zero_of_ne_one (fun h1 => h (by rw [← toInt_ofNat_lt32]; exact IntOp.cmpi_slt.mp h1))
    rw [e, if_neg h]
    show ((((0#1 : BitVec 1).setWidth 32).toInt : ℝ) : EReal) = 0
    rw [show ((0#1 : BitVec 1).setWidth 32).toInt = 0 from by decide]
    simp

theorem maxsi_one_toInt (v : BitVec 32) : (IntOp.maxsi v 1#32).toInt = max v.toInt 1 := by
  unfold IntOp.maxsi
  have h1 : (1#32 : BitVec 32).toInt = 1 := by decide
  by_cases h : (1#32 : BitVec 32).slt v
  · rw [if_pos h]; rw [BitVec.slt_iff_toInt_lt, h1] at h; omega
  · rw [if_neg h]; rw [BitVec.slt_iff_toInt_lt, h1] at h; rw [h1]; omega

theorem slice_apply (x : Vec Ideal S200x32x4 .f32) (n : Fin 200) (p : Fin 32) (j : Fin 3) :
    k0_pay7 x (ix3 n p j) = x (ix3 n p (Fin.castLE (by decide) j)) := by
  unfold k0_pay7
  exact extractStridedSlice_apply _ x _ (ix3 n p j) (ix3 n p (Fin.castLE (by decide) j)) (fun a => by
    match a with
    | ⟨0, _⟩ => show n.val = 0 + n.val; omega
    | ⟨1, _⟩ => show p.val = 0 + p.val; omega
    | ⟨2, _⟩ => show j.val = 0 + j.val; omega)

/-! ## Layout operations of this block, read at coordinates -/

section Layout
variable {α : Type}

theorem bc_col3 (v : S200x32x1.Idx → α) (h : S200x32x1.Broadcasts S200x32x3) (n : Fin 200) (p : Fin 32) (j : Fin 3) :
    broadcastTo S200x32x3 v h (ix3 n p j) = v (ix3 n p 0) :=
  broadcastTo_apply v h (ix3 n p j) (ix3 n p 0) (fun a => by
    match a with | ⟨0, _⟩ => rfl | ⟨1, _⟩ => rfl | ⟨2, _⟩ => rfl)

theorem bc_col10 (v : S200x32x1.Idx → α) (h : S200x32x1.Broadcasts S200x32x10) (n : Fin 200) (p : Fin 32) (c : Fin 10) :
    broadcastTo S200x32x10 v h (ix3 n p c) = v (ix3 n p 0) :=
  broadcastTo_apply v h (ix3 n p c) (ix3 n p 0) (fun a => by
    match a with | ⟨0, _⟩ => rfl | ⟨1, _⟩ => rfl | ⟨2, _⟩ => rfl)

theorem bc_pillar3 (v : S200x1.Idx → α) (h : S200x1.Broadcasts S200x3) (n : Fin 200) (j : Fin 3) :
    broadcastTo S200x3 v h (ix2 n j) = v (ix2 n 0) :=
  broadcastTo_apply v h (ix2 n j) (ix2 n 0) (fun a => by
    match a with | ⟨0, _⟩ => rfl | ⟨1, _⟩ => rfl)

theorem bc_pillar32 (v : S200x1.Idx → α) (h : S200x1.Broadcasts S200x32) (n : Fin 200) (p : Fin 32) :
    broadcastTo S200x32 v h (ix2 n p) = v (ix2 n 0) :=
  broadcastTo_apply v h (ix2 n p) (ix2 n 0) (fun a => by
    match a with | ⟨0, _⟩ => rfl | ⟨1, _⟩ => rfl)

theorem bc_row3 (v : S200x1x3.Idx → α) (h : S200x1x3.Broadcasts S200x32x3) (n : Fin 200) (p : Fin 32) (j : Fin 3) :
    broadcastTo S200x32x3 v h (ix3 n p j) = v (ix3 n 0 j) :=
  broadcastTo_apply v h (ix3 n p j) (ix3 n 0 j) (fun a => by
    match a with | ⟨0, _⟩ => rfl | ⟨1, _⟩ => rfl | ⟨2, _⟩ => rfl)

theorem sc_row3 (v : S200x3.Idx → α) (h : S200x3.ShapeCasts S200x1x3) (n : Fin 200) (j : Fin 3) :
    shapeCast S200x1x3 v h (ix3 n 0 j) = v (ix2 n j) :=
  shapeCast_apply v h (ix3 n 0 j) (ix2 n j) (by
    rw [Shape.rowMajor_val_two, Shape.rowMajor_val_three]
    show n.val * 3 + j.val = (n.val * 1 + 0) * 3 + j.val
    omega)

theorem sc_col (v : S200x32.Idx → α) (h : S200x32.ShapeCasts S200x32x1) (n : Fin 200) (p : Fin 32) :
    shapeCast S200x32x1 v h (ix3 n p 0) = v (ix2 n p) :=
  shapeCast_apply v h (ix3 n p 0) (ix2 n p) (by
    rw [Shape.rowMajor_val_two, Shape.rowMajor_val_three]
    show n.val * 32 + p.val = (n.val * 32 + p.val) * 1 + 0
    omega)

end Layout

/-- The sum over the 32 points of a pillar. -/
theorem sum_points (v : FVec Ideal S200x32x3 .f32) (h : S200x32x3.Reduces [1] S200x3) (hφ : FTy.f32 = FTy.f32 ∨ FTy.f32 = FTy.bf16)
    (hacc : (0x00000000#32 : BitVec 32) = 0x00000000#32) (n : Fin 200) (j : Fin 3) :
    multiReduction .add [1] S200x3 v 0x00000000#32 h hφ hacc (ix2 n j) = ∑ k : Fin 32, v (ix3 n k j) := by
  refine (Ideal.multiReduction_add_single v 0x00000000#32 h hφ hacc (ix2 n j)).trans ?_
  refine Finset.sum_congr rfl fun k _ => congrArg v ?_
  funext a
  match a with | ⟨0, _⟩ => rfl | ⟨1, _⟩ => rfl | ⟨2, _⟩ => rfl

/-- The validity mask of the block at point p of pillar n. -/
theorem mask_apply (nb : Vec Ideal S200x1 .i32) (n : Fin 200) (p : Fin 32) :
    k0_pay8 nb (ix3 n p 0) = mask (fun n => nb (ix2 n 0)) n p := by
  unfold k0_pay8 k0_pay6
  refine (sc_col _ _ n p).trans ?_
  have e1 : iota .tc S200x32 32 [1] iota_S200x32_d1_w32 (ix2 n p) = BitVec.ofNat 32 p.val :=
    iota_single_apply _ _ _ _ _ _
  have e2 : broadcastTo S200x32 (shapeCast S200x1 nb shapeCasts_S200x1_S200x1) broadcasts_S200x1_S200x32 (ix2 n p)
      = nb (ix2 n 0) := by
    rw [shapeCast_self]; exact bc_pillar32 _ _ n p
  show FloatOps.sitofp (F := Ideal) .f32 ((IntOp.cmpi .slt (iota .tc S200x32 32 [1] iota_S200x32_d1_w32 (ix2 n p))
      (broadcastTo S200x32 (shapeCast S200x1 nb shapeCasts_S200x1_S200x1) broadcasts_S200x1_S200x32 (ix2 n p))).setWidth 32) = _
  rw [e1, e2]
  exact mask_word p _

theorem cnt_word (v : BitVec 32) :
    FloatOps.sitofp (F := Ideal) .f32 (IntOp.maxsi v 1#32) = (((max v.toInt 1 : ℤ) : ℝ) : EReal) := by
  show (((IntOp.maxsi v 1#32).toInt : ℝ) : EReal) = _
  rw [maxsi_one_toInt]

/-- A coordinate below 3 of a point, less the masked mean of its pillar. -/
theorem pay9_apply (x : Vec Ideal S200x32x4 .f32) (nb : Vec Ideal S200x1 .i32) (n : Fin 200) (p : Fin 32) (j : Fin 3) :
    k0_pay9 x nb (ix3 n p j) = xyz (cur3 x) n p j - mean (cur3 x) (fun n => nb (ix2 n 0)) n j := by
  unfold k0_pay9
  simp only [subf_apply, bc_row3, sc_row3, divf_apply, bc_pillar3, sitofp_apply, slice_apply]
  unfold k0_pay6
  rw [shapeCast_self]
  show _ - Ideal.div _ (FloatOps.sitofp (F := Ideal) .f32 (IntOp.maxsi (nb (ix2 n 0)) 1#32)) = _
  rw [cnt_word]
  refine congrArg₂ (fun a b : EReal => a - b) rfl ?_
  unfold mean
  refine congrArg₂ Ideal.div ?_ rfl
  refine (sum_points _ _ _ _ n j).trans ?_
  refine Finset.sum_congr rfl fun k _ => ?_
  rw [mulf_apply, bc_col3, slice_apply, mask_apply]
  rfl

end Cert.KernelIdeal.KVal

end
-- ==== Proof.KValFeat.lean ====
/-
  The feature tensor of a block and its projection, read one element at a time.

  The voxel centre of pillar n along axis j is (coordinate j+1 of the pillar, read signed, plus one half)
  times the voxel size of that axis; the three axes are laid side by side and repeated over the points.
  The ten features of a point are its 4 channels, its first 3 channels less the masked mean of its pillar,
  and its first 3 channels less the voxel centre, in that order along the last axis, all times the mask
  of the point. Flattening pillars and points row-major makes row n·32 + p the point p of pillar n, and
  the product with the 10×64 weights into a zero accumulator is the sum over the ten features: the
  projection of the point.
-/
import proofs.«109379_j63986422775810_2_alg».proof.Proof.KValBase

noncomputable section

namespace Cert.KernelIdeal.KVal

open Cert.KernelIdeal Cert.KernelIdeal.Gen Cert.Spec Idealize.ShloMosaic Idealize.ShloMosaic.ValueIdx
open scoped BigOperators

/-! ## The voxel centre -/

theorem pay10_apply (cb : Vec Ideal S200x4 .i32) (n : Fin 200) :
    k0_pay10 cb (ix2 n 0) = center (cur2 cb) n ⟨0, by decide⟩ := by
  unfold k0_pay10
  simp only [mulf_apply, addf_apply, sitofp_apply, broadcast_apply]
  rw [extractStridedSlice_apply _ cb _ (ix2 n 0) (ix2 n (1 : Fin 4)) (fun a => by
    match a with
    | ⟨0, _⟩ => show n.val = 0 + n.val; omega
    | ⟨1, _⟩ => rfl)]
  rfl

theorem pay11_apply (cb : Vec Ideal S200x4 .i32) (n : Fin 200) :
    k0_pay11 cb (ix2 n 0) = center (cur2 cb) n ⟨1, by decide⟩ := by
  unfold k0_pay11
  simp only [mulf_apply, addf_apply, sitofp_apply, broadcast_apply]
  rw [extractStridedSlice_apply _ cb _ (ix2 n 0) (ix2 n (2 : Fin 4)) (fun a => by
    match a with
    | ⟨0, _⟩ => show n.val = 0 + n.val; omega
    | ⟨1, _⟩ => rfl)]
  rfl

theorem pay12x4_apply (cb : Vec Ideal S200x4 .i32) (n : Fin 200) :
    mulf (k0_pay12 cb) (broadcast S200x1 (Scalar.ofBits (F := Ideal) .f32 0x40800000#32)) (ix2 n 0)
      = center (cur2 cb) n ⟨2, by decide⟩ := by
  unfold k0_pay12
  simp only [mulf_apply, addf_apply, sitofp_apply, broadcast_apply]
  rw [extractStridedSlice_apply _ cb _ (ix2 n 0) (ix2 n (3 : Fin 4)) (fun a => by
    match a with
    | ⟨0, _⟩ => show n.val = 0 + n.val; omega
    | ⟨1, _⟩ => rfl)]
  rfl

section Cat
variable {α : Type}

theorem cat3_apply0 (A B C : S200x1.Idx → α) (h : Shape.Concatenates [S200x1, S200x1, S200x1] S200x3 1) (n : Fin 200) :
    concatenate S200x3 1 [⟨S200x1, A⟩, ⟨S200x1, B⟩, ⟨S200x1, C⟩] h (ix2 n (⟨0, by decide⟩ : Fin 3)) = A (ix2 n 0) :=
  concatenate_apply_piece (t := S200x3) 1 [⟨S200x1, A⟩, ⟨S200x1, B⟩, ⟨S200x1, C⟩] h (ix2 n (⟨0, by decide⟩ : Fin 3)) 0 (by simp) S200x1 A rfl rfl 0 rfl (ix2 n 0)
    (fun b hb => by
      match b with
      | ⟨0, _⟩ => rfl
      | ⟨1, _⟩ => exact absurd (Fin.ext rfl) hb) rfl

theorem cat3_apply1 (A B C : S200x1.Idx → α) (h : Shape.Concatenates [S200x1, S200x1, S200x1] S200x3 1) (n : Fin 200) :
    concatenate S200x3 1 [⟨S200x1, A⟩, ⟨S200x1, B⟩, ⟨S200x1, C⟩] h (ix2 n (⟨1, by decide⟩ : Fin 3)) = B (ix2 n 0) :=
  concatenate_apply_piece (t := S200x3) 1 [⟨S200x1, A⟩, ⟨S200x1, B⟩, ⟨S200x1, C⟩] h (ix2 n (⟨1, by decide⟩ : Fin 3)) 1 (by simp) S200x1 B rfl rfl 1 rfl (ix2 n 0)
    (fun b hb => by
      match b with
      | ⟨0, _⟩ => rfl
      | ⟨1, _⟩ => exact absurd (Fin.ext rfl) hb) rfl

theorem cat3_apply2 (A B C : S200x1.Idx → α) (h : Shape.Concatenates [S200x1, S200x1, S200x1] S200x3 1) (n : Fin 200) :
    concatenate S200x3 1 [⟨S200x1, A⟩, ⟨S200x1, B⟩, ⟨S200x1, C⟩] h (ix2 n (⟨2, by decide⟩ : Fin 3)) = C (ix2 n 0) :=
  concatenate_apply_piece (t := S200x3) 1 [⟨S200x1, A⟩, ⟨S200x1, B⟩, ⟨S200x1, C⟩] h (ix2 n (⟨2, by decide⟩ : Fin 3)) 2 (by simp) S200x1 C rfl rfl 2 rfl (ix2 n 0)
    (fun b hb => by
      match b with
      | ⟨0, _⟩ => rfl
      | ⟨1, _⟩ => exact absurd (Fin.ext rfl) hb) rfl

theorem cat10_lo (A : S200x32x4.Idx → α) (B C : S200x32x3.Idx → α)
    (h : Shape.Concatenates [S200x32x4, S200x32x3, S200x32x3] S200x32x10 2) (n : Fin 200) (p : Fin 32) (c : Fin 10)
    (hc : c.val < 4) :
    concatenate S200x32x10 2 [⟨S200x32x4, A⟩, ⟨S200x32x3, B⟩, ⟨S200x32x3, C⟩] h (ix3 n p c) = A (ix3 n p ⟨c.val, hc⟩) :=
  concatenate_apply_piece (t := S200x32x10) 2 [⟨S200x32x4, A⟩, ⟨S200x32x3, B⟩, ⟨S200x32x3, C⟩] h (ix3 n p c) 0 (by simp) S200x32x4 A rfl rfl 0 rfl (ix3 n p ⟨c.val, hc⟩)
    (fun b hb => by
      match b with
      | ⟨0, _⟩ => rfl
      | ⟨1, _⟩ => rfl
      | ⟨2, _⟩ => exact absurd (Fin.ext rfl) hb)
    (by show 0 + c.val = c.val; omega)

theorem cat10_mid (A : S200x32x4.Idx → α) (B C : S200x32x3.Idx → α)
    (h : Shape.Concatenates [S200x32x4, S200x32x3, S200x32x3] S200x32x10 2) (n : Fin 200) (p : Fin 32) (c : Fin 10)
    (h4 : 4 ≤ c.val) (h7 : c.val < 7) :
    concatenate S200x32x10 2 [⟨S200x32x4, A⟩, ⟨S200x32x3, B⟩, ⟨S200x32x3, C⟩] h (ix3 n p c)
      = B (ix3 n p ⟨c.val - 4, by omega⟩) :=
  concatenate_apply_piece (t := S200x32x10) 2 [⟨S200x32x4, A⟩, ⟨S200x32x3, B⟩, ⟨S200x32x3, C⟩] h (ix3 n p c) 1 (by simp) S200x32x3 B rfl rfl 4 rfl (ix3 n p ⟨c.val - 4, by omega⟩)
    (fun b hb => by
      match b with
      | ⟨0, _⟩ => rfl
      | ⟨1, _⟩ => rfl
      | ⟨2, _⟩ => exact absurd (Fin.ext rfl) hb)
    (by show 4 + (c.val - 4) = c.val; omega)

theorem cat10_hi (A : S200x32x4.Idx → α) (B C : S200x32x3.Idx → α)
    (h : Shape.Concatenates [S200x32x4, S200x32x3, S200x32x3] S200x32x10 2) (n : Fin 200) (p : Fin 32) (c : Fin 10)
    (h7 : 7 ≤ c.val) :
    concatenate S200x32x10 2 [⟨S200x32x4, A⟩, ⟨S200x32x3, B⟩, ⟨S200x32x3, C⟩] h (ix3 n p c)
      = C (ix3 n p ⟨c.val - 7, by have := c.isLt; omega⟩) :=
  concatenate_apply_piece (t := S200x32x10) 2 [⟨S200x32x4, A⟩, ⟨S200x32x3, B⟩, ⟨S200x32x3, C⟩] h (ix3 n p c) 2 (by simp) S200x32x3 C rfl rfl 7 rfl (ix3 n p ⟨c.val - 7, by have := c.isLt; omega⟩)
    (fun b hb => by
      match b with
      | ⟨0, _⟩ => rfl
      | ⟨1, _⟩ => rfl
      | ⟨2, _⟩ => exact absurd (Fin.ext rfl) hb)
    (by show 7 + (c.val - 7) = c.val; omega)

end Cat

/-- The voxel centre of each pillar, repeated over its points. -/
def ctr (cb : Vec Ideal S200x4 .i32) : FVec Ideal S200x32x3 .f32 :=
  broadcastTo S200x32x3 (shapeCast S200x1x3 (concatenate S200x3 1 [⟨S200x1, k0_pay10 cb⟩, ⟨S200x1, k0_pay11 cb⟩,
    ⟨S200x1, mulf (k0_pay12 cb) (broadcast S200x1 (Scalar.ofBits (F := Ideal) .f32 0x40800000#32))⟩]
    concatenates_S200x1_S200x1_S200x1_S200x3_d1) shapeCasts_S200x3_S200x1x3) broadcasts_S200x1x3_S200x32x3

theorem ctr_apply (cb : Vec Ideal S200x4 .i32) (n : Fin 200) (p : Fin 32) (j : Fin 3) :
    ctr cb (ix3 n p j) = center (cur2 cb) n j := by
  unfold ctr
  rw [bc_row3, sc_row3]
  match j with
  | ⟨0, _⟩ => exact (cat3_apply0 _ _ _ _ n).trans (pay10_apply cb n)
  | ⟨1, _⟩ => exact (cat3_apply1 _ _ _ _ n).trans (pay11_apply cb n)
  | ⟨2, _⟩ => exact (cat3_apply2 _ _ _ _ n).trans (pay12x4_apply cb n)

/-- The ten masked features of every point of the block. -/
def featT (x : Vec Ideal S200x32x4 .f32) (nb : Vec Ideal S200x1 .i32) (cb : Vec Ideal S200x4 .i32) :
    FVec Ideal S200x32x10 .f32 :=
  mulf (concatenate S200x32x10 2 [⟨S200x32x4, x⟩, ⟨S200x32x3, k0_pay9 x nb⟩, ⟨S200x32x3, subf (k0_pay7 x) (ctr cb)⟩]
    concatenates_S200x32x4_S200x32x3_S200x32x3_S200x32x10_d2)
    (broadcastTo S200x32x10 (k0_pay8 nb) broadcasts_S200x32x1_S200x32x10)

theorem featT_apply (x : Vec Ideal S200x32x4 .f32) (nb : Vec Ideal S200x1 .i32) (cb : Vec Ideal S200x4 .i32)
    (n : Fin 200) (p : Fin 32) (c : Fin 10) :
    featT x nb cb (ix3 n p c) = feat (cur3 x) (fun n => nb (ix2 n 0)) (cur2 cb) n p c := by
  unfold featT feat
  rw [mulf_apply, bc_col10, mask_apply]
  refine congrArg (· * _) ?_
  by_cases h4 : c.val < 4
  · rw [dif_pos h4, cat10_lo _ _ _ _ n p c h4]; rfl
  · by_cases h7 : c.val < 7
    · rw [dif_neg h4, dif_pos h7, cat10_mid _ _ _ _ n p c (by omega) h7, pay9_apply]
    · rw [dif_neg h4, dif_neg h7, cat10_hi _ _ _ _ n p c (by omega), subf_apply, slice_apply, ctr_apply]; rfl

/-! ## The projection -/

/-- A 6400×10 by 10×64 product into a zero accumulator, at an index: the sum over the contracted coordinate. -/
theorem matmul_zero_apply {φ₁ φ₂ : FTy} (A : FVec Ideal S6400x10 φ₁) (B : FVec Ideal S10x64 φ₂) (r : Fin 6400) (d : Fin 64) :
    matmul dot_S6400x10_S10x64_S6400x64_1_0_0_1_n_n none A B (constant (F := Ideal) S6400x64 .f32 0x00000000#32) (ix2 r d)
      = ∑ c : Fin 10, A (ix2 r c) * B (ix2 c d) := by
  show FloatOps.matmul _ none A B _ (ix2 r d) = _
  rw [Ideal.matmul_constant_zero_apply,
    ← Equiv.sum_comp (contrEquiv1 dot_S6400x10_S10x64_S6400x64_1_0_0_1_n_n 10 rfl rfl).symm]
  refine Finset.sum_congr rfl fun c _ => ?_
  have c2 := contrEquiv1_symm_val dot_S6400x10_S10x64_S6400x64_1_0_0_1_n_n 10 rfl rfl c
  have l2 : dot_S6400x10_S10x64_S6400x64_1_0_0_1_n_n.lhsIdx (ix2 r d) ((contrEquiv1 _ 10 rfl rfl).symm c) = ix2 r c := by
    funext ax; apply Fin.ext
    match ax with
    | ⟨0, _⟩ => simp [DotDims.lhsIdx, dot_S6400x10_S10x64_S6400x64_1_0_0_1_n_n]; rfl
    | ⟨1, _⟩ => simp [DotDims.lhsIdx, dot_S6400x10_S10x64_S6400x64_1_0_0_1_n_n]; exact c2
  have r2 : dot_S6400x10_S10x64_S6400x64_1_0_0_1_n_n.rhsIdx (ix2 r d) ((contrEquiv1 _ 10 rfl rfl).symm c) = ix2 c d := by
    funext ax; apply Fin.ext
    match ax with
    | ⟨0, _⟩ => simp [DotDims.rhsIdx, dot_S6400x10_S10x64_S6400x64_1_0_0_1_n_n]; exact c2
    | ⟨1, _⟩ => simp [DotDims.rhsIdx, dot_S6400x10_S10x64_S6400x64_1_0_0_1_n_n]; rfl
  rw [l2, r2]

/-- The projection of every point of the block to 64 channels; row n·32 + p is point p of pillar n. -/
def projT (x : Vec Ideal S200x32x4 .f32) (nb : Vec Ideal S200x1 .i32) (cb : Vec Ideal S200x4 .i32)
    (w : Vec Ideal S10x64 .f32) : FVec Ideal S6400x64 .f32 :=
  matmul dot_S6400x10_S10x64_S6400x64_1_0_0_1_n_n none
    (truncf .bf16 (shapeCast S6400x10 (featT x nb cb) shapeCasts_S200x32x10_S6400x10) bitsLt_bf16_f32)
    (truncf .bf16 w bitsLt_bf16_f32) (constant S6400x64 .f32 0x00000000#32)

theorem projT_apply (x : Vec Ideal S200x32x4 .f32) (nb : Vec Ideal S200x1 .i32) (cb : Vec Ideal S200x4 .i32)
    (w : Vec Ideal S10x64 .f32) (n : Fin 200) (p : Fin 32) (d : Fin 64) :
    projT x nb cb w (ix2 ⟨n.val * 32 + p.val, by omega⟩ d)
      = proj (N := 200) (cur3 x) (cur2 w) (fun n => nb (ix2 n 0)) (cur2 cb) n p d := by
  unfold projT
  rw [matmul_zero_apply]
  unfold proj
  refine Finset.sum_congr rfl fun c _ => ?_
  rw [truncf_apply, truncf_apply,
    shapeCast_apply _ _ (ix2 (⟨n.val * 32 + p.val, by omega⟩ : Fin 6400) c) (ix3 n p c) (by
      rw [Shape.rowMajor_val_three, Shape.rowMajor_val_two]; rfl),
    featT_apply]
  rfl

/-- The statistics kernel's product is the projection. -/
theorem pay1_eq_projT (x : Vec Ideal S200x32x4 .f32) (nb : Vec Ideal S200x1 .i32) (cb : Vec Ideal S200x4 .i32)
    (w : Vec Ideal S10x64 .f32) :
    k0_pay1 x (k0_pay7 x) (k0_pay8 nb) (k0_pay9 x nb) (k0_pay10 cb) (k0_pay11 cb) (k0_pay12 cb)
      (Scalar.ofBits (F := Ideal) .f32 0x40800000#32) w = projT x nb cb w := rfl

end Cert.KernelIdeal.KVal

end
-- ==== Proof.KVal0.lean ====
/-
  The statistics kernel, read one element at a time.

  Its product at row n·32 + p and channel d is the projection of point p of pillar n. The two running
  sums of a channel gain, at each block, the sum of the projections and the sum of their squares over the
  6400 rows of the block, that is over its 200 pillars and their 32 points; they start from zero.
-/
import proofs.«109379_j63986422775810_2_alg».proof.Proof.KValFeat

noncomputable section

namespace Cert.KernelIdeal.KVal

open Cert.KernelIdeal Cert.KernelIdeal.Gen Cert.Spec Idealize.ShloMosaic Idealize.ShloMosaic.ValueIdx
open scoped BigOperators

/-- The statistics kernel's product at row n·32 + p is the projection of point p of pillar n. -/
theorem pay1_apply (x : Vec Ideal S200x32x4 .f32) (nb : Vec Ideal S200x1 .i32) (cb : Vec Ideal S200x4 .i32)
    (w : Vec Ideal S10x64 .f32) (n : Fin 200) (p : Fin 32) (d : Fin 64) :
    k0_pay1 x (k0_pay7 x) (k0_pay8 nb) (k0_pay9 x nb) (k0_pay10 cb) (k0_pay11 cb) (k0_pay12 cb)
        (Scalar.ofBits (F := Ideal) .f32 0x40800000#32) w (ix2 ⟨n.val * 32 + p.val, by omega⟩ d)
      = proj (N := 200) (cur3 x) (cur2 w) (fun n => nb (ix2 n 0)) (cur2 cb) n p d :=
  (congrFun (pay1_eq_projT x nb cb w) _).trans (projT_apply x nb cb w n p d)

/-- The sum over the 6400 rows of a column. -/
theorem sum_rows (v : FVec Ideal S6400x64 .f32) (h : S6400x64.Reduces [0] S64) (hφ : FTy.f32 = FTy.f32 ∨ FTy.f32 = FTy.bf16)
    (hacc : (0x00000000#32 : BitVec 32) = 0x00000000#32) (d : Fin 64) :
    multiReduction .add [0] S64 v 0x00000000#32 h hφ hacc (ix1 d) = ∑ r : Fin 6400, v (ix2 r d) := by
  refine (Ideal.multiReduction_add_single v 0x00000000#32 h hφ hacc (ix1 d)).trans ?_
  refine Finset.sum_congr rfl fun k _ => congrArg v ?_
  funext a
  match a with | ⟨0, _⟩ => rfl | ⟨1, _⟩ => rfl

/-- A sum over the 6400 rows is the sum over the pillars of the sums over their points. -/
theorem sum_rows_split {M : Type} [AddCommMonoid M] (f : Fin 6400 → M) :
    ∑ r : Fin 6400, f r = ∑ n : Fin 200, ∑ p : Fin 32, f ⟨n.val * 32 + p.val, by omega⟩ := by
  have e := Equiv.sum_comp (finProdFinEquiv (m := 200) (n := 32)) (fun r : Fin (200 * 32) => f r)
  rw [Fintype.sum_prod_type] at e
  exact e.symm.trans (Finset.sum_congr rfl fun n _ => Finset.sum_congr rfl fun p _ =>
    congrArg f (Fin.ext (by simp [finProdFinEquiv]; omega)))

theorem sc_lane {α : Type} (v : S64.Idx → α) (h : S64.ShapeCasts S1x64) (d : Fin 64) :
    shapeCast S1x64 v h (ix2 0 d) = v (ix1 d) :=
  shapeCast_apply v h (ix2 0 d) (ix1 d) (by
    rw [Shape.rowMajor_val_one, Shape.rowMajor_val_two]
    show d.val = 0 * 64 + d.val
    omega)

/-- The first running sum after a block: what it held plus the column sums of the projections. -/
theorem pay2_apply (x : Vec Ideal S200x32x4 .f32) (nb : Vec Ideal S200x1 .i32) (cb : Vec Ideal S200x4 .i32)
    (w : Vec Ideal S10x64 .f32) (a : Vec Ideal S1x64 .f32) (d : Fin 64) :
    k0_pay2 x (k0_pay7 x) (k0_pay8 nb) (k0_pay9 x nb) (k0_pay10 cb) (k0_pay11 cb) (k0_pay12 cb)
        (Scalar.ofBits (F := Ideal) .f32 0x40800000#32) w a (ix2 0 d)
      = a (ix2 0 d) + sum1 (N := 200) (cur3 x) (cur2 w) (fun n => nb (ix2 n 0)) (cur2 cb) d := by
  unfold k0_pay2
  rw [pay1_eq_projT, shapeCast_self, addf_apply, sc_lane, sum_rows, sum_rows_split]
  unfold sum1
  refine congrArg (a (ix2 0 d) + ·) ?_
  exact Finset.sum_congr rfl fun n _ => Finset.sum_congr rfl fun p _ => projT_apply x nb cb w n p d

/-- The second running sum after a block: what it held plus the column sums of the squared projections. -/
theorem pay3_apply (x : Vec Ideal S200x32x4 .f32) (nb : Vec Ideal S200x1 .i32) (cb : Vec Ideal S200x4 .i32)
    (w : Vec Ideal S10x64 .f32) (a : Vec Ideal S1x64 .f32) (d : Fin 64) :
    k0_pay3 x (k0_pay7 x) (k0_pay8 nb) (k0_pay9 x nb) (k0_pay10 cb) (k0_pay11 cb) (k0_pay12 cb)
        (Scalar.ofBits (F := Ideal) .f32 0x40800000#32) w a (ix2 0 d)
      = a (ix2 0 d) + sum2 (N := 200) (cur3 x) (cur2 w) (fun n => nb (ix2 n 0)) (cur2 cb) d := by
  unfold k0_pay3
  rw [pay1_eq_projT, shapeCast_self, addf_apply, sc_lane, sum_rows, sum_rows_split]
  unfold sum2
  refine congrArg (a (ix2 0 d) + ·) ?_
  refine Finset.sum_congr rfl fun n _ => Finset.sum_congr rfl fun p _ => ?_
  rw [mulf_apply, projT_apply x nb cb w n p d]

/-- The running sums start from the zero word, which is zero. -/
theorem pay4_apply (i : S1x64.Idx) : (k0_pay4 (F := Ideal)) i = 0 := by
  unfold k0_pay4
  rw [shapeCast_self]
  exact Ideal.ofBits_zero_f32

theorem pay5_apply (i : S1x64.Idx) : (k0_pay5 (F := Ideal)) i = 0 := by
  unfold k0_pay5
  rw [shapeCast_self]
  exact Ideal.ofBits_zero_f32

end Cert.KernelIdeal.KVal

end
-- ==== Proof.KAcc.lean ====
/-
  The statistics kernel over its grid of 500 points, as values.

  The block at point t contributes, per channel, the sum of the projections of its 200·32 points and the sum
  of their squares. The first point starts the two accumulator rows at zero and adds its block's sums; every
  later point adds its block's sums to what the point before left; so after point n a row holds the sum of
  the contributions of points 0 … n (by induction on n), and the output rows, which the last point copies
  from the updated accumulator rows, hold the sums over all 500 blocks.
-/
import proofs.«109379_j63986422775810_2_alg».proof.Proof.KPieces
import proofs.«109379_j63986422775810_2_alg».proof.Proof.KVal0
import proofs.«109379_j63986422775810_2_alg».proof.Proof.Spec

set_option maxRecDepth 16384

noncomputable section

namespace Cert.KernelIdeal.KVal

open Cert.KernelIdeal Cert.KernelIdeal.Gen Idealize.ShloMosaic Idealize.ShloMosaic.TcCoe Idealize.ShloMosaic.ValueIdx
open Idealize.SL.Sem
open scoped BigOperators

section
variable (V : (c : Dev nD) → (b : Ref sig .tc) → Buf (Elt Ideal) ((c : Thread nD τ).loc b))

/-- The sum of the projections over the 200 pillars and their points of the block at point t, per channel, -/
def blkSum1 (c : Dev nD) (t : Fin cfg0.N) (d : Fin 64) : EReal :=
  Cert.Spec.sum1 (N := 200) (Cert.Spec.cur3 (iblk0 V c 0 t : Vec Ideal S200x32x4 .f32))
    (Cert.Spec.cur2 (iblk0 V c 3 t : Vec Ideal S10x64 .f32)) (fun n => (iblk0 V c 2 t : Vec Ideal S200x1 .i32) (ix2 n 0))
    (Cert.Spec.cur2 (iblk0 V c 1 t : Vec Ideal S200x4 .i32)) d

/-- and the sum of their squares. -/
def blkSum2 (c : Dev nD) (t : Fin cfg0.N) (d : Fin 64) : EReal :=
  Cert.Spec.sum2 (N := 200) (Cert.Spec.cur3 (iblk0 V c 0 t : Vec Ideal S200x32x4 .f32))
    (Cert.Spec.cur2 (iblk0 V c 3 t : Vec Ideal S10x64 .f32)) (fun n => (iblk0 V c 2 t : Vec Ideal S200x1 .i32) (ix2 n 0))
    (Cert.Spec.cur2 (iblk0 V c 1 t : Vec Ideal S200x4 .i32)) d

/-- What a point adds to the first accumulator row: the block's sum. -/
theorem pay2_blk (c : Dev nD) (t : Fin cfg0.N) (a : Vec Ideal S1x64 .f32) (d : Fin 64) :
    k0_pay2 (iblk0 V c 0 t) (k0_pay7 (iblk0 V c 0 t)) (k0_pay8 (iblk0 V c 2 t)) (k0_pay9 (iblk0 V c 0 t) (iblk0 V c 2 t))
        (k0_pay10 (iblk0 V c 1 t)) (k0_pay11 (iblk0 V c 1 t)) (k0_pay12 (iblk0 V c 1 t))
        (Scalar.ofBits (F := Ideal) .f32 0x40800000#32) (iblk0 V c 3 t) a (ix2 0 d)
      = a (ix2 0 d) + blkSum1 V c t d :=
  pay2_apply (iblk0 V c 0 t) (iblk0 V c 2 t) (iblk0 V c 1 t) (iblk0 V c 3 t) a d

theorem pay3_blk (c : Dev nD) (t : Fin cfg0.N) (a : Vec Ideal S1x64 .f32) (d : Fin 64) :
    k0_pay3 (iblk0 V c 0 t) (k0_pay7 (iblk0 V c 0 t)) (k0_pay8 (iblk0 V c 2 t)) (k0_pay9 (iblk0 V c 0 t) (iblk0 V c 2 t))
        (k0_pay10 (iblk0 V c 1 t)) (k0_pay11 (iblk0 V c 1 t)) (k0_pay12 (iblk0 V c 1 t))
        (Scalar.ofBits (F := Ideal) .f32 0x40800000#32) (iblk0 V c 3 t) a (ix2 0 d)
      = a (ix2 0 d) + blkSum2 V c t d :=
  pay3_apply (iblk0 V c 0 t) (iblk0 V c 2 t) (iblk0 V c 1 t) (iblk0 V c 3 t) a d

/-! ## One point -/

/-- After the first point the first accumulator row holds the first block's sum: the row starts at zero. -/
theorem acc1_first (c : Dev nD) (t : Fin cfg0.N) (h0 : t.val = 0) (d : Fin 64) :
    (outsAt0 V c t.val t.isLt).2.2.1 (ix2 0 d) = blkSum1 V c t d := by
  have hc0 : cond0_0 (grid0.coords t) := (hcond0_0 t).mpr h0
  have hc1 : ¬cond0_1 (grid0.coords t) := fun h' => by have := (hcond0_1 t).mp h'; omega
  rw [outsAt0_A V c t h0 hc0 hc1]
  dsimp only
  rw [sout0_A_0_eq, pay2_blk, pay4_apply, zero_add]

theorem acc2_first (c : Dev nD) (t : Fin cfg0.N) (h0 : t.val = 0) (d : Fin 64) :
    (outsAt0 V c t.val t.isLt).2.2.2 (ix2 0 d) = blkSum2 V c t d := by
  have hc0 : cond0_0 (grid0.coords t) := (hcond0_0 t).mpr h0
  have hc1 : ¬cond0_1 (grid0.coords t) := fun h' => by have := (hcond0_1 t).mp h'; omega
  rw [outsAt0_A V c t h0 hc0 hc1]
  dsimp only
  rw [sout0_A_1_eq, pay3_blk, pay5_apply, zero_add]

/-- Every later point adds its block's sum to what the point before left. -/
theorem acc1_step (c : Dev nD) (t : Fin cfg0.N) (h0 : ¬t.val = 0) (d : Fin 64) :
    (outsAt0 V c t.val t.isLt).2.2.1 (ix2 0 d) = (prevOuts V c t).2.2.1 (ix2 0 d) + blkSum1 V c t d := by
  have hc0 : ¬cond0_0 (grid0.coords t) := fun h' => h0 ((hcond0_0 t).mp h')
  by_cases h1 : t.val = 499
  · have hc1 : cond0_1 (grid0.coords t) := (hcond0_1 t).mpr h1
    rw [outsAt0_C V c t h0 h1 hc0 hc1]
    dsimp only
    rw [sout0_C_0_eq, pay2_blk]
  · have hc1 : ¬cond0_1 (grid0.coords t) := fun h' => h1 ((hcond0_1 t).mp h')
    rw [outsAt0_B V c t h0 h1 hc0 hc1]
    dsimp only
    rw [sout0_B_0_eq, pay2_blk]

theorem acc2_step (c : Dev nD) (t : Fin cfg0.N) (h0 : ¬t.val = 0) (d : Fin 64) :
    (outsAt0 V c t.val t.isLt).2.2.2 (ix2 0 d) = (prevOuts V c t).2.2.2 (ix2 0 d) + blkSum2 V c t d := by
  have hc0 : ¬cond0_0 (grid0.coords t) := fun h' => h0 ((hcond0_0 t).mp h')
  by_cases h1 : t.val = 499
  · have hc1 : cond0_1 (grid0.coords t) := (hcond0_1 t).mpr h1
    rw [outsAt0_C V c t h0 h1 hc0 hc1]
    dsimp only
    rw [sout0_C_1_eq, pay3_blk]
  · have hc1 : ¬cond0_1 (grid0.coords t) := fun h' => h1 ((hcond0_1 t).mp h')
    rw [outsAt0_B V c t h0 h1 hc0 hc1]
    dsimp only
    rw [sout0_B_1_eq, pay3_blk]

/-- The last point copies the updated accumulator rows to the output rows. -/
theorem out4_step (c : Dev nD) (t : Fin cfg0.N) (h0 : ¬t.val = 0) (h1 : t.val = 499) (d : Fin 64) :
    (outsAt0 V c t.val t.isLt).1 (ix2 0 d) = (prevOuts V c t).2.2.1 (ix2 0 d) + blkSum1 V c t d := by
  have hc0 : ¬cond0_0 (grid0.coords t) := fun h' => h0 ((hcond0_0 t).mp h')
  have hc1 : cond0_1 (grid0.coords t) := (hcond0_1 t).mpr h1
  rw [outsAt0_C V c t h0 h1 hc0 hc1]
  dsimp only
  rw [out0_C_4_eq, pay2_blk]

theorem out5_step (c : Dev nD) (t : Fin cfg0.N) (h0 : ¬t.val = 0) (h1 : t.val = 499) (d : Fin 64) :
    (outsAt0 V c t.val t.isLt).2.1 (ix2 0 d) = (prevOuts V c t).2.2.2 (ix2 0 d) + blkSum2 V c t d := by
  have hc0 : ¬cond0_0 (grid0.coords t) := fun h' => h0 ((hcond0_0 t).mp h')
  have hc1 : cond0_1 (grid0.coords t) := (hcond0_1 t).mpr h1
  rw [outsAt0_C V c t h0 h1 hc0 hc1]
  dsimp only
  rw [out0_C_5_eq, pay3_blk]

/-! ## Over the grid -/

/-- After point n the first accumulator row holds the sum of the blocks' sums up to n, -/
theorem acc1_eq (c : Dev nD) : ∀ (n : ℕ) (h : n < cfg0.N) (d : Fin 64),
    (outsAt0 V c n h).2.2.1 (ix2 0 d)
      = ∑ k ∈ Finset.range (n + 1), (if hk : k < cfg0.N then blkSum1 V c ⟨k, hk⟩ d else 0)
  | 0, h, d => by
    rw [Finset.sum_range_one, dif_pos h]
    exact acc1_first V c ⟨0, h⟩ rfl d
  | n + 1, h, d => by
    rw [Finset.sum_range_succ, dif_pos h, ← acc1_eq c n (Nat.lt_of_succ_lt h) d]
    exact acc1_step V c ⟨n + 1, h⟩ (Nat.succ_ne_zero n) d

/-- and the second the sum of the blocks' sums of squares. -/
theorem acc2_eq (c : Dev nD) : ∀ (n : ℕ) (h : n < cfg0.N) (d : Fin 64),
    (outsAt0 V c n h).2.2.2 (ix2 0 d)
      = ∑ k ∈ Finset.range (n + 1), (if hk : k < cfg0.N then blkSum2 V c ⟨k, hk⟩ d else 0)
  | 0, h, d => by
    rw [Finset.sum_range_one, dif_pos h]
    exact acc2_first V c ⟨0, h⟩ rfl d
  | n + 1, h, d => by
    rw [Finset.sum_range_succ, dif_pos h, ← acc2_eq c n (Nat.lt_of_succ_lt h) d]
    exact acc2_step V c ⟨n + 1, h⟩ (Nat.succ_ne_zero n) d

/-- The first output row after the last point (position n + 1 = 499): the sum over all 500 blocks. -/
theorem out4_eq_succ (c : Dev nD) (n : ℕ) (h : n + 1 < cfg0.N) (h1 : n + 1 = 499) (d : Fin 64) :
    (outsAt0 V c (n + 1) h).1 (ix2 0 d) = ∑ t : Fin cfg0.N, blkSum1 V c t d := by
  have hN : cfg0.N = 500 := N_0
  have e3 : ∑ t : Fin cfg0.N, blkSum1 V c t d
      = ∑ k ∈ Finset.range (n + 1 + 1), (if hk : k < cfg0.N then blkSum1 V c ⟨k, hk⟩ d else 0) := by
    rw [show n + 1 + 1 = cfg0.N from by omega, Finset.sum_range]
    exact Finset.sum_congr rfl fun t _ => by rw [dif_pos t.isLt]
  rw [e3, Finset.sum_range_succ, dif_pos h, ← acc1_eq V c n (Nat.lt_of_succ_lt h) d]
  exact out4_step V c ⟨n + 1, h⟩ (Nat.succ_ne_zero n) h1 d

theorem out4_eq (c : Dev nD) (h : 499 < cfg0.N) (d : Fin 64) :
    (outsAt0 V c 499 h).1 (ix2 0 d) = ∑ t : Fin cfg0.N, blkSum1 V c t d :=
  out4_eq_succ V c 498 h rfl d

/-- The second output row after the last point. -/
theorem out5_eq_succ (c : Dev nD) (n : ℕ) (h : n + 1 < cfg0.N) (h1 : n + 1 = 499) (d : Fin 64) :
    (outsAt0 V c (n + 1) h).2.1 (ix2 0 d) = ∑ t : Fin cfg0.N, blkSum2 V c t d := by
  have hN : cfg0.N = 500 := N_0
  have e3 : ∑ t : Fin cfg0.N, blkSum2 V c t d
      = ∑ k ∈ Finset.range (n + 1 + 1), (if hk : k < cfg0.N then blkSum2 V c ⟨k, hk⟩ d else 0) := by
    rw [show n + 1 + 1 = cfg0.N from by omega, Finset.sum_range]
    exact Finset.sum_congr rfl fun t _ => by rw [dif_pos t.isLt]
  rw [e3, Finset.sum_range_succ, dif_pos h, ← acc2_eq V c n (Nat.lt_of_succ_lt h) d]
  exact out5_step V c ⟨n + 1, h⟩ (Nat.succ_ne_zero n) h1 d

theorem out5_eq (c : Dev nD) (h : 499 < cfg0.N) (d : Fin 64) :
    (outsAt0 V c 499 h).2.1 (ix2 0 d) = ∑ t : Fin cfg0.N, blkSum2 V c t d :=
  out5_eq_succ V c 498 h rfl d

end

end Cert.KernelIdeal.KVal

end
-- ==== Proof.SpecLaws.lean ====
/-
  Laws of the shared mathematics: the projection of a block of pillars is the block of the
  projections, the per-channel sums split over blocks of pillars, and over finite data the two
  forms of the variance agree.
-/
import proofs.«109379_j63986422775810_2_alg».proof.Proof.Spec

noncomputable section

namespace Cert.Spec

open Idealize.ShloMosaic Idealize.ShloMosaic.ValueIdx
open scoped BigOperators

/-! ## Blocks of pillars -/

/-- Every ingredient of a projected value depends on the pillar's own row only, so the projection
    of block `t` is block `t` of the projections. -/
theorem proj_blk {B T : Nat} (X : Fin (T * B) → Fin 32 → Fin 4 → EReal) (W : Fin 10 → Fin 64 → EReal)
    (np : Fin (T * B) → BitVec 32) (co : Fin (T * B) → Fin 4 → BitVec 32)
    (t : Fin T) (r : Fin B) (p : Fin 32) (d : Fin 64) :
    proj (blk X t) W (blk np t) (blk co t) r p d = blk (fun n => proj X W np co n p d) t r := rfl

/-- Likewise the result of block `t` is block `t` of the results. -/
theorem outAt_blk {B T : Nat} (X : Fin (T * B) → Fin 32 → Fin 4 → EReal) (W : Fin 10 → Fin 64 → EReal)
    (np : Fin (T * B) → BitVec 32) (co : Fin (T * B) → Fin 4 → BitVec 32) (γ β μ σ2 : Fin 64 → EReal)
    (t : Fin T) (r : Fin B) (d : Fin 64) :
    outAt (blk X t) W (blk np t) (blk co t) γ β μ σ2 r d = blk (fun n => outAt X W np co γ β μ σ2 n d) t r := rfl

/-- A sum over `T · B` rows is the sum over the `T` blocks of the sums over each block's `B` rows
    (row `t · B + r` is row `r` of block `t`). -/
theorem sum_blk {M : Type} [AddCommMonoid M] {B T : Nat} (f : Fin (T * B) → M) :
    ∑ n, f n = ∑ t : Fin T, ∑ r : Fin B, blk f t r := by
  calc ∑ n, f n = ∑ x : Fin T × Fin B, f (finProdFinEquiv x) := (Equiv.sum_comp finProdFinEquiv f).symm
    _ = ∑ t : Fin T, ∑ r : Fin B, f (finProdFinEquiv (t, r)) := Fintype.sum_prod_type _
    _ = _ := by
      refine Finset.sum_congr rfl fun t _ => Finset.sum_congr rfl fun r _ => ?_
      unfold blk
      congr 1
      apply Fin.ext
      simp only [finProdFinEquiv, Equiv.coe_fn_mk]
      rw [Nat.mul_comm, Nat.add_comm]

/-- The sum of the projections splits over the 500 blocks of 200 pillars. -/
theorem sum1_blocks (X : Fin 100000 → Fin 32 → Fin 4 → EReal) (W : Fin 10 → Fin 64 → EReal)
    (np : Fin 100000 → BitVec 32) (co : Fin 100000 → Fin 4 → BitVec 32) (d : Fin 64) :
    sum1 X W np co d = ∑ t : Fin 500, sum1 (N := 200) (blk (B := 200) (T := 500) X t) W
      (blk (B := 200) (T := 500) np t) (blk (B := 200) (T := 500) co t) d :=
  sum_blk (B := 200) (T := 500) (fun n : Fin (500 * 200) => ∑ p : Fin 32, proj X W np co n p d)

/-- The sum of the squared projections splits over the 500 blocks of 200 pillars. -/
theorem sum2_blocks (X : Fin 100000 → Fin 32 → Fin 4 → EReal) (W : Fin 10 → Fin 64 → EReal)
    (np : Fin 100000 → BitVec 32) (co : Fin 100000 → Fin 4 → BitVec 32) (d : Fin 64) :
    sum2 X W np co d = ∑ t : Fin 500, sum2 (N := 200) (blk (B := 200) (T := 500) X t) W
      (blk (B := 200) (T := 500) np t) (blk (B := 200) (T := 500) co t) d :=
  sum_blk (B := 200) (T := 500)
    (fun n : Fin (500 * 200) => ∑ p : Fin 32, proj X W np co n p d * proj X W np co n p d)

/-! ## Finite values -/

/-- An extended real is finite when it is a real. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.sub {x y : EReal} (hx : IsFin x) (hy : IsFin y) : IsFin (x - y) := by
  obtain ⟨a, rfl⟩ := hx; obtain ⟨b, rfl⟩ := hy; exact ⟨a - b, (EReal.coe_sub a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.sum {ι : Type} (s : Finset ι) (f : ι → EReal) (hf : ∀ i, IsFin (f i)) : IsFin (∑ i ∈ s, f i) := by
  classical
  induction s using Finset.induction_on with
  | empty => simpa using IsFin.zero
  | insert a s ha ih => rw [Finset.sum_insert ha]; exact (hf a).add ih
theorem IsFin.div_coe {x : EReal} (hx : IsFin x) {y : ℝ} (hy : y ≠ 0) : IsFin (Ideal.div x (y : EReal)) := by
  rw [Ideal.div_coe hy]; exact hx.mul (IsFin.coe _)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem half_isFin : IsFin half := ⟨_, by simp [half, Ideal.ofBits, Ideal.ieee, -EReal.coe_mul]; rfl⟩
theorem fifth_isFin : IsFin fifth := ⟨_, by simp [fifth, Ideal.ofBits, Ideal.ieee, -EReal.coe_mul]; rfl⟩
theorem four_isFin : IsFin four := ⟨_, by simp [four, Ideal.ofBits, Ideal.ieee, -EReal.coe_mul]; rfl⟩
theorem count_eq : count = ((3200000 : ℝ) : EReal) := by
  simp [count, Ideal.ofBits, Ideal.ieee, -EReal.coe_mul]; norm_num

/-! ## The projections of finite data are finite -/

section
variable {N : Nat}
variable (X : Fin N → Fin 32 → Fin 4 → EReal) (W : Fin 10 → Fin 64 → EReal)
variable (np : Fin N → BitVec 32) (co : Fin N → Fin 4 → BitVec 32)

theorem mask_isFin (n : Fin N) (p : Fin 32) : IsFin (mask np n p) := by
  unfold mask; split
  · exact IsFin.one
  · exact IsFin.zero

theorem cnt_ne_zero (n : Fin N) : (((max (np n).toInt 1 : ℤ) : ℝ)) ≠ 0 := by
  have : (1 : ℤ) ≤ max (np n).toInt 1 := le_max_right _ _
  have : (0 : ℤ) < max (np n).toInt 1 := by omega
  exact_mod_cast this.ne'

theorem vsz_isFin (j : Fin 3) : IsFin (vsz j) := by
  unfold vsz; split
  · exact four_isFin
  · exact fifth_isFin

theorem proj_isFin (hX : ∀ n p c, ∃ r : ℝ, X n p c = (r : EReal)) (hW : ∀ c d, ∃ r : ℝ, W c d = (r : EReal))
    (n : Fin N) (p : Fin 32) (d : Fin 64) : IsFin (proj X W np co n p d) := by
  have hxyz : ∀ p j, IsFin (xyz X n p j) := fun p j => hX n p _
  have hmean : ∀ j, IsFin (mean X np n j) := fun j =>
    IsFin.div_coe (IsFin.sum _ _ fun p => (hxyz p j).mul (mask_isFin np n p)) (cnt_ne_zero np n)
  have hcenter : ∀ j, IsFin (center co n j) := fun j =>
    ((IsFin.coe _).add half_isFin).mul (vsz_isFin j)
  refine IsFin.sum _ _ fun c => IsFin.mul ?_ (hW c d)
  unfold feat
  refine IsFin.mul ?_ (mask_isFin np n p)
  split
  · exact hX n p _
  · split
    · exact (hxyz p _).sub (hmean _)
    · exact (hxyz p _).sub (hcenter _)

end

/-! ## The two forms of the variance -/

/-- Over reals: mean of squares minus squared mean is the mean squared deviation. -/
theorem real_var {ι : Type} [Fintype ι] (h : ι → ℝ) (N : ℝ) (hN : (Fintype.card ι : ℝ) = N) (hpos : 0 < N) :
    (∑ i, h i * h i) * (1 / N) - ((∑ i, h i) * (1 / N)) * ((∑ i, h i) * (1 / N))
      = (∑ i, (h i - (∑ i, h i) * (1 / N)) * (h i - (∑ i, h i) * (1 / N))) * (1 / N) := by
  generalize hS : ∑ i, h i = S
  generalize hμ : S * (1 / N) = μ
  have h1 : ∑ i, (h i - μ) * (h i - μ) = (∑ i, h i * h i) - 2 * μ * S + N * (μ * μ) := by
    have : ∀ i, (h i - μ) * (h i - μ) = h i * h i - 2 * μ * h i + μ * μ := fun i => by ring
    simp only [this, Finset.sum_add_distrib, Finset.sum_sub_distrib, ← Finset.mul_sum, Finset.sum_const,
      Finset.card_univ, nsmul_eq_mul, hN, hS]
    ring
  rw [h1, ← hμ]
  have hN0 : N ≠ 0 := ne_of_gt hpos
  field_simp
  ring

section
variable (X : Fin 100000 → Fin 32 → Fin 4 → EReal) (W : Fin 10 → Fin 64 → EReal) (γ β : Fin 64 → EReal)
variable (np : Fin 100000 → BitVec 32) (co : Fin 100000 → Fin 4 → BitVec 32)

/-- Over finite data the variance as mean of squares minus squared mean (clipped at zero) is the
    mean squared deviation: with `n` values `h i` and `μ = (∑ h i)/n`,
    `(∑ h i²)/n − μ² = (∑ (h i − μ)²)/n ≥ 0`. -/
theorem varSq_eq_varDev (hX : ∀ n p c, ∃ r : ℝ, X n p c = (r : EReal)) (hW : ∀ c d, ∃ r : ℝ, W c d = (r : EReal))
    (d : Fin 64) : varSq X W np co d = varDev X W np co d := by
  choose h hh using fun n p => proj_isFin X W np co hX hW n p d
  let g : Fin 100000 × Fin 32 → ℝ := fun x => h x.1 x.2
  have hcard : (Fintype.card (Fin 100000 × Fin 32) : ℝ) = 3200000 := by
    simp [Fintype.card_prod]
  have key := real_var g 3200000 hcard (by norm_num)
  simp only [g, Fintype.sum_prod_type] at key
  have h1 : sum1 X W np co d = ((∑ n, ∑ p, h n p : ℝ) : EReal) := by
    simp only [sum1, hh, coe_sum]
  have hmu : mu X W np co d = (((∑ n, ∑ p, h n p) * (1 / 3200000) : ℝ) : EReal) := by
    rw [mu, h1, count_eq, Ideal.div_coe (by norm_num), ← EReal.coe_mul]
  have h2 : sum2 X W np co d = ((∑ n, ∑ p, h n p * h n p : ℝ) : EReal) := by
    simp only [sum2, hh, coe_sum, EReal.coe_mul]
  have h3 : sumDev X W np co (mu X W np co) d
      = ((∑ n, ∑ p, (h n p - (∑ n, ∑ p, h n p) * (1 / 3200000)) * (h n p - (∑ n, ∑ p, h n p) * (1 / 3200000)) : ℝ) : EReal) := by
    simp only [sumDev, hh, hmu, coe_sum, EReal.coe_mul, EReal.coe_sub]
  rw [varSq, varDev, h2, h3, hmu, count_eq, Ideal.div_coe (by norm_num), Ideal.div_coe (by norm_num),
    ← EReal.coe_mul, ← EReal.coe_mul, ← EReal.coe_mul, ← EReal.coe_sub, key]
  refine max_eq_left ?_
  rw [EReal.coe_nonneg]
  refine mul_nonneg (Finset.sum_nonneg fun n _ => Finset.sum_nonneg fun p _ => mul_self_nonneg _) (by norm_num)

/-- Hence the two forms of the result agree over finite data. -/
theorem resSq_eq_resDev (hX : ∀ n p c, ∃ r : ℝ, X n p c = (r : EReal)) (hW : ∀ c d, ∃ r : ℝ, W c d = (r : EReal)) :
    resSq X W γ β np co = resDev X W γ β np co := by
  have : varSq X W np co = varDev X W np co := funext fun d => varSq_eq_varDev X W np co hX hW d
  rw [resSq, resDev, this]

end

end Cert.Spec

end
-- ==== Proof.HostStages.lean ====
/-
  The host operations between the kernels, read at an index: the three reshapes before the first
  kernel only rename coordinates, and the eleven operations between the two kernels compute, per
  channel, the mean, the mean of squares, and the clipped difference "mean of squares minus squared mean".
-/
import proofs.«109379_j63986422775810_2_alg».proof.Proof.Gen.KernelIdeal.Launch
import proofs.«109379_j63986422775810_2_alg».proof.Proof.Spec
import Idealize.ShloMosaic.Lib.StableHlo.Run
import Idealize.ShloMosaic.Lib.ValueLayout
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.Host

open Cert.KernelIdeal Cert.KernelIdeal.Gen Cert.Spec Idealize.ShloMosaic Idealize.ShloMosaic.ValueIdx
open Idealize.ShloMosaic.StableHlo

/-- An `[a]` array cast to `[a, 1]` reads, at `(i, u)`, the operand at `i` (row-major positions agree). -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (Vv : Valuation Cert.KernelIdeal.τ Cert.KernelIdeal.sig (Elt Ideal))

/-- After the reshapes, entry `(n, 0)` of the `[100000, 1]` point counts is entry `n` of the given counts. -/
theorem after0_v0 (n : Fin 100000) :
    (StableHlo.after (hostOps0 (F := Ideal)) Vv (Proc.devRef .tc main_v0) : S100000x1.Idx → BitVec 32) (ix2 n 0)
      = (Vv (Proc.devRef .tc main_arg4) : S100000.Idx → BitVec 32) (ix1 n) := by
  have e : (StableHlo.after (hostOps0 (F := Ideal)) Vv (Proc.devRef .tc main_v0) : S100000x1.Idx → BitVec 32)
      = shapeCast S100000x1 (Vv (Proc.devRef .tc main_arg4) : S100000.Idx → BitVec 32) shapeCasts_S100000_S100000x1 := by
    after_results; rfl
  rw [e]
  exact shapeCast_a_a1_apply _ _ n 0

/-- Entry `(0, d)` of the `[1, 64]` scale row is entry `d` of the given scale. -/
theorem after0_v1 (d : Fin 64) :
    (StableHlo.after (hostOps0 (F := Ideal)) Vv (Proc.devRef .tc main_v1) : S1x64.Idx → EReal) (ix2 0 d)
      = (Vv (Proc.devRef .tc main_arg2) : S64.Idx → EReal) (ix1 d) := by
  have e : (StableHlo.after (hostOps0 (F := Ideal)) Vv (Proc.devRef .tc main_v1) : S1x64.Idx → EReal)
      = shapeCast S1x64 (Vv (Proc.devRef .tc main_arg2) : S64.Idx → EReal) shapeCasts_S64_S1x64 := by
    after_results; rfl
  rw [e]
  exact shapeCast_a_1a_apply _ _ 0 d

/-- Entry `(0, d)` of the `[1, 64]` shift row is entry `d` of the given shift. -/
theorem after0_v2 (d : Fin 64) :
    (StableHlo.after (hostOps0 (F := Ideal)) Vv (Proc.devRef .tc main_v2) : S1x64.Idx → EReal) (ix2 0 d)
      = (Vv (Proc.devRef .tc main_arg3) : S64.Idx → EReal) (ix1 d) := by
  have e : (StableHlo.after (hostOps0 (F := Ideal)) Vv (Proc.devRef .tc main_v2) : S1x64.Idx → EReal)
      = shapeCast S1x64 (Vv (Proc.devRef .tc main_arg3) : S64.Idx → EReal) shapeCasts_S64_S1x64 := by
    after_results; rfl
  rw [e]
  exact shapeCast_a_1a_apply _ _ 0 d

/-- The per-channel mean: the first kernel's sum divided by the number of points. -/
theorem after1_v5 (d : Fin 64) :
    (StableHlo.after (hostOps1 (F := Ideal)) Vv (Proc.devRef .tc main_v5) : S1x64.Idx → EReal) (ix2 0 d)
      = Ideal.div ((Vv (Proc.devRef .tc main_v3_0) : S1x64.Idx → EReal) (ix2 0 d)) count := by
  have e : (StableHlo.after (hostOps1 (F := Ideal)) Vv (Proc.devRef .tc main_v5) : S1x64.Idx → EReal)
      = Host.divf (F := Ideal) (Vv (Proc.devRef .tc main_v3_0) : FVec Ideal S1x64 .f32)
          (broadcastInDim S1x64 ![] bcast_S_S1x64 (constant (F := Ideal) S_ .f32 0x4A435000#32)) := by
    after_results
  rw [e, hostDivf_apply, broadcastInDim_scalar_apply, constant_apply]
  rfl

/-- The per-channel variance in its first form: the sum of squares divided by the number of points,
    minus the squared mean, clipped at zero. -/
theorem after1_v11 (d : Fin 64) :
    (StableHlo.after (hostOps1 (F := Ideal)) Vv (Proc.devRef .tc main_v11) : S1x64.Idx → EReal) (ix2 0 d)
      = max (Ideal.div ((Vv (Proc.devRef .tc main_v3_1) : S1x64.Idx → EReal) (ix2 0 d)) count
          - Ideal.div ((Vv (Proc.devRef .tc main_v3_0) : S1x64.Idx → EReal) (ix2 0 d)) count
            * Ideal.div ((Vv (Proc.devRef .tc main_v3_0) : S1x64.Idx → EReal) (ix2 0 d)) count) 0 := by
  have e : (StableHlo.after (hostOps1 (F := Ideal)) Vv (Proc.devRef .tc main_v11) : S1x64.Idx → EReal)
      = maximumf (F := Ideal)
          (subf (F := Ideal)
            (Host.divf (F := Ideal) (Vv (Proc.devRef .tc main_v3_1) : FVec Ideal S1x64 .f32)
              (broadcastInDim S1x64 ![] bcast_S_S1x64 (constant (F := Ideal) S_ .f32 0x4A435000#32)))
            (mulf (F := Ideal)
              (Host.divf (F := Ideal) (Vv (Proc.devRef .tc main_v3_0) : FVec Ideal S1x64 .f32)
                (broadcastInDim S1x64 ![] bcast_S_S1x64 (constant (F := Ideal) S_ .f32 0x4A435000#32)))
              (Host.divf (F := Ideal) (Vv (Proc.devRef .tc main_v3_0) : FVec Ideal S1x64 .f32)
                (broadcastInDim S1x64 ![] bcast_S_S1x64 (constant (F := Ideal) S_ .f32 0x4A435000#32)))))
          (broadcastInDim S1x64 ![] bcast_S_S1x64 (constant (F := Ideal) S_ .f32 0x00000000#32)) := by
    after_results
  rw [e]
  simp only [maximumf_apply, subf_apply, mulf_apply, hostDivf_apply]
  rw [broadcastInDim_scalar_apply, broadcastInDim_scalar_apply, constant_apply, constant_apply, Ideal.ofBits_zero_f32]
  rfl

end Cert.KernelIdeal.Host

end
-- ==== Proof.KFinalA.lean ====
/-
  The kernel program's first half read as values: the statistics kernel's windows read blocks of 200 pillars of the
  arguments, each point adds its block's sums to the two accumulator rows, and the two rows it leaves are the sum and
  the sum of squares of the projections over all 100000 pillars.
-/
import proofs.«109379_j63986422775810_2_alg».proof.Proof.MainRun
import proofs.«109379_j63986422775810_2_alg».proof.Proof.Blocks
import proofs.«109379_j63986422775810_2_alg».proof.Proof.KAcc
import proofs.«109379_j63986422775810_2_alg».proof.Proof.SpecLaws
import proofs.«109379_j63986422775810_2_alg».proof.Proof.HostStages

set_option maxRecDepth 16384

noncomputable section

namespace Cert.KernelIdeal.Val

open Idealize.ShloMosaic Idealize.ShloMosaic.TcCoe
open Idealize.SL.Sem
open Idealize.ShloMosaic.Pipeline (Dat)

open Cert.KernelIdeal Cert.KernelIdeal.Gen Cert.KernelIdeal.KVal Cert.KernelIdeal.Run Cert.Spec Idealize.ShloMosaic.ValueIdx

variable (m : (ℓ : Loc nD τ sig) → Buf (Elt Ideal) ℓ) (ρ : Dev nD → PrngReg) (c : Dev nD)

/-! ## The six arguments as coordinate functions -/

abbrev aX : Fin 100000 → Fin 32 → Fin 4 → EReal := cur3 (m ((c.tc : Thread nD τ).loc main_arg0) : S100000x32x4.Idx → EReal)
abbrev aW : Fin 10 → Fin 64 → EReal := cur2 (m ((c.tc : Thread nD τ).loc main_arg1) : S10x64.Idx → EReal)
abbrev aG : Fin 64 → EReal := cur1 (m ((c.tc : Thread nD τ).loc main_arg2) : S64.Idx → EReal)
abbrev aB : Fin 64 → EReal := cur1 (m ((c.tc : Thread nD τ).loc main_arg3) : S64.Idx → EReal)
abbrev aN : Fin 100000 → BitVec 32 := cur1 (m ((c.tc : Thread nD τ).loc main_arg4) : S100000.Idx → BitVec 32)
abbrev aC : Fin 100000 → Fin 4 → BitVec 32 := cur2 (m ((c.tc : Thread nD τ).loc main_arg5) : S100000x4.Idx → BitVec 32)

/-! ## What the first kernel finds in its windows' arrays -/

theorem U1_arg0 : U1 m ρ c main_arg0 = m ((c.tc : Thread nD τ).loc main_arg0) := (W1_keep m ρ c main_arg0 (by decide)).trans rfl
theorem U1_arg1 : U1 m ρ c main_arg1 = m ((c.tc : Thread nD τ).loc main_arg1) := (W1_keep m ρ c main_arg1 (by decide)).trans rfl
theorem U1_arg5 : U1 m ρ c main_arg5 = m ((c.tc : Thread nD τ).loc main_arg5) := (W1_keep m ρ c main_arg5 (by decide)).trans rfl
theorem U1_v0 (n : Fin 100000) : (U1 m ρ c main_v0 : S100000x1.Idx → BitVec 32) (ix2 n 0) = aN m c n :=
  Cert.KernelIdeal.Host.after0_v0 (W0 m ρ c) n

/-- A block of the first kernel's windows is the block of the argument. -/
theorem blk0_X (t : Fin cfg0.N) : cur3 (iblk0 (U1 m ρ) c 0 t : Vec Ideal S200x32x4 .f32) = blk (B := 200) (T := 500) (aX m c) ⟨t.val, lt_of_lt_of_eq t.isLt N_0⟩ := by
  funext r p ch
  have h : t.val * 200 + r.val < 100000 := by have := lt_of_lt_of_eq t.isLt (N_0); omega
  show (iblk0 (U1 m ρ) c 0 t : Vec Ideal S200x32x4 .f32) (ix3 r p ch) = _
  rw [iblk0_0 (U1 m ρ) c t r p ch h, U1_arg0]
  rfl
theorem blk0_C (t : Fin cfg0.N) : cur2 (iblk0 (U1 m ρ) c 1 t : Vec Ideal S200x4 .i32) = blk (B := 200) (T := 500) (aC m c) ⟨t.val, lt_of_lt_of_eq t.isLt N_0⟩ := by
  funext r j
  have h : t.val * 200 + r.val < 100000 := by have := lt_of_lt_of_eq t.isLt (N_0); omega
  show (iblk0 (U1 m ρ) c 1 t : Vec Ideal S200x4 .i32) (ix2 r j) = _
  rw [iblk0_1 (U1 m ρ) c t r j h, U1_arg5]
  rfl
theorem blk0_N (t : Fin cfg0.N) : (fun n => (iblk0 (U1 m ρ) c 2 t : Vec Ideal S200x1 .i32) (ix2 n 0)) = blk (B := 200) (T := 500) (aN m c) ⟨t.val, lt_of_lt_of_eq t.isLt N_0⟩ := by
  funext r
  have h : t.val * 200 + r.val < 100000 := by have := lt_of_lt_of_eq t.isLt (N_0); omega
  show (iblk0 (U1 m ρ) c 2 t : Vec Ideal S200x1 .i32) (ix2 r 0) = _
  rw [iblk0_2 (U1 m ρ) c t r h, U1_v0]
  rfl
theorem blk0_W (t : Fin cfg0.N) : cur2 (iblk0 (U1 m ρ) c 3 t : Vec Ideal S10x64 .f32) = aW m c := by
  rw [iblk0_3 (U1 m ρ) c t, U1_arg1]

/-! ## The first kernel's two rows are the sums over all pillars -/

theorem N0_lt (t : Fin cfg0.N) : t.val < 500 := lt_of_lt_of_eq t.isLt N_0
theorem N1_lt (t : Fin cfg1.N) : t.val < 500 := lt_of_lt_of_eq t.isLt N_1

theorem blkSum1_eq (t : Fin cfg0.N) (d : Fin 64) : blkSum1 (U1 m ρ) c t d
    = sum1 (N := 200) (blk (B := 200) (T := 500) (aX m c) ⟨t.val, N0_lt t⟩) (aW m c) (blk (B := 200) (T := 500) (aN m c) ⟨t.val, N0_lt t⟩) (blk (B := 200) (T := 500) (aC m c) ⟨t.val, N0_lt t⟩) d := by
  unfold blkSum1
  rw [blk0_X m ρ c t, blk0_W m ρ c t, blk0_N m ρ c t, blk0_C m ρ c t]
theorem blkSum2_eq (t : Fin cfg0.N) (d : Fin 64) : blkSum2 (U1 m ρ) c t d
    = sum2 (N := 200) (blk (B := 200) (T := 500) (aX m c) ⟨t.val, N0_lt t⟩) (aW m c) (blk (B := 200) (T := 500) (aN m c) ⟨t.val, N0_lt t⟩) (blk (B := 200) (T := 500) (aC m c) ⟨t.val, N0_lt t⟩) d := by
  unfold blkSum2
  rw [blk0_X m ρ c t, blk0_W m ρ c t, blk0_N m ρ c t, blk0_C m ρ c t]

theorem h499 : 499 < cfg0.N := by rw [show cfg0.N = 500 from N_0]; decide

theorem W2_v3_0 : W2 m ρ c (Proc.devRef .tc main_v3_0) = (dat0 (U1 m ρ) c).arrAt 4 cfg0.N := W2_arr m ρ c 4
theorem W2_v3_1 : W2 m ρ c (Proc.devRef .tc main_v3_1) = (dat0 (U1 m ρ) c).arrAt 5 cfg0.N := W2_arr m ρ c 5

/-- The first result row of the statistics kernel: the sum of the projections over all points. -/
theorem U2_sum1 (d : Fin 64) : (W2 m ρ c (Proc.devRef .tc main_v3_0) : S1x64.Idx → EReal) (ix2 0 d) = sum1 (aX m c) (aW m c) (aN m c) (aC m c) d := by
  have e : (W2 m ρ c (Proc.devRef .tc main_v3_0) : S1x64.Idx → EReal) = ((outsAt0 (U1 m ρ) c 499 h499).1 : S1x64.Idx → EReal) :=
    (W2_v3_0 m ρ c).trans (final0_4 (U1 m ρ) c h499)
  refine (congrFun e (ix2 0 d)).trans ((out4_eq (U1 m ρ) c h499 d).trans ?_)
  rw [sum1_blocks]
  exact Fintype.sum_equiv (finCongr N_0) _ _ (fun t => blkSum1_eq m ρ c t d)
/-- The second: the sum of their squares. -/
theorem U2_sum2 (d : Fin 64) : (W2 m ρ c (Proc.devRef .tc main_v3_1) : S1x64.Idx → EReal) (ix2 0 d) = sum2 (aX m c) (aW m c) (aN m c) (aC m c) d := by
  have e : (W2 m ρ c (Proc.devRef .tc main_v3_1) : S1x64.Idx → EReal) = ((outsAt0 (U1 m ρ) c 499 h499).2.1 : S1x64.Idx → EReal) :=
    (W2_v3_1 m ρ c).trans (final0_5 (U1 m ρ) c h499)
  refine (congrFun e (ix2 0 d)).trans ((out5_eq (U1 m ρ) c h499 d).trans ?_)
  rw [sum2_blocks]
  exact Fintype.sum_equiv (finCongr N_0) _ _ (fun t => blkSum2_eq m ρ c t d)

end Cert.KernelIdeal.Val

end
-- ==== Proof.KFinalB.lean ====
/-
  What the second kernel finds when it is entered: the host lines between the kernels have made the mean and the
  clipped variance of the two rows; the arguments and the reshaped rows of γ, β and num_points are as launched; so
  its windows' blocks are the blocks of the arguments and the rows of γ, β, mean and variance.
-/
import proofs.«109379_j63986422775810_2_alg».proof.Proof.KFinalA

set_option maxRecDepth 16384

noncomputable section

namespace Cert.KernelIdeal.Val

open Idealize.ShloMosaic Idealize.ShloMosaic.TcCoe
open Idealize.SL.Sem
open Idealize.ShloMosaic.Pipeline (Dat)

open Cert.KernelIdeal Cert.KernelIdeal.Gen Cert.KernelIdeal.KVal Cert.KernelIdeal.Run Cert.Spec Idealize.ShloMosaic.ValueIdx

variable (m : (ℓ : Loc nD τ sig) → Buf (Elt Ideal) ℓ) (ρ : Dev nD → PrngReg) (c : Dev nD)
/-! ## What the second kernel finds in its windows' arrays -/

theorem U3_v5 (d : Fin 64) : (U3 m ρ c main_v5 : S1x64.Idx → EReal) (ix2 0 d) = mu (aX m c) (aW m c) (aN m c) (aC m c) d := by
  refine (Cert.KernelIdeal.Host.after1_v5 (W2 m ρ c) d).trans ?_
  unfold mu; rw [U2_sum1]
theorem U3_v11 (d : Fin 64) : (U3 m ρ c main_v11 : S1x64.Idx → EReal) (ix2 0 d) = varSq (aX m c) (aW m c) (aN m c) (aC m c) d := by
  refine (Cert.KernelIdeal.Host.after1_v11 (W2 m ρ c) d).trans ?_
  unfold varSq mu; rw [U2_sum1, U2_sum2]
theorem U3_v1 (d : Fin 64) : (U3 m ρ c main_v1 : S1x64.Idx → EReal) (ix2 0 d) = aG m c d :=
  (congrFun (W3_keep m ρ c main_v1 (by decide)) _).trans ((congrFun (W2_of_ne m ρ c main_v1 (by decide)) _).trans (Cert.KernelIdeal.Host.after0_v1 (W0 m ρ c) d))
theorem U3_v2 (d : Fin 64) : (U3 m ρ c main_v2 : S1x64.Idx → EReal) (ix2 0 d) = aB m c d :=
  (congrFun (W3_keep m ρ c main_v2 (by decide)) _).trans ((congrFun (W2_of_ne m ρ c main_v2 (by decide)) _).trans (Cert.KernelIdeal.Host.after0_v2 (W0 m ρ c) d))
theorem U3_arg0 : U3 m ρ c main_arg0 = m ((c.tc : Thread nD τ).loc main_arg0) :=
  (W3_keep m ρ c main_arg0 (by decide)).trans ((W2_in m ρ c 0 rfl).trans (U1_arg0 m ρ c))
theorem U3_arg1 : U3 m ρ c main_arg1 = m ((c.tc : Thread nD τ).loc main_arg1) :=
  (W3_keep m ρ c main_arg1 (by decide)).trans ((W2_in m ρ c 3 rfl).trans (U1_arg1 m ρ c))
theorem U3_arg5 : U3 m ρ c main_arg5 = m ((c.tc : Thread nD τ).loc main_arg5) :=
  (W3_keep m ρ c main_arg5 (by decide)).trans ((W2_in m ρ c 1 rfl).trans (U1_arg5 m ρ c))
theorem U3_v0 (n : Fin 100000) : (U3 m ρ c main_v0 : S100000x1.Idx → BitVec 32) (ix2 n 0) = aN m c n :=
  (congrFun ((W3_keep m ρ c main_v0 (by decide)).trans (W2_in m ρ c 2 rfl)) _).trans (U1_v0 m ρ c n)

theorem blk1_X (t : Fin cfg1.N) : cur3 (iblk1 (U3 m ρ) c 0 t : Vec Ideal S200x32x4 .f32) = blk (B := 200) (T := 500) (aX m c) ⟨t.val, N1_lt t⟩ := by
  funext r p ch
  have h : t.val * 200 + r.val < 100000 := by have := N1_lt t; omega
  show (iblk1 (U3 m ρ) c 0 t : Vec Ideal S200x32x4 .f32) (ix3 r p ch) = _
  rw [iblk1_0 (U3 m ρ) c t r p ch h, U3_arg0]
  rfl
theorem blk1_C (t : Fin cfg1.N) : cur2 (iblk1 (U3 m ρ) c 1 t : Vec Ideal S200x4 .i32) = blk (B := 200) (T := 500) (aC m c) ⟨t.val, N1_lt t⟩ := by
  funext r j
  have h : t.val * 200 + r.val < 100000 := by have := N1_lt t; omega
  show (iblk1 (U3 m ρ) c 1 t : Vec Ideal S200x4 .i32) (ix2 r j) = _
  rw [iblk1_1 (U3 m ρ) c t r j h, U3_arg5]
  rfl
theorem blk1_N (t : Fin cfg1.N) : (fun n => (iblk1 (U3 m ρ) c 2 t : Vec Ideal S200x1 .i32) (ix2 n 0)) = blk (B := 200) (T := 500) (aN m c) ⟨t.val, N1_lt t⟩ := by
  funext r
  have h : t.val * 200 + r.val < 100000 := by have := N1_lt t; omega
  show (iblk1 (U3 m ρ) c 2 t : Vec Ideal S200x1 .i32) (ix2 r 0) = _
  rw [iblk1_2 (U3 m ρ) c t r h, U3_v0]
  rfl
theorem blk1_W (t : Fin cfg1.N) : cur2 (iblk1 (U3 m ρ) c 3 t : Vec Ideal S10x64 .f32) = aW m c := by
  rw [iblk1_3 (U3 m ρ) c t, U3_arg1]
theorem row1_G (t : Fin cfg1.N) : (fun d => (iblk1 (U3 m ρ) c 4 t : Vec Ideal S1x64 .f32) (ix2 0 d)) = aG m c := by
  funext d; rw [iblk1_4 (U3 m ρ) c t]; exact U3_v1 m ρ c d
theorem row1_B (t : Fin cfg1.N) : (fun d => (iblk1 (U3 m ρ) c 5 t : Vec Ideal S1x64 .f32) (ix2 0 d)) = aB m c := by
  funext d; rw [iblk1_5 (U3 m ρ) c t]; exact U3_v2 m ρ c d
theorem row1_mu (t : Fin cfg1.N) : (fun d => (iblk1 (U3 m ρ) c 6 t : Vec Ideal S1x64 .f32) (ix2 0 d)) = mu (aX m c) (aW m c) (aN m c) (aC m c) := by
  funext d; rw [iblk1_6 (U3 m ρ) c t]; exact U3_v5 m ρ c d
theorem row1_var (t : Fin cfg1.N) : (fun d => (iblk1 (U3 m ρ) c 7 t : Vec Ideal S1x64 .f32) (ix2 0 d)) = varSq (aX m c) (aW m c) (aN m c) (aC m c) := by
  funext d; rw [iblk1_7 (U3 m ρ) c t]; exact U3_v11 m ρ c d

end Cert.KernelIdeal.Val

end
-- ==== Proof.KVal1.lean ====
/-
  The second kernel, read one element at a time.

  It projects the points of the block as the statistics kernel does, views the 6400 rows again as 200
  pillars of 32 points, subtracts the channel's mean, multiplies by the inverse square root of the
  channel's variance plus a small constant, maps by the channel's scale and shift, clips below at zero, and
  keeps, per pillar and channel, the maximum over the 32 points; the maximum starts from minus infinity,
  the least extended real, so it is the supremum over the points.
-/
import proofs.«109379_j63986422775810_2_alg».proof.Proof.KValFeat

noncomputable section

namespace Cert.KernelIdeal.KVal

open Cert.KernelIdeal Cert.KernelIdeal.Gen Cert.Spec Idealize.ShloMosaic Idealize.ShloMosaic.ValueIdx
open scoped BigOperators

section Layout
variable {α : Type}

theorem sc_rows (v : S6400x64.Idx → α) (h : S6400x64.ShapeCasts S200x32x64) (n : Fin 200) (p : Fin 32) (d : Fin 64) :
    shapeCast S200x32x64 v h (ix3 n p d) = v (ix2 ⟨n.val * 32 + p.val, by omega⟩ d) :=
  shapeCast_apply v h (ix3 n p d) (ix2 (⟨n.val * 32 + p.val, by omega⟩ : Fin 6400) d) (by
    rw [Shape.rowMajor_val_two, Shape.rowMajor_val_three]; rfl)

theorem bc_lane (v : S1x1x64.Idx → α) (h : S1x1x64.Broadcasts S200x32x64) (n : Fin 200) (p : Fin 32) (d : Fin 64) :
    broadcastTo S200x32x64 v h (ix3 n p d) = v (ix3 0 0 d) :=
  broadcastTo_apply v h (ix3 n p d) (ix3 0 0 d) (fun a => by
    match a with | ⟨0, _⟩ => rfl | ⟨1, _⟩ => rfl | ⟨2, _⟩ => rfl)

theorem sc_lane3 (v : S1x64.Idx → α) (h : S1x64.ShapeCasts S1x1x64) (d : Fin 64) :
    shapeCast S1x1x64 v h (ix3 0 0 d) = v (ix2 0 d) :=
  shapeCast_apply v h (ix3 0 0 d) (ix2 0 d) (by
    rw [Shape.rowMajor_val_two, Shape.rowMajor_val_three]
    show 0 * 64 + d.val = (0 * 1 + 0) * 64 + d.val
    omega)

/-- A per-channel row repeated over pillars and points. -/
theorem lane_apply (v : S1x64.Idx → α) (h1 : S1x64.ShapeCasts S1x64) (h2 : S1x64.ShapeCasts S1x1x64)
    (h3 : S1x1x64.Broadcasts S200x32x64) (n : Fin 200) (p : Fin 32) (d : Fin 64) :
    broadcastTo S200x32x64 (shapeCast S1x1x64 (shapeCast S1x64 v h1) h2) h3 (ix3 n p d) = v (ix2 0 d) := by
  rw [bc_lane, sc_lane3, shapeCast_self]

end Layout

theorem ofBits_neg_inf_f32 : Ideal.ofBits .f32 0xFF800000#32 = ⊥ := by
  simp [Ideal.ofBits, Ideal.ieee]

theorem fold_max_eq_sup {ι : Type} (s : Finset ι) (f : ι → EReal) : s.fold max ⊥ f = s.sup f := rfl

/-- The maximum over the 32 points of a pillar, from minus infinity. -/
theorem max_points (v : FVec Ideal S200x32x64 .f32) (h : S200x32x64.Reduces [1] S200x64)
    (hφ : FTy.f32 = FTy.f32 ∨ FTy.f32 = FTy.bf16) (hacc : (0xFF800000#32 : BitVec 32) = 0xFF800000#32)
    (n : Fin 200) (d : Fin 64) :
    multiReduction .maximumf [1] S200x64 v 0xFF800000#32 h hφ hacc (ix2 n d)
      = (Finset.univ : Finset (Fin 32)).sup fun p => v (ix3 n p d) := by
  refine (Ideal.multiReduction_maximumf_single v 0xFF800000#32 h hφ hacc (ix2 n d)).trans ?_
  have hb : FloatOps.ofBits (F := Ideal) .f32 0xFF800000#32 = (⊥ : EReal) := ofBits_neg_inf_f32
  rw [hb]
  refine (fold_max_eq_sup _ _).trans ?_
  refine congrArg (Finset.univ : Finset (Fin 32)).sup (funext fun p => congrArg v ?_)
  funext a
  match a with | ⟨0, _⟩ => rfl | ⟨1, _⟩ => rfl | ⟨2, _⟩ => rfl

/-- The second kernel's pieces are the statistics kernel's. -/
theorem k1_pieces (x : Vec Ideal S200x32x4 .f32) (nb : Vec Ideal S200x1 .i32) (cb : Vec Ideal S200x4 .i32) :
    k1_pay4 nb = k0_pay8 nb ∧ k1_pay5 x nb = k0_pay9 x nb ∧ k1_pay6 x cb = subf (k0_pay7 x) (ctr cb) :=
  ⟨rfl, rfl, rfl⟩

/-- The block the second kernel stores: per pillar and channel, the maximum over the points of the
    normalised, mapped, clipped projection. -/
theorem k1_apply (x : Vec Ideal S200x32x4 .f32) (nb : Vec Ideal S200x1 .i32) (cb : Vec Ideal S200x4 .i32)
    (w : Vec Ideal S10x64 .f32) (muv varv gv bv : Vec Ideal S1x64 .f32) (n : Fin 200) (d : Fin 64) :
    k1_pay1 x (k1_pay4 nb) (k1_pay5 x nb) (k1_pay6 x cb) w muv varv gv bv (ix2 n d)
      = outAt (N := 200) (cur3 x) (cur2 w) (fun n => nb (ix2 n 0)) (cur2 cb) (fun d => gv (ix2 0 d))
          (fun d => bv (ix2 0 d)) (fun d => muv (ix2 0 d)) (fun d => varv (ix2 0 d)) n d := by
  have e : k1_pay1 x (k1_pay4 nb) (k1_pay5 x nb) (k1_pay6 x cb) w muv varv gv bv
      = multiReduction .maximumf [1] S200x64
          (maximumf (addf (mulf (mulf (subf (shapeCast S200x32x64 (projT x nb cb w) shapeCasts_S6400x64_S200x32x64)
            (broadcastTo S200x32x64 (shapeCast S1x1x64 (shapeCast S1x64 muv shapeCasts_S1x64_S1x64) shapeCasts_S1x64_S1x1x64) broadcasts_S1x1x64_S200x32x64))
            (broadcastTo S200x32x64 (rsqrt (addf (shapeCast S1x1x64 (shapeCast S1x64 varv shapeCasts_S1x64_S1x64) shapeCasts_S1x64_S1x1x64)
              (broadcast S1x1x64 (Scalar.ofBits (F := Ideal) .f32 0x3A83126F#32)))) broadcasts_S1x1x64_S200x32x64))
            (broadcastTo S200x32x64 (shapeCast S1x1x64 (shapeCast S1x64 gv shapeCasts_S1x64_S1x64) shapeCasts_S1x64_S1x1x64) broadcasts_S1x1x64_S200x32x64))
            (broadcastTo S200x32x64 (shapeCast S1x1x64 (shapeCast S1x64 bv shapeCasts_S1x64_S1x64) shapeCasts_S1x64_S1x1x64) broadcasts_S1x1x64_S200x32x64))
            (broadcast S200x32x64 (Scalar.ofBits (F := Ideal) .f32 0x00000000#32)))
          0xFF800000#32 reduces_S200x32x64_S200x64 (.inl rfl) rfl := rfl
  rw [e, max_points]
  unfold outAt
  refine congrArg (Finset.univ : Finset (Fin 32)).sup (funext fun p => ?_)
  rw [maximumf_apply, addf_apply, mulf_apply, mulf_apply, subf_apply, sc_rows, lane_apply, lane_apply, lane_apply,
    bc_lane, projT_apply x nb cb w n p d, broadcast_apply]
  show max (((_ - _) * FloatOps.rsqrt (shapeCast S1x1x64 (shapeCast S1x64 varv shapeCasts_S1x64_S1x64) shapeCasts_S1x64_S1x1x64 (ix3 0 0 d)
      + Ideal.ofBits .f32 0x3A83126F#32)) * _ + _) (Ideal.ofBits .f32 0x00000000#32) = _
  rw [sc_lane3, shapeCast_self, Ideal.ofBits_zero_f32]
  rfl

end Cert.KernelIdeal.KVal

end
-- ==== Proof.KFinal.lean ====
/-
  The kernel program's result: block t of the second kernel's output is rows 200t … 200t+199 of the per-pillar
  normalised maximum; the 500 blocks cover the array; so the program ends with its result array at the
  specification's first form and its arguments unchanged.
-/
import proofs.«109379_j63986422775810_2_alg».proof.Proof.KFinalB
import proofs.«109379_j63986422775810_2_alg».proof.Proof.KVal1

set_option maxRecDepth 16384

noncomputable section

namespace Cert.KernelIdeal.Val

open Idealize.ShloMosaic Idealize.ShloMosaic.TcCoe
open Idealize.SL.Sem
open Idealize.ShloMosaic.Pipeline (Dat)

open Cert.KernelIdeal Cert.KernelIdeal.Gen Cert.KernelIdeal.KVal Cert.KernelIdeal.Run Cert.Spec Idealize.ShloMosaic.ValueIdx

variable (m : (ℓ : Loc nD τ sig) → Buf (Elt Ideal) ℓ) (ρ : Dev nD → PrngReg) (c : Dev nD)
/-! ## A block of the second kernel's result -/

/-- The stored block at an index: the pillar's normalised maximum, over the block's own rows of the operands. -/
theorem out1_8_apply (x0 : Vec Ideal S200x32x4 .f32) (x1 : Vec Ideal S200x4 .i32) (x2 : Vec Ideal S200x1 .i32) (x3 : Vec Ideal S10x64 .f32)
    (x4 x5 x6 x7 : Vec Ideal S1x64 .f32) (r : Fin 200) (d : Fin 64) :
    out1_8 x0 x1 x2 x3 x4 x5 x6 x7 (ix2 r d)
      = outAt (N := 200) (cur3 x0) (cur2 x3) (fun n => x2 (ix2 n 0)) (cur2 x1) (fun d => x4 (ix2 0 d)) (fun d => x5 (ix2 0 d)) (fun d => x6 (ix2 0 d)) (fun d => x7 (ix2 0 d)) r d := by
  unfold out1_8
  rw [View.canon_unit_zero hz2]
  simp only [View.ld_unit_zero (S := S200x32x4) hz3, View.ld_unit_zero (S := S200x4) hz2, View.ld_unit_zero (S := S200x1) hz2,
    View.ld_unit_zero (S := S10x64) hz2, View.ld_unit_zero (S := S1x64) hz2]
  exact Cert.KernelIdeal.KVal.k1_apply x0 x2 x1 x3 x6 x7 x4 x5 r d

theorem after8 (t : Fin cfg1.N) (r : Fin 200) (d : Fin 64) (h : t.val * 200 + r.val < 100000) :
    ((dat1 (U3 m ρ) c).after 8 t : Vec Ideal S200x64 .f32) (ix2 r d)
      = resSq (aX m c) (aW m c) (aG m c) (aB m c) (aN m c) (aC m c) ⟨t.val * 200 + r.val, h⟩ d := by
  rw [after1_8 (U3 m ρ) c t]
  refine (out1_8_apply (iblk1 (U3 m ρ) c 0 t) (iblk1 (U3 m ρ) c 1 t) (iblk1 (U3 m ρ) c 2 t) (iblk1 (U3 m ρ) c 3 t) (iblk1 (U3 m ρ) c 4 t)
    (iblk1 (U3 m ρ) c 5 t) (iblk1 (U3 m ρ) c 6 t) (iblk1 (U3 m ρ) c 7 t) r d).trans ?_
  rw [blk1_X m ρ c t, blk1_W m ρ c t, blk1_N m ρ c t, blk1_C m ρ c t, row1_G m ρ c t, row1_B m ρ c t, row1_mu m ρ c t, row1_var m ρ c t]
  exact outAt_blk (B := 200) (T := 500) (aX m c) (aW m c) (aN m c) (aC m c) (aG m c) (aB m c) _ _ ⟨t.val, N1_lt t⟩ r d

/-- The result array: the normalised maximum of every pillar. -/
theorem final_v12 : (dat1 (U3 m ρ) c).arrAt 8 cfg1.N = arr2 (resSq (aX m c) (aW m c) (aG m c) (aB m c) (aN m c) (aC m c)) :=
  final1 (U3 m ρ) c _ (fun t r d h => (after8 m ρ c t r d h).trans rfl)

/-- THE KERNEL PROGRAM'S RUN, READ: the result array at the specification's first form, the arguments unchanged. -/
theorem run : θ_run (defs (F := Ideal)) (onTc (τ := τ) (main (F := Ideal))) ⟨m, fun _ => 0, ρ⟩ (fun r => ∀ c : Dev nD,
      r.2.mem ((c.tc : Thread nD τ).loc main_v12) = arr2 (resSq (aX m c) (aW m c) (aG m c) (aB m c) (aN m c) (aC m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final_v12 m ρ c), (h c).2⟩) (run_all (F := Ideal) m ρ)

end Cert.KernelIdeal.Val

end
-- ==== Proof.RefRunOps.lean ====
/-
  The reference program's host function as a straight line of its 88 operations (the three outlined
  functions' operations written at their call sites over the calls' own buffers), and its run: every
  weakly fair execution terminates with each buffer at the fold of the operations over the launch
  contents.
-/
import proofs.«109379_j63986422775810_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The host function's 88 operations, in order: its own sixty-three, the variance function's nineteen and the
    three of the select it calls at the variance's call site, the positive part's three at its call site. -/
abbrev ops : List (HloOp τ sig (Elt F)) :=
  [ nullary main_cst (fun i => FloatOps.ofBits .f32 (lit0 (S3.rowMajor i))),
    unary main_arg0 main_v0 ((extractStridedSlice S100000x32x3 ![0, 0, 0] · slices_S100000x32x4_S100000x32x3_0_0_0) : (⟨S100000x32x4, .f32⟩ : BufTy).Contents (Elt F) → (⟨S100000x32x3, .f32⟩ : BufTy).Contents (Elt F)),
    nullary main_v1 (iotaInDim S32 32 0),
    unary main_v1 main_v2 (broadcastInDim S1x32 ![1] bcast_S32_S1x32_1 : (⟨S32, .i32⟩ : BufTy).Contents (Elt F) → (⟨S1x32, .i32⟩ : BufTy).Contents (Elt F)),
    unary main_arg4 main_v3 (broadcastInDim S100000x1 ![0] bcast_S100000_S100000x1_0 : (⟨S100000, .i32⟩ : BufTy).Contents (Elt F) → (⟨S100000x1, .i32⟩ : BufTy).Contents (Elt F)),
    unary main_v2 main_v4 (broadcastInDim S100000x32 ![0, 1] bcast_S1x32_S100000x32_0_1 : (⟨S1x32, .i32⟩ : BufTy).Contents (Elt F) → (⟨S100000x32, .i32⟩ : BufTy).Contents (Elt F)),
    unary main_v3 main_v5 (broadcastInDim S100000x32 ![0, 1] bcast_S100000x1_S100000x32_0_1 : (⟨S100000x1, .i32⟩ : BufTy).Contents (Elt F) → (⟨S100000x32, .i32⟩ : BufTy).Contents (Elt F)),
    binary main_v4 main_v5 main_v6 (cmpi .slt : (⟨S100000x32, .i32⟩ : BufTy).Contents (Elt F) → (⟨S100000x32, .i32⟩ : BufTy).Contents (Elt F) → (⟨S100000x32, .i1⟩ : BufTy).Contents (Elt F)),
    unary main_v6 main_v7 (uitofp .f32 : (⟨S100000x32, .i1⟩ : BufTy).Contents (Elt F) → (⟨S100000x32, .f32⟩ : BufTy).Contents (Elt F)),
    unary main_v7 main_v8 (broadcastInDim S100000x32x1 ![0, 1] bcast_S100000x32_S100000x32x1_0_1 : (⟨S100000x32, .f32⟩ : BufTy).Contents (Elt F) → (⟨S100000x32x1, .f32⟩ : BufTy).Contents (Elt F)),
    nullary main_c (constantI S_ 32 1#32),
    unary main_c main_v9 (broadcastInDim S100000 ![] bcast_S_S100000 : (⟨S_, .i32⟩ : BufTy).Contents (Elt F) → (⟨S100000, .i32⟩ : BufTy).Contents (Elt F)),
    binary main_arg4 main_v9 main_v10 (maxsi : (⟨S100000, .i32⟩ : BufTy).Contents (Elt F) → (⟨S100000, .i32⟩ : BufTy).Contents (Elt F) → (⟨S100000, .i32⟩ : BufTy).Contents (Elt F)),
    unary main_v10 main_v11 (sitofp .f32 : (⟨S100000, .i32⟩ : BufTy).Contents (Elt F) → (⟨S100000, .f32⟩ : BufTy).Contents (Elt F)),
    unary main_v11 main_v12 (broadcastInDim S100000x1 ![0] bcast_S100000_S100000x1_0 : (⟨S100000, .f32⟩ : BufTy).Contents (Elt F) → (⟨S100000x1, .f32⟩ : BufTy).Contents (Elt F)),
    unary main_v8 main_v13 (broadcastInDim S100000x32x3 ![0, 1, 2] bcast_S100000x32x1_S100000x32x3_0_1_2 : (⟨S100000x32x1, .f32⟩ : BufTy).Contents (Elt F) → (⟨S100000x32x3, .f32⟩ : BufTy).Contents (Elt F)),
    binary main_v0 main_v13 main_v14 (mulf : (⟨S100000x32x3, .f32⟩ : BufTy).Contents (Elt F) → (⟨S100000x32x3, .f32⟩ : BufTy).Contents (Elt F) → (⟨S100000x32x3, .f32⟩ : BufTy).Contents (Elt F)),
    nullary main_cst_0 (constant S_ .f32 0x00000000#32),
    binary main_v14 main_cst_0 main_v15 ((fun x v => Host.reduceAdd x v reducesTo_S100000x32x3_S100000x3_d1 h_S_) : (⟨S100000x32x3, .f32⟩ : BufTy).Contents (Elt F) → (⟨S_, .f32⟩ : BufTy).Contents (Elt F) → (⟨S100000x3, .f32⟩ : BufTy).Contents (Elt F)),
    unary main_v12 main_v16 (broadcastInDim S100000x3 ![0, 1] bcast_S100000x1_S100000x3_0_1 : (⟨S100000x1, .f32⟩ : BufTy).Contents (Elt F) → (⟨S100000x3, .f32⟩ : BufTy).Contents (Elt F)),
    binary main_v15 main_v16 main_v17 (Host.divf : (⟨S100000x3, .f32⟩ : BufTy).Contents (Elt F) → (⟨S100000x3, .f32⟩ : BufTy).Contents (Elt F) → (⟨S100000x3, .f32⟩ : BufTy).Contents (Elt F)),
    unary main_v17 main_v18 (broadcastInDim S100000x1x3 ![0, 2] bcast_S100000x3_S100000x1x3_0_2 : (⟨S100000x3, .f32⟩ : BufTy).Contents (Elt F) → (⟨S100000x1x3, .f32⟩ : BufTy).Contents (Elt F)),
    unary main_v18 main_v19 (broadcastInDim S100000x32x3 ![0, 1, 2] bcast_S100000x1x3_S100000x32x3_0_1_2 : (⟨S100000x1x3, .f32⟩ : BufTy).Contents (Elt F) → (⟨S100000x32x3, .f32⟩ : BufTy).Contents (Elt F)),
    binary main_v0 main_v19 main_v20 (subf : (⟨S100000x32x3, .f32⟩ : BufTy).Contents (Elt F) → (⟨S100000x32x3, .f32⟩ : BufTy).Contents (Elt F) → (⟨S100000x32x3, .f32⟩ : BufTy).Contents (Elt F)),
    unary main_arg5 main_v21 ((extractStridedSlice S100000x3 ![0, 1] · slices_S100000x4_S100000x3_0_1) : (⟨S100000x4, .i32⟩ : BufTy).Contents (Elt F) → (⟨S100000x3, .i32⟩ : BufTy).Contents (Elt F)),
    unary main_v21 main_v22 (sitofp .f32 : (⟨S100000x3, .i32⟩ : BufTy).Contents (Elt F) → (⟨S100000x3, .f32⟩ : BufTy).Contents (Elt F)),
    nullary main_cst_1 (constant S_ .f32 0x3F000000#32),
    unary main_cst_1 main_v23 (broadcastInDim S100000x3 ![] bcast_S_S100000x3 : (⟨S_, .f32⟩ : BufTy).Contents (Elt F) → (⟨S100000x3, .f32⟩ : BufTy).Contents (Elt F)),
    binary main_v22 main_v23 main_v24 (addf : (⟨S100000x3, .f32⟩ : BufTy).Contents (Elt F) → (⟨S100000x3, .f32⟩ : BufTy).Contents (Elt F) → (⟨S100000x3, .f32⟩ : BufTy).Contents (Elt F)),
    unary main_cst main_v25 (broadcastInDim S1x3 ![1] bcast_S3_S1x3_1 : (⟨S3, .f32⟩ : BufTy).Contents (Elt F) → (⟨S1x3, .f32⟩ : BufTy).Contents (Elt F)),
    unary main_v25 main_v26 (broadcastInDim S100000x3 ![0, 1] bcast_S1x3_S100000x3_0_1 : (⟨S1x3, .f32⟩ : BufTy).Contents (Elt F) → (⟨S100000x3, .f32⟩ : BufTy).Contents (Elt F)),
    binary main_v24 main_v26 main_v27 (mulf : (⟨S100000x3, .f32⟩ : BufTy).Contents (Elt F) → (⟨S100000x3, .f32⟩ : BufTy).Contents (Elt F) → (⟨S100000x3, .f32⟩ : BufTy).Contents (Elt F)),
    unary main_v27 main_v28 (broadcastInDim S100000x1x3 ![0, 2] bcast_S100000x3_S100000x1x3_0_2 : (⟨S100000x3, .f32⟩ : BufTy).Contents (Elt F) → (⟨S100000x1x3, .f32⟩ : BufTy).Contents (Elt F)),
    unary main_v28 main_v29 (broadcastInDim S100000x32x3 ![0, 1, 2] bcast_S100000x1x3_S100000x32x3_0_1_2 : (⟨S100000x1x3, .f32⟩ : BufTy).Contents (Elt F) → (⟨S100000x32x3, .f32⟩ : BufTy).Contents (Elt F)),
    binary main_v0 main_v29 main_v30 (subf : (⟨S100000x32x3, .f32⟩ : BufTy).Contents (Elt F) → (⟨S100000x32x3, .f32⟩ : BufTy).Contents (Elt F) → (⟨S100000x32x3, .f32⟩ : BufTy).Contents (Elt F)),
    nary ![main_arg0, main_v20, main_v30] main_v31 (fun u => concatenate S100000x32x10 2 [⟨S100000x32x4, u 0⟩, ⟨S100000x32x3, u 1⟩, ⟨S100000x32x3, u 2⟩] concatenates_S100000x32x4_S100000x32x3_S100000x32x3_S100000x32x10_d2),
    unary main_v8 main_v32 (broadcastInDim S100000x32x10 ![0, 1, 2] bcast_S100000x32x1_S100000x32x10_0_1_2 : (⟨S100000x32x1, .f32⟩ : BufTy).Contents (Elt F) → (⟨S100000x32x10, .f32⟩ : BufTy).Contents (Elt F)),
    binary main_v31 main_v32 main_v33 (mulf : (⟨S100000x32x10, .f32⟩ : BufTy).Contents (Elt F) → (⟨S100000x32x10, .f32⟩ : BufTy).Contents (Elt F) → (⟨S100000x32x10, .f32⟩ : BufTy).Contents (Elt F)),
    binary main_v33 main_arg1 main_v34 ((fun l r => Host.dotGeneral dot_S100000x32x10_S10x64_S100000x32x64_2_0_01_1_n_n none l r) : (⟨S100000x32x10, .f32⟩ : BufTy).Contents (Elt F) → (⟨S10x64, .f32⟩ : BufTy).Contents (Elt F) → (⟨S100000x32x64, .f32⟩ : BufTy).Contents (Elt F)),
    nullary main_cst_2 (constant S_ .f32 0x00000000#32),
    binary main_v34 main_cst_2 main_v35 ((fun x v => Host.reduceAdd x v reducesTo_S100000x32x64_S64_d0_1 h_S_) : (⟨S100000x32x64, .f32⟩ : BufTy).Contents (Elt F) → (⟨S_, .f32⟩ : BufTy).Contents (Elt F) → (⟨S64, .f32⟩ : BufTy).Contents (Elt F)),
    nullary main_cst_3 (constant S_ .f32 0x4A435000#32),
    unary main_cst_3 main_v36 (broadcastInDim S64 ![] bcast_S_S64 : (⟨S_, .f32⟩ : BufTy).Contents (Elt F) → (⟨S64, .f32⟩ : BufTy).Contents (Elt F)),
    binary main_v35 main_v36 main_v37 (Host.divf : (⟨S64, .f32⟩ : BufTy).Contents (Elt F) → (⟨S64, .f32⟩ : BufTy).Contents (Elt F) → (⟨S64, .f32⟩ : BufTy).Contents (Elt F)),
    nullary main_c_4 (constantI S_ 32 0#32),
    TRef.nullary main_call0.cst (constant S_ .f32 0x00000000#32),
    TRef.binary (.of main_v34) main_call0.cst main_call0.v0 (fun x v => Host.reduceAdd x v reducesTo_S100000x32x64_S64_d0_1 h_S_),
    TRef.unary main_call0.v0 main_call0.v1 (broadcastInDim S1x1x64 ![2] bcast_S64_S1x1x64_2),
    TRef.nullary main_call0.cst_0 (constant S_ .f32 0x4A435000#32),
    TRef.unary main_call0.cst_0 main_call0.v2 (broadcastInDim S1x1x64 ![] bcast_S_S1x1x64),
    TRef.binary main_call0.v1 main_call0.v2 main_call0.v3 Host.divf,
    TRef.unary main_call0.v3 main_call0.v4 (broadcastInDim S100000x32x64 ![0, 1, 2] bcast_S1x1x64_S100000x32x64_0_1_2),
    TRef.binary (.of main_v34) main_call0.v4 main_call0.v5 subf,
    TRef.binary main_call0.v5 main_call0.v5 main_call0.v6 mulf,
    TRef.unary (.of main_c_4) main_call0.v7 (sitofp .f32),
    TRef.nullary main_call0.cst_1 (constant S_ .f32 0x4A435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x32x64_S64_d0_1 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v37 main_v39 (broadcastInDim S1x1x64 ![2] bcast_S64_S1x1x64_2 : (⟨S64, .f32⟩ : BufTy).Contents (Elt F) → (⟨S1x1x64, .f32⟩ : BufTy).Contents (Elt F)),
    unary main_v39 main_v40 (broadcastInDim S100000x32x64 ![0, 1, 2] bcast_S1x1x64_S100000x32x64_0_1_2 : (⟨S1x1x64, .f32⟩ : BufTy).Contents (Elt F) → (⟨S100000x32x64, .f32⟩ : BufTy).Contents (Elt F)),
    binary main_v34 main_v40 main_v41 (subf : (⟨S100000x32x64, .f32⟩ : BufTy).Contents (Elt F) → (⟨S100000x32x64, .f32⟩ : BufTy).Contents (Elt F) → (⟨S100000x32x64, .f32⟩ : BufTy).Contents (Elt F)),
    nullary main_cst_5 (constant S_ .f32 0x3A83126F#32),
    unary main_cst_5 main_v42 (broadcastInDim S64 ![] bcast_S_S64 : (⟨S_, .f32⟩ : BufTy).Contents (Elt F) → (⟨S64, .f32⟩ : BufTy).Contents (Elt F)),
    binary main_v38 main_v42 main_v43 (addf : (⟨S64, .f32⟩ : BufTy).Contents (Elt F) → (⟨S64, .f32⟩ : BufTy).Contents (Elt F) → (⟨S64, .f32⟩ : BufTy).Contents (Elt F)),
    unary main_v43 main_v44 (Host.rsqrt : (⟨S64, .f32⟩ : BufTy).Contents (Elt F) → (⟨S64, .f32⟩ : BufTy).Contents (Elt F)),
    unary main_v44 main_v45 (broadcastInDim S1x1x64 ![2] bcast_S64_S1x1x64_2 : (⟨S64, .f32⟩ : BufTy).Contents (Elt F) → (⟨S1x1x64, .f32⟩ : BufTy).Contents (Elt F)),
    unary main_v45 main_v46 (broadcastInDim S100000x32x64 ![0, 1, 2] bcast_S1x1x64_S100000x32x64_0_1_2 : (⟨S1x1x64, .f32⟩ : BufTy).Contents (Elt F) → (⟨S100000x32x64, .f32⟩ : BufTy).Contents (Elt F)),
    binary main_v41 main_v46 main_v47 (mulf : (⟨S100000x32x64, .f32⟩ : BufTy).Contents (Elt F) → (⟨S100000x32x64, .f32⟩ : BufTy).Contents (Elt F) → (⟨S100000x32x64, .f32⟩ : BufTy).Contents (Elt F)),
    unary main_arg2 main_v48 (broadcastInDim S1x1x64 ![2] bcast_S64_S1x1x64_2 : (⟨S64, .f32⟩ : BufTy).Contents (Elt F) → (⟨S1x1x64, .f32⟩ : BufTy).Contents (Elt F)),
    unary main_v48 main_v49 (broadcastInDim S100000x32x64 ![0, 1, 2] bcast_S1x1x64_S100000x32x64_0_1_2 : (⟨S1x1x64, .f32⟩ : BufTy).Contents (Elt F) → (⟨S100000x32x64, .f32⟩ : BufTy).Contents (Elt F)),
    binary main_v47 main_v49 main_v50 (mulf : (⟨S100000x32x64, .f32⟩ : BufTy).Contents (Elt F) → (⟨S100000x32x64, .f32⟩ : BufTy).Contents (Elt F) → (⟨S100000x32x64, .f32⟩ : BufTy).Contents (Elt F)),
    unary main_arg3 main_v51 (broadcastInDim S1x1x64 ![2] bcast_S64_S1x1x64_2 : (⟨S64, .f32⟩ : BufTy).Contents (Elt F) → (⟨S1x1x64, .f32⟩ : BufTy).Contents (Elt F)),
    unary main_v51 main_v52 (broadcastInDim S100000x32x64 ![0, 1, 2] bcast_S1x1x64_S100000x32x64_0_1_2 : (⟨S1x1x64, .f32⟩ : BufTy).Contents (Elt F) → (⟨S100000x32x64, .f32⟩ : BufTy).Contents (Elt F)),
    binary main_v50 main_v52 main_v53 (addf : (⟨S100000x32x64, .f32⟩ : BufTy).Contents (Elt F) → (⟨S100000x32x64, .f32⟩ : BufTy).Contents (Elt F) → (⟨S100000x32x64, .f32⟩ : BufTy).Contents (Elt F)),
    TRef.nullary main_call1.cst (constant S_ .f32 0x00000000#32),
    TRef.unary main_call1.cst main_call1.v0 (broadcastInDim S100000x32x64 ![] bcast_S_S100000x32x64),
    TRef.binary (.of main_v53) main_call1.v0 main_call1.v1 maximumf,
    nullary main_cst_6 (constant S_ .f32 0xFF800000#32),
    binary main_v54 main_cst_6 main_v55 ((fun x v => Host.reduce FloatOps.maximumf x v reducesTo_S100000x32x64_S100000x64_d1 h_S_) : (⟨S100000x32x64, .f32⟩ : BufTy).Contents (Elt F) → (⟨S_, .f32⟩ : BufTy).Contents (Elt F) → (⟨S100000x64, .f32⟩ : BufTy).Contents (Elt F)) ]

set_option maxRecDepth 4096 in
set_option maxHeartbeats 4000000 in
/-- The host function is that straight line: the outlined functions unfolded at their calls, sequencing reassociated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., unary_bufs_sub .., unary_bufs_sub .., binary_bufs_sub .., unary_bufs_sub .., unary_bufs_sub .., nullary_bufs_sub .., unary_bufs_sub .., binary_bufs_sub .., unary_bufs_sub .., unary_bufs_sub .., unary_bufs_sub .., binary_bufs_sub .., nullary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., unary_bufs_sub .., unary_bufs_sub .., binary_bufs_sub .., unary_bufs_sub .., unary_bufs_sub .., binary_bufs_sub .., nary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

end Cert.RefSide

end
-- ==== Proof.RefRun.lean ====
/-
  The reference program's run, stated over named values: each of the 88 operations' results is named as a
  function of the six arguments' contents (one definition per operation: the operation's function applied to
  the names of its operands), and every weakly fair execution of the host function terminates with the result
  buffer at the last name and the arguments unchanged.
-/
import proofs.«109379_j63986422775810_2_alg».proof.Proof.RefRunOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The six arguments' contents: the points' features, the projection, the affine map's two vectors, the pillars'
    point counts and their grid coordinates. -/
structure Args (F : FTy → Type) where
  x : (⟨S100000x32x4, .f32⟩ : BufTy).Contents (Elt F)
  w : (⟨S10x64, .f32⟩ : BufTy).Contents (Elt F)
  γ : (⟨S64, .f32⟩ : BufTy).Contents (Elt F)
  β : (⟨S64, .f32⟩ : BufTy).Contents (Elt F)
  np : (⟨S100000, .i32⟩ : BufTy).Contents (Elt F)
  co : (⟨S100000x4, .i32⟩ : BufTy).Contents (Elt F)

/-! ## The operations' results, one name each, in program order -/

def r_cst (a : Args F) : (⟨S3, .f32⟩ : BufTy).Contents (Elt F) :=
  (fun i => FloatOps.ofBits .f32 (lit0 (S3.rowMajor i)))
def r_v0 (a : Args F) : (⟨S100000x32x3, .f32⟩ : BufTy).Contents (Elt F) :=
  ((extractStridedSlice S100000x32x3 ![0, 0, 0] · slices_S100000x32x4_S100000x32x3_0_0_0)) a.x
def r_v1 (a : Args F) : (⟨S32, .i32⟩ : BufTy).Contents (Elt F) :=
  (iotaInDim S32 32 0)
def r_v2 (a : Args F) : (⟨S1x32, .i32⟩ : BufTy).Contents (Elt F) :=
  (broadcastInDim S1x32 ![1] bcast_S32_S1x32_1) (r_v1 a)
def r_v3 (a : Args F) : (⟨S100000x1, .i32⟩ : BufTy).Contents (Elt F) :=
  (broadcastInDim S100000x1 ![0] bcast_S100000_S100000x1_0) a.np
def r_v4 (a : Args F) : (⟨S100000x32, .i32⟩ : BufTy).Contents (Elt F) :=
  (broadcastInDim S100000x32 ![0, 1] bcast_S1x32_S100000x32_0_1) (r_v2 a)
def r_v5 (a : Args F) : (⟨S100000x32, .i32⟩ : BufTy).Contents (Elt F) :=
  (broadcastInDim S100000x32 ![0, 1] bcast_S100000x1_S100000x32_0_1) (r_v3 a)
def r_v6 (a : Args F) : (⟨S100000x32, .i1⟩ : BufTy).Contents (Elt F) :=
  (cmpi .slt) (r_v4 a) (r_v5 a)
def r_v7 (a : Args F) : (⟨S100000x32, .f32⟩ : BufTy).Contents (Elt F) :=
  (uitofp .f32) (r_v6 a)
def r_v8 (a : Args F) : (⟨S100000x32x1, .f32⟩ : BufTy).Contents (Elt F) :=
  (broadcastInDim S100000x32x1 ![0, 1] bcast_S100000x32_S100000x32x1_0_1) (r_v7 a)
def r_c (a : Args F) : (⟨S_, .i32⟩ : BufTy).Contents (Elt F) :=
  (constantI S_ 32 1#32)
def r_v9 (a : Args F) : (⟨S100000, .i32⟩ : BufTy).Contents (Elt F) :=
  (broadcastInDim S100000 ![] bcast_S_S100000) (r_c a)
def r_v10 (a : Args F) : (⟨S100000, .i32⟩ : BufTy).Contents (Elt F) :=
  (maxsi) a.np (r_v9 a)
def r_v11 (a : Args F) : (⟨S100000, .f32⟩ : BufTy).Contents (Elt F) :=
  (sitofp .f32) (r_v10 a)
def r_v12 (a : Args F) : (⟨S100000x1, .f32⟩ : BufTy).Contents (Elt F) :=
  (broadcastInDim S100000x1 ![0] bcast_S100000_S100000x1_0) (r_v11 a)
def r_v13 (a : Args F) : (⟨S100000x32x3, .f32⟩ : BufTy).Contents (Elt F) :=
  (broadcastInDim S100000x32x3 ![0, 1, 2] bcast_S100000x32x1_S100000x32x3_0_1_2) (r_v8 a)
def r_v14 (a : Args F) : (⟨S100000x32x3, .f32⟩ : BufTy).Contents (Elt F) :=
  (mulf) (r_v0 a) (r_v13 a)
def r_cst_0 (a : Args F) : (⟨S_, .f32⟩ : BufTy).Contents (Elt F) :=
  (constant S_ .f32 0x00000000#32)
def r_v15 (a : Args F) : (⟨S100000x3, .f32⟩ : BufTy).Contents (Elt F) :=
  ((fun x v => Host.reduceAdd x v reducesTo_S100000x32x3_S100000x3_d1 h_S_)) (r_v14 a) (r_cst_0 a)
def r_v16 (a : Args F) : (⟨S100000x3, .f32⟩ : BufTy).Contents (Elt F) :=
  (broadcastInDim S100000x3 ![0, 1] bcast_S100000x1_S100000x3_0_1) (r_v12 a)
def r_v17 (a : Args F) : (⟨S100000x3, .f32⟩ : BufTy).Contents (Elt F) :=
  (Host.divf) (r_v15 a) (r_v16 a)
def r_v18 (a : Args F) : (⟨S100000x1x3, .f32⟩ : BufTy).Contents (Elt F) :=
  (broadcastInDim S100000x1x3 ![0, 2] bcast_S100000x3_S100000x1x3_0_2) (r_v17 a)
def r_v19 (a : Args F) : (⟨S100000x32x3, .f32⟩ : BufTy).Contents (Elt F) :=
  (broadcastInDim S100000x32x3 ![0, 1, 2] bcast_S100000x1x3_S100000x32x3_0_1_2) (r_v18 a)
def r_v20 (a : Args F) : (⟨S100000x32x3, .f32⟩ : BufTy).Contents (Elt F) :=
  (subf) (r_v0 a) (r_v19 a)
def r_v21 (a : Args F) : (⟨S100000x3, .i32⟩ : BufTy).Contents (Elt F) :=
  ((extractStridedSlice S100000x3 ![0, 1] · slices_S100000x4_S100000x3_0_1)) a.co
def r_v22 (a : Args F) : (⟨S100000x3, .f32⟩ : BufTy).Contents (Elt F) :=
  (sitofp .f32) (r_v21 a)
def r_cst_1 (a : Args F) : (⟨S_, .f32⟩ : BufTy).Contents (Elt F) :=
  (constant S_ .f32 0x3F000000#32)
def r_v23 (a : Args F) : (⟨S100000x3, .f32⟩ : BufTy).Contents (Elt F) :=
  (broadcastInDim S100000x3 ![] bcast_S_S100000x3) (r_cst_1 a)
def r_v24 (a : Args F) : (⟨S100000x3, .f32⟩ : BufTy).Contents (Elt F) :=
  (addf) (r_v22 a) (r_v23 a)
def r_v25 (a : Args F) : (⟨S1x3, .f32⟩ : BufTy).Contents (Elt F) :=
  (broadcastInDim S1x3 ![1] bcast_S3_S1x3_1) (r_cst a)
def r_v26 (a : Args F) : (⟨S100000x3, .f32⟩ : BufTy).Contents (Elt F) :=
  (broadcastInDim S100000x3 ![0, 1] bcast_S1x3_S100000x3_0_1) (r_v25 a)
def r_v27 (a : Args F) : (⟨S100000x3, .f32⟩ : BufTy).Contents (Elt F) :=
  (mulf) (r_v24 a) (r_v26 a)
def r_v28 (a : Args F) : (⟨S100000x1x3, .f32⟩ : BufTy).Contents (Elt F) :=
  (broadcastInDim S100000x1x3 ![0, 2] bcast_S100000x3_S100000x1x3_0_2) (r_v27 a)
def r_v29 (a : Args F) : (⟨S100000x32x3, .f32⟩ : BufTy).Contents (Elt F) :=
  (broadcastInDim S100000x32x3 ![0, 1, 2] bcast_S100000x1x3_S100000x32x3_0_1_2) (r_v28 a)
def r_v30 (a : Args F) : (⟨S100000x32x3, .f32⟩ : BufTy).Contents (Elt F) :=
  (subf) (r_v0 a) (r_v29 a)
def r_v31 (a : Args F) : (⟨S100000x32x10, .f32⟩ : BufTy).Contents (Elt F) :=
  concatenate S100000x32x10 2 [⟨S100000x32x4, a.x⟩, ⟨S100000x32x3, r_v20 a⟩, ⟨S100000x32x3, r_v30 a⟩] concatenates_S100000x32x4_S100000x32x3_S100000x32x3_S100000x32x10_d2
def r_v32 (a : Args F) : (⟨S100000x32x10, .f32⟩ : BufTy).Contents (Elt F) :=
  (broadcastInDim S100000x32x10 ![0, 1, 2] bcast_S100000x32x1_S100000x32x10_0_1_2) (r_v8 a)
def r_v33 (a : Args F) : (⟨S100000x32x10, .f32⟩ : BufTy).Contents (Elt F) :=
  (mulf) (r_v31 a) (r_v32 a)
def r_v34 (a : Args F) : (⟨S100000x32x64, .f32⟩ : BufTy).Contents (Elt F) :=
  ((fun l r => Host.dotGeneral dot_S100000x32x10_S10x64_S100000x32x64_2_0_01_1_n_n none l r)) (r_v33 a) a.w
def r_cst_2 (a : Args F) : (⟨S_, .f32⟩ : BufTy).Contents (Elt F) :=
  (constant S_ .f32 0x00000000#32)
def r_v35 (a : Args F) : (⟨S64, .f32⟩ : BufTy).Contents (Elt F) :=
  ((fun x v => Host.reduceAdd x v reducesTo_S100000x32x64_S64_d0_1 h_S_)) (r_v34 a) (r_cst_2 a)
def r_cst_3 (a : Args F) : (⟨S_, .f32⟩ : BufTy).Contents (Elt F) :=
  (constant S_ .f32 0x4A435000#32)
def r_v36 (a : Args F) : (⟨S64, .f32⟩ : BufTy).Contents (Elt F) :=
  (broadcastInDim S64 ![] bcast_S_S64) (r_cst_3 a)
def r_v37 (a : Args F) : (⟨S64, .f32⟩ : BufTy).Contents (Elt F) :=
  (Host.divf) (r_v35 a) (r_v36 a)
def r_c_4 (a : Args F) : (⟨S_, .i32⟩ : BufTy).Contents (Elt F) :=
  (constantI S_ 32 0#32)
def r_call0_cst (a : Args F) : (⟨S_, .f32⟩ : BufTy).Contents (Elt F) :=
  (constant S_ .f32 0x00000000#32)
def r_call0_v0 (a : Args F) : (⟨S64, .f32⟩ : BufTy).Contents (Elt F) :=
  (fun x v => Host.reduceAdd x v reducesTo_S100000x32x64_S64_d0_1 h_S_) (r_v34 a) (r_call0_cst a)
def r_call0_v1 (a : Args F) : (⟨S1x1x64, .f32⟩ : BufTy).Contents (Elt F) :=
  (broadcastInDim S1x1x64 ![2] bcast_S64_S1x1x64_2) (r_call0_v0 a)
def r_call0_cst_0 (a : Args F) : (⟨S_, .f32⟩ : BufTy).Contents (Elt F) :=
  (constant S_ .f32 0x4A435000#32)
def r_call0_v2 (a : Args F) : (⟨S1x1x64, .f32⟩ : BufTy).Contents (Elt F) :=
  (broadcastInDim S1x1x64 ![] bcast_S_S1x1x64) (r_call0_cst_0 a)
def r_call0_v3 (a : Args F) : (⟨S1x1x64, .f32⟩ : BufTy).Contents (Elt F) :=
  Host.divf (r_call0_v1 a) (r_call0_v2 a)
def r_call0_v4 (a : Args F) : (⟨S100000x32x64, .f32⟩ : BufTy).Contents (Elt F) :=
  (broadcastInDim S100000x32x64 ![0, 1, 2] bcast_S1x1x64_S100000x32x64_0_1_2) (r_call0_v3 a)
def r_call0_v5 (a : Args F) : (⟨S100000x32x64, .f32⟩ : BufTy).Contents (Elt F) :=
  subf (r_v34 a) (r_call0_v4 a)
def r_call0_v6 (a : Args F) : (⟨S100000x32x64, .f32⟩ : BufTy).Contents (Elt F) :=
  mulf (r_call0_v5 a) (r_call0_v5 a)
def r_call0_v7 (a : Args F) : (⟨S_, .f32⟩ : BufTy).Contents (Elt F) :=
  (sitofp .f32) (r_c_4 a)
def r_call0_cst_1 (a : Args F) : (⟨S_, .f32⟩ : BufTy).Contents (Elt F) :=
  (constant S_ .f32 0x4A435000#32)
def r_call0_v8 (a : Args F) : (⟨S_, .f32⟩ : BufTy).Contents (Elt F) :=
  subf (r_call0_cst_1 a) (r_call0_v7 a)
def r_call0_cst_2 (a : Args F) : (⟨S_, .f32⟩ : BufTy).Contents (Elt F) :=
  (constant S_ .f32 0x00000000#32)
def r_call0_v9 (a : Args F) : (⟨S64, .f32⟩ : BufTy).Contents (Elt F) :=
  (fun x v => Host.reduceAdd x v reducesTo_S100000x32x64_S64_d0_1 h_S_) (r_call0_v6 a) (r_call0_cst_2 a)
def r_call0_v10 (a : Args F) : (⟨S64, .f32⟩ : BufTy).Contents (Elt F) :=
  (broadcastInDim S64 ![] bcast_S_S64) (r_call0_v8 a)
def r_call0_v11 (a : Args F) : (⟨S64, .f32⟩ : BufTy).Contents (Elt F) :=
  Host.divf (r_call0_v9 a) (r_call0_v10 a)
def r_call0_cst_3 (a : Args F) : (⟨S_, .f32⟩ : BufTy).Contents (Elt F) :=
  (constant S_ .f32 0x00000000#32)
def r_call0_v12 (a : Args F) : (⟨S_, .i1⟩ : BufTy).Contents (Elt F) :=
  (cmpf .ogt) (r_call0_v8 a) (r_call0_cst_3 a)
def r_call0_cst_4 (a : Args F) : (⟨S_, .f32⟩ : BufTy).Contents (Elt F) :=
  (constant S_ .f32 0x7FC00000#32)
def r_call0_call0_v0 (a : Args F) : (⟨S_, .f32⟩ : BufTy).Contents (Elt F) :=
  id (r_call0_cst_4 a)
def r_call0_call0_v1 (a : Args F) : (⟨S64, .f32⟩ : BufTy).Contents (Elt F) :=
  (broadcastInDim S64 ![] bcast_S_S64) (r_call0_call0_v0 a)
def r_v38 (a : Args F) : (⟨S64, .f32⟩ : BufTy).Contents (Elt F) :=
  (fun p a b => select (broadcastInDim S64 ![] bcast_S_S64 p) a b) (r_call0_v12 a) (r_call0_v11 a) (r_call0_call0_v1 a)
def r_v39 (a : Args F) : (⟨S1x1x64, .f32⟩ : BufTy).Contents (Elt F) :=
  (broadcastInDim S1x1x64 ![2] bcast_S64_S1x1x64_2) (r_v37 a)
def r_v40 (a : Args F) : (⟨S100000x32x64, .f32⟩ : BufTy).Contents (Elt F) :=
  (broadcastInDim S100000x32x64 ![0, 1, 2] bcast_S1x1x64_S100000x32x64_0_1_2) (r_v39 a)
def r_v41 (a : Args F) : (⟨S100000x32x64, .f32⟩ : BufTy).Contents (Elt F) :=
  (subf) (r_v34 a) (r_v40 a)
def r_cst_5 (a : Args F) : (⟨S_, .f32⟩ : BufTy).Contents (Elt F) :=
  (constant S_ .f32 0x3A83126F#32)
def r_v42 (a : Args F) : (⟨S64, .f32⟩ : BufTy).Contents (Elt F) :=
  (broadcastInDim S64 ![] bcast_S_S64) (r_cst_5 a)
def r_v43 (a : Args F) : (⟨S64, .f32⟩ : BufTy).Contents (Elt F) :=
  (addf) (r_v38 a) (r_v42 a)
def r_v44 (a : Args F) : (⟨S64, .f32⟩ : BufTy).Contents (Elt F) :=
  (Host.rsqrt) (r_v43 a)
def r_v45 (a : Args F) : (⟨S1x1x64, .f32⟩ : BufTy).Contents (Elt F) :=
  (broadcastInDim S1x1x64 ![2] bcast_S64_S1x1x64_2) (r_v44 a)
def r_v46 (a : Args F) : (⟨S100000x32x64, .f32⟩ : BufTy).Contents (Elt F) :=
  (broadcastInDim S100000x32x64 ![0, 1, 2] bcast_S1x1x64_S100000x32x64_0_1_2) (r_v45 a)
def r_v47 (a : Args F) : (⟨S100000x32x64, .f32⟩ : BufTy).Contents (Elt F) :=
  (mulf) (r_v41 a) (r_v46 a)
def r_v48 (a : Args F) : (⟨S1x1x64, .f32⟩ : BufTy).Contents (Elt F) :=
  (broadcastInDim S1x1x64 ![2] bcast_S64_S1x1x64_2) a.γ
def r_v49 (a : Args F) : (⟨S100000x32x64, .f32⟩ : BufTy).Contents (Elt F) :=
  (broadcastInDim S100000x32x64 ![0, 1, 2] bcast_S1x1x64_S100000x32x64_0_1_2) (r_v48 a)
def r_v50 (a : Args F) : (⟨S100000x32x64, .f32⟩ : BufTy).Contents (Elt F) :=
  (mulf) (r_v47 a) (r_v49 a)
def r_v51 (a : Args F) : (⟨S1x1x64, .f32⟩ : BufTy).Contents (Elt F) :=
  (broadcastInDim S1x1x64 ![2] bcast_S64_S1x1x64_2) a.β
def r_v52 (a : Args F) : (⟨S100000x32x64, .f32⟩ : BufTy).Contents (Elt F) :=
  (broadcastInDim S100000x32x64 ![0, 1, 2] bcast_S1x1x64_S100000x32x64_0_1_2) (r_v51 a)
def r_v53 (a : Args F) : (⟨S100000x32x64, .f32⟩ : BufTy).Contents (Elt F) :=
  (addf) (r_v50 a) (r_v52 a)
def r_call1_cst (a : Args F) : (⟨S_, .f32⟩ : BufTy).Contents (Elt F) :=
  (constant S_ .f32 0x00000000#32)
def r_call1_v0 (a : Args F) : (⟨S100000x32x64, .f32⟩ : BufTy).Contents (Elt F) :=
  (broadcastInDim S100000x32x64 ![] bcast_S_S100000x32x64) (r_call1_cst a)
def r_v54 (a : Args F) : (⟨S100000x32x64, .f32⟩ : BufTy).Contents (Elt F) :=
  maximumf (r_v53 a) (r_call1_v0 a)
def r_cst_6 (a : Args F) : (⟨S_, .f32⟩ : BufTy).Contents (Elt F) :=
  (constant S_ .f32 0xFF800000#32)
def r_v55 (a : Args F) : (⟨S100000x64, .f32⟩ : BufTy).Contents (Elt F) :=
  ((fun x v => Host.reduce FloatOps.maximumf x v reducesTo_S100000x32x64_S100000x64_d1 h_S_)) (r_v54 a) (r_cst_6 a)

/-- The arguments' contents in a valuation of the device's buffers. -/
def argsOf (V : Valuation τ sig (Elt F)) : Args F :=
  ⟨V (Proc.devRef .tc main_arg0), V (Proc.devRef .tc main_arg1), V (Proc.devRef .tc main_arg2),
   V (Proc.devRef .tc main_arg3), V (Proc.devRef .tc main_arg4), V (Proc.devRef .tc main_arg5)⟩

/-! ## The fold of the operations at the result and at the arguments -/

attribute [local irreducible] Host.reduce Host.reduceAdd concatenate in
set_option maxRecDepth 16384 in
set_option maxHeartbeats 8000000 in
/-- After the 88 operations the result buffer holds the last named value: each operation's result read at its own
    buffer is its function of its operands' contents, and the names unfold to the same composition. -/
theorem out_eq (V : Valuation τ sig (Elt F)) :
    after ops V (Proc.devRef .tc main_v55) = r_v55 (argsOf V) := by
  after_results_simp
  try dsimp only [Matrix.cons_val]
  try after_results_simp
  simp only [r_v55, r_cst_6, r_v54, r_call1_v0, r_call1_cst, r_v53, r_v52, r_v51, r_v50, r_v49, r_v48, r_v47, r_v46, r_v45, r_v44, r_v43, r_v42, r_cst_5, r_v41, r_v40, r_v39, r_v38, r_call0_call0_v1, r_call0_call0_v0, r_call0_cst_4, r_call0_v12, r_call0_cst_3, r_call0_v11, r_call0_v10, r_call0_v9, r_call0_cst_2, r_call0_v8, r_call0_cst_1, r_call0_v7, r_call0_v6, r_call0_v5, r_call0_v4, r_call0_v3, r_call0_v2, r_call0_cst_0, r_call0_v1, r_call0_v0, r_call0_cst, r_c_4, r_v37, r_v36, r_cst_3, r_v35, r_cst_2, r_v34, r_v33, r_v32, r_v31, r_v30, r_v29, r_v28, r_v27, r_v26, r_v25, r_v24, r_v23, r_cst_1, r_v22, r_v21, r_v20, r_v19, r_v18, r_v17, r_v16, r_v15, r_cst_0, r_v14, r_v13, r_v12, r_v11, r_v10, r_v9, r_c, r_v8, r_v7, r_v6, r_v5, r_v4, r_v3, r_v2, r_v1, r_v0, r_cst, argsOf]
  rfl

set_option maxRecDepth 16384 in
set_option maxHeartbeats 4000000 in
/-- No operation writes argument 0. -/
theorem arg0_eq (V : Valuation τ sig (Elt F)) :
    after ops V (Proc.devRef .tc main_arg0) = V (Proc.devRef .tc main_arg0) := by
  after_results_simp

set_option maxRecDepth 16384 in
set_option maxHeartbeats 4000000 in
/-- No operation writes argument 1. -/
theorem arg1_eq (V : Valuation τ sig (Elt F)) :
    after ops V (Proc.devRef .tc main_arg1) = V (Proc.devRef .tc main_arg1) := by
  after_results_simp

set_option maxRecDepth 16384 in
set_option maxHeartbeats 4000000 in
/-- No operation writes argument 2. -/
theorem arg2_eq (V : Valuation τ sig (Elt F)) :
    after ops V (Proc.devRef .tc main_arg2) = V (Proc.devRef .tc main_arg2) := by
  after_results_simp

set_option maxRecDepth 16384 in
set_option maxHeartbeats 4000000 in
/-- No operation writes argument 3. -/
theorem arg3_eq (V : Valuation τ sig (Elt F)) :
    after ops V (Proc.devRef .tc main_arg3) = V (Proc.devRef .tc main_arg3) := by
  after_results_simp

set_option maxRecDepth 16384 in
set_option maxHeartbeats 4000000 in
/-- No operation writes argument 4. -/
theorem arg4_eq (V : Valuation τ sig (Elt F)) :
    after ops V (Proc.devRef .tc main_arg4) = V (Proc.devRef .tc main_arg4) := by
  after_results_simp

set_option maxRecDepth 16384 in
set_option maxHeartbeats 4000000 in
/-- No operation writes argument 5. -/
theorem arg5_eq (V : Valuation τ sig (Elt F)) :
    after ops V (Proc.devRef .tc main_arg5) = V (Proc.devRef .tc main_arg5) := by
  after_results_simp

/-! ## The run -/

/-- On every device, from any memory with zero counters: every weakly fair execution of the host function terminates
    with the result buffer at the last named value of the arguments' launch contents and the arguments unchanged. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = r_v55 (argsOf (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v55).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.RefSide

end
-- ==== Proof.RefValueFeat.lean ====
/-
  The reference's values up to the projection, read at an index: the validity mask, the pillar's divisor, the
  masked mean of the first three channels, the voxel centre, the ten masked features (a concatenation of three
  ranges of the channel axis) and their projection to 64 channels by one contracted axis, each identified with
  the shared specification's coordinate formula.
-/
import proofs.«109379_j63986422775810_2_alg».proof.Proof.RefRun
import proofs.«109379_j63986422775810_2_alg».proof.Proof.Spec
import Idealize.ShloMosaic.Lib.IdealHost
import Idealize.ShloMosaic.Lib.Pipeline.Value

noncomputable section

namespace Cert.RefSide

open Cert.ReferenceIdeal Cert.ReferenceIdeal.Gen Idealize.ShloMosaic Idealize.ShloMosaic.ValueIdx
open scoped BigOperators

variable (a : Args Ideal)

/-- The arguments as coordinate functions. -/
abbrev aX : Fin 100000 → Fin 32 → Fin 4 → EReal := Spec.cur3 a.x
abbrev aW : Fin 10 → Fin 64 → EReal := Spec.cur2 a.w
abbrev aG : Fin 64 → EReal := Spec.cur1 a.γ
abbrev aB : Fin 64 → EReal := Spec.cur1 a.β
abbrev aNp : Fin 100000 → BitVec 32 := Spec.cur1 a.np
abbrev aCo : Fin 100000 → Fin 4 → BitVec 32 := Spec.cur2 a.co

/-- The first three channels of a point. -/
theorem v0_apply (n : Fin 100000) (p : Fin 32) (j : Fin 3) :
    r_v0 a (ix3 n p j) = Spec.xyz (aX a) n p j := by
  unfold r_v0
  refine (extractStridedSlice_apply _ _ _ (ix3 n p j) (ix3 n p (Fin.castLE (by decide) j)) ?_).trans rfl
  intro c
  match c with
  | ⟨0, _⟩ => show n.val = 0 + n.val; omega
  | ⟨1, _⟩ => show p.val = 0 + p.val; omega
  | ⟨2, _⟩ => show j.val = 0 + j.val; omega

theorem toInt_ofNat_lt32 (p : Fin 32) : (BitVec.ofNat 32 p.val).toInt = (p.val : ℤ) := by
  fin_cases p <;> rfl

/-- The validity mask: 1 where the point's number is below the pillar's count, read signed. -/
theorem v7_apply (n : Fin 100000) (p : Fin 32) : r_v7 a (ix2 n p) = Spec.mask (aNp a) n p := by
  have h4 : r_v4 a (ix2 n p) = BitVec.ofNat 32 p.val := by
    unfold r_v4
    refine (broadcastInDim_apply _ _ _ (ix2 n p) (ix2 (0 : Fin 1) p) ?_).trans ?_
    · intro c; match c with | ⟨0, _⟩ => rfl | ⟨1, _⟩ => rfl
    unfold r_v2
    refine (broadcastInDim_apply _ _ _ (ix2 (0 : Fin 1) p) (ix1 p) ?_).trans ?_
    · intro c; match c with | ⟨0, _⟩ => rfl
    rfl
  have h5 : r_v5 a (ix2 n p) = aNp a n := by
    unfold r_v5
    refine (broadcastInDim_apply _ _ _ (ix2 n p) (ix2 n (0 : Fin 1)) ?_).trans ?_
    · intro c; match c with | ⟨0, _⟩ => rfl | ⟨1, _⟩ => rfl
    unfold r_v3
    exact broadcastInDim_apply _ _ _ (ix2 n (0 : Fin 1)) (ix1 n) (fun c => by match c with | ⟨0, _⟩ => rfl)
  show (((BitVec.ofBool ((r_v4 a (ix2 n p)).slt (r_v5 a (ix2 n p)))).toNat : ℝ) : EReal) = _
  rw [h4, h5, BitVec.slt_eq_decide, toInt_ofNat_lt32]
  unfold Spec.mask
  by_cases h : (p.val : ℤ) < (aNp a n).toInt
  · rw [if_pos h, decide_eq_true h]; simp
  · rw [if_neg h, decide_eq_false h]; simp

/-- The mask with a trailing unit axis, and broadcast along three or ten channels. -/
theorem v8_apply (n : Fin 100000) (p : Fin 32) : r_v8 a (ix3 n p (0 : Fin 1)) = Spec.mask (aNp a) n p := by
  unfold r_v8
  refine (broadcastInDim_apply _ _ _ (ix3 n p (0 : Fin 1)) (ix2 n p) ?_).trans (v7_apply a n p)
  intro c; match c with | ⟨0, _⟩ => rfl | ⟨1, _⟩ => rfl

theorem v13_apply (n : Fin 100000) (p : Fin 32) (j : Fin 3) : r_v13 a (ix3 n p j) = Spec.mask (aNp a) n p := by
  unfold r_v13
  refine (broadcastInDim_apply _ _ _ (ix3 n p j) (ix3 n p (0 : Fin 1)) ?_).trans (v8_apply a n p)
  intro c; match c with | ⟨0, _⟩ => rfl | ⟨1, _⟩ => rfl | ⟨2, _⟩ => rfl

theorem v32_apply (n : Fin 100000) (p : Fin 32) (c : Fin 10) : r_v32 a (ix3 n p c) = Spec.mask (aNp a) n p := by
  unfold r_v32
  refine (broadcastInDim_apply _ _ _ (ix3 n p c) (ix3 n p (0 : Fin 1)) ?_).trans (v8_apply a n p)
  intro e; match e with | ⟨0, _⟩ => rfl | ⟨1, _⟩ => rfl | ⟨2, _⟩ => rfl

/-- The pillar's divisor. -/
theorem v11_apply (n : Fin 100000) : r_v11 a (ix1 n) = Spec.cnt (aNp a) n := by
  have h9 : r_v9 a (ix1 n) = 1#32 := by
    unfold r_v9
    exact (broadcastInDim_scalar_apply _ _ _).trans rfl
  show (((IntOp.maxsi (a.np (ix1 n)) (r_v9 a (ix1 n))).toInt : ℝ) : EReal) = _
  rw [h9]
  unfold Spec.cnt IntOp.maxsi
  show _ = ((((max (a.np (ix1 n)).toInt 1 : ℤ)) : ℝ) : EReal)
  rw [BitVec.slt_eq_decide]
  have h1 : (1#32 : BitVec 32).toInt = 1 := by decide
  by_cases h : (1 : ℤ) < (a.np (ix1 n)).toInt
  · rw [h1, decide_eq_true h, if_pos rfl, max_eq_left (le_of_lt h)]
  · rw [h1, decide_eq_false h, if_neg (by simp), h1, max_eq_right (not_lt.mp h)]

/-! ## The masked mean of the first three channels -/

/-- The source index over (pillar, channel) with the point's number inserted. -/
theorem lift_pts3 (h : S100000x32x3.Reduces [1] S100000x3) (n : Fin 100000) (j : Fin 3) (p : Fin 32) :
    h.lift (ix2 n j) p = ix3 n p j := by
  funext c; apply Fin.ext
  match c with
  | ⟨0, _⟩ => rfl
  | ⟨1, _⟩ => rfl
  | ⟨2, _⟩ => rfl

/-- The masked sum over a pillar's points. -/
theorem v15_apply (n : Fin 100000) (j : Fin 3) :
    r_v15 a (ix2 n j) = ∑ p : Fin 32, Spec.xyz (aX a) n p j * Spec.mask (aNp a) n p := by
  have hR : S100000x32x3.Reduces [1] S100000x3 := by decide
  unfold r_v15
  show Ideal.hostReduceAdd reducesTo_S100000x32x3_S100000x3_d1 (r_v14 a) (Ideal.ofBits .f32 0x00000000#32) (ix2 n j) = _
  rw [Ideal.hostReduceAdd_single _ hR, Ideal.ofBits_zero_f32, zero_add]
  show ∑ p : Fin 32, r_v14 a (hR.lift (ix2 n j) p) = _
  refine Finset.sum_congr rfl fun p _ => ?_
  rw [lift_pts3 hR n j p]
  show r_v0 a (ix3 n p j) * r_v13 a (ix3 n p j) = _
  rw [v0_apply, v13_apply]

theorem v16_apply (n : Fin 100000) (j : Fin 3) : r_v16 a (ix2 n j) = Spec.cnt (aNp a) n := by
  unfold r_v16
  refine (broadcastInDim_apply _ _ _ (ix2 n j) (ix2 n (0 : Fin 1)) ?_).trans ?_
  · intro c; match c with | ⟨0, _⟩ => rfl | ⟨1, _⟩ => rfl
  unfold r_v12
  refine (broadcastInDim_apply _ _ _ (ix2 n (0 : Fin 1)) (ix1 n) ?_).trans (v11_apply a n)
  intro c; match c with | ⟨0, _⟩ => rfl

/-- The pillar's masked mean. -/
theorem v17_apply (n : Fin 100000) (j : Fin 3) : r_v17 a (ix2 n j) = Spec.mean (aX a) (aNp a) n j := by
  show Ideal.div (r_v15 a (ix2 n j)) (r_v16 a (ix2 n j)) = _
  rw [v15_apply, v16_apply]
  rfl

/-- A (pillar, channel) array broadcast over the pillar's points. -/
theorem v19_apply (n : Fin 100000) (p : Fin 32) (j : Fin 3) : r_v19 a (ix3 n p j) = Spec.mean (aX a) (aNp a) n j := by
  unfold r_v19
  refine (broadcastInDim_apply _ _ _ (ix3 n p j) (ix3 n (0 : Fin 1) j) ?_).trans ?_
  · intro c; match c with | ⟨0, _⟩ => rfl | ⟨1, _⟩ => rfl | ⟨2, _⟩ => rfl
  unfold r_v18
  refine (broadcastInDim_apply _ _ _ (ix3 n (0 : Fin 1) j) (ix2 n j) ?_).trans (v17_apply a n j)
  intro c; match c with | ⟨0, _⟩ => rfl | ⟨1, _⟩ => rfl

theorem v20_apply (n : Fin 100000) (p : Fin 32) (j : Fin 3) :
    r_v20 a (ix3 n p j) = Spec.xyz (aX a) n p j - Spec.mean (aX a) (aNp a) n j := by
  show r_v0 a (ix3 n p j) - r_v19 a (ix3 n p j) = _
  rw [v0_apply, v19_apply]

/-! ## The voxel centre -/

theorem v24_apply (n : Fin 100000) (j : Fin 3) :
    r_v24 a (ix2 n j) = (((aCo a n j.succ).toInt : ℝ) : EReal) + Spec.half := by
  have h21 : r_v21 a (ix2 n j) = aCo a n j.succ := by
    unfold r_v21
    refine (extractStridedSlice_apply _ _ _ (ix2 n j) (ix2 n j.succ) ?_).trans rfl
    intro c
    match c with
    | ⟨0, _⟩ => show n.val = 0 + n.val; omega
    | ⟨1, _⟩ => show j.val + 1 = 1 + j.val; omega
  have h23 : r_v23 a (ix2 n j) = Spec.half := by
    unfold r_v23
    exact (broadcastInDim_scalar_apply _ _ _).trans rfl
  show (((r_v21 a (ix2 n j)).toInt : ℝ) : EReal) + r_v23 a (ix2 n j) = _
  rw [h21, h23]

theorem v26_apply (n : Fin 100000) (j : Fin 3) : r_v26 a (ix2 n j) = Spec.vsz j := by
  unfold r_v26
  refine (broadcastInDim_apply _ _ _ (ix2 n j) (ix2 (0 : Fin 1) j) ?_).trans ?_
  · intro c; match c with | ⟨0, _⟩ => rfl | ⟨1, _⟩ => rfl
  unfold r_v25
  refine (broadcastInDim_apply _ _ _ (ix2 (0 : Fin 1) j) (ix1 j) ?_).trans ?_
  · intro c; match c with | ⟨0, _⟩ => rfl
  fin_cases j <;> rfl

theorem v27_apply (n : Fin 100000) (j : Fin 3) : r_v27 a (ix2 n j) = Spec.center (aCo a) n j := by
  show r_v24 a (ix2 n j) * r_v26 a (ix2 n j) = _
  rw [v24_apply, v26_apply]
  rfl

theorem v29_apply (n : Fin 100000) (p : Fin 32) (j : Fin 3) : r_v29 a (ix3 n p j) = Spec.center (aCo a) n j := by
  unfold r_v29
  refine (broadcastInDim_apply _ _ _ (ix3 n p j) (ix3 n (0 : Fin 1) j) ?_).trans ?_
  · intro c; match c with | ⟨0, _⟩ => rfl | ⟨1, _⟩ => rfl | ⟨2, _⟩ => rfl
  unfold r_v28
  refine (broadcastInDim_apply _ _ _ (ix3 n (0 : Fin 1) j) (ix2 n j) ?_).trans (v27_apply a n j)
  intro c; match c with | ⟨0, _⟩ => rfl | ⟨1, _⟩ => rfl

theorem v30_apply (n : Fin 100000) (p : Fin 32) (j : Fin 3) :
    r_v30 a (ix3 n p j) = Spec.xyz (aX a) n p j - Spec.center (aCo a) n j := by
  show r_v0 a (ix3 n p j) - r_v29 a (ix3 n p j) = _
  rw [v0_apply, v29_apply]

/-! ## The ten features and their mask -/

/-- The concatenation along the channel axis, read at a channel: the point's four channels, then its three offsets
    from the mean, then its three offsets from the centre. -/
theorem v31_apply (n : Fin 100000) (p : Fin 32) (c : Fin 10) :
    r_v31 a (ix3 n p c) =
      if h4 : c.val < 4 then aX a n p ⟨c.val, h4⟩
      else if h7 : c.val < 7 then
        Spec.xyz (aX a) n p ⟨c.val - 4, by omega⟩ - Spec.mean (aX a) (aNp a) n ⟨c.val - 4, by omega⟩
      else Spec.xyz (aX a) n p ⟨c.val - 7, by omega⟩ - Spec.center (aCo a) n ⟨c.val - 7, by omega⟩ := by
  unfold r_v31
  by_cases h4 : c.val < 4
  · rw [dif_pos h4]
    refine (concatenate_apply_piece _ _ _ (ix3 n p c) 0 (by show (0 : ℕ) < 3; omega) S100000x32x4 a.x rfl rfl 0 rfl
      (ix3 n p (⟨c.val, h4⟩ : Fin 4)) ?_ ?_).trans rfl
    · intro b hb
      match b with
      | ⟨0, _⟩ => rfl
      | ⟨1, _⟩ => rfl
      | ⟨2, _⟩ => exact absurd rfl hb
    · show 0 + c.val = c.val; omega
  · rw [dif_neg h4]
    by_cases h7 : c.val < 7
    · rw [dif_pos h7]
      refine (concatenate_apply_piece _ _ _ (ix3 n p c) 1 (by show (1 : ℕ) < 3; omega) S100000x32x3 (r_v20 a) rfl rfl 4 rfl
        (ix3 n p (⟨c.val - 4, by omega⟩ : Fin 3)) ?_ ?_).trans (v20_apply a n p _)
      · intro b hb
        match b with
        | ⟨0, _⟩ => rfl
        | ⟨1, _⟩ => rfl
        | ⟨2, _⟩ => exact absurd rfl hb
      · show 4 + (c.val - 4) = c.val; omega
    · rw [dif_neg h7]
      refine (concatenate_apply_piece _ _ _ (ix3 n p c) 2 (by show (2 : ℕ) < 3; omega) S100000x32x3 (r_v30 a) rfl rfl 7 rfl
        (ix3 n p (⟨c.val - 7, by omega⟩ : Fin 3)) ?_ ?_).trans (v30_apply a n p _)
      · intro b hb
        match b with
        | ⟨0, _⟩ => rfl
        | ⟨1, _⟩ => rfl
        | ⟨2, _⟩ => exact absurd rfl hb
      · show 7 + (c.val - 7) = c.val; omega

/-- The masked features. -/
theorem v33_apply (n : Fin 100000) (p : Fin 32) (c : Fin 10) :
    r_v33 a (ix3 n p c) = Spec.feat (aX a) (aNp a) (aCo a) n p c := by
  show r_v31 a (ix3 n p c) * r_v32 a (ix3 n p c) = _
  rw [v31_apply, v32_apply]
  rfl

/-! ## The projection to 64 channels -/

theorem v34_apply (n : Fin 100000) (p : Fin 32) (d : Fin 64) :
    r_v34 a (ix3 n p d) = Spec.proj (aX a) (aW a) (aNp a) (aCo a) n p d := by
  unfold r_v34
  show FloatOps.dotGeneral dot_S100000x32x10_S10x64_S100000x32x64_2_0_01_1_n_n none .single (r_v33 a) a.w (ix3 n p d) = _
  rw [Ideal.dotGeneral_apply,
    ← Equiv.sum_comp (contrEquiv1 dot_S100000x32x10_S10x64_S100000x32x64_2_0_01_1_n_n 10 rfl rfl).symm]
  unfold Spec.proj
  refine Finset.sum_congr rfl fun c _ => ?_
  have c1 := contrEquiv1_symm_val dot_S100000x32x10_S10x64_S100000x32x64_2_0_01_1_n_n 10 rfl rfl c
  have hl : dot_S100000x32x10_S10x64_S100000x32x64_2_0_01_1_n_n.lhsIdx (ix3 n p d)
      ((contrEquiv1 _ 10 rfl rfl).symm c) = ix3 n p c := by
    funext ax; apply Fin.ext
    match ax with
    | ⟨0, _⟩ => simp [DotDims.lhsIdx, dot_S100000x32x10_S10x64_S100000x32x64_2_0_01_1_n_n]; rfl
    | ⟨1, _⟩ => simp [DotDims.lhsIdx, dot_S100000x32x10_S10x64_S100000x32x64_2_0_01_1_n_n]; rfl
    | ⟨2, _⟩ => simp [DotDims.lhsIdx, dot_S100000x32x10_S10x64_S100000x32x64_2_0_01_1_n_n]; exact c1
  have hr : dot_S100000x32x10_S10x64_S100000x32x64_2_0_01_1_n_n.rhsIdx (ix3 n p d)
      ((contrEquiv1 _ 10 rfl rfl).symm c) = ix2 c d := by
    funext ax; apply Fin.ext
    match ax with
    | ⟨0, _⟩ => simp [DotDims.rhsIdx, dot_S100000x32x10_S10x64_S100000x32x64_2_0_01_1_n_n]; exact c1
    | ⟨1, _⟩ => simp [DotDims.rhsIdx, dot_S100000x32x10_S10x64_S100000x32x64_2_0_01_1_n_n]; rfl
  rw [hl, hr, v33_apply]
  rfl

end Cert.RefSide

end
-- ==== Proof.RefValueStats.lean ====
/-
  The reference's per-channel statistics, read at an index: the sum over all points of all pillars (a host sum
  over the first two axes: the indices that drop to a channel are the (pillar, point) pairs at it), the mean, and
  the variance function's result — the mean squared deviation; its normalizer is the number of points less the
  real zero, which is positive, so the select on "normalizer > 0" takes the quotient.
-/
import proofs.«109379_j63986422775810_2_alg».proof.Proof.RefValueFeat

noncomputable section

namespace Cert.RefSide

open Cert.ReferenceIdeal Cert.ReferenceIdeal.Gen Idealize.ShloMosaic Idealize.ShloMosaic.ValueIdx
open scoped BigOperators

variable (a : Args Ideal)

/-! ## Sums over all points of all pillars -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ x : Fin n0, ∑ y : Fin n1, ∑ z : Fin n2, f (ix3 x y z) := by
  rw [← Equiv.sum_comp (idxEquiv3 (n0 := n0) (n1 := n1) (n2 := n2)).symm f, Fintype.sum_prod_type]
  refine Finset.sum_congr rfl fun x _ => ?_
  rw [Fintype.sum_prod_type]
  rfl

/-- Over the reduction of the first two axes, the indices that drop to channel `d` are the (pillar, point) pairs at `d`. -/
theorem sum_drop01 (h' : S100000x32x64.ReducesTo [0, 1] S64) (x : S100000x32x64.Idx → EReal) (d : Fin 64) :
    ∑ i ∈ Finset.univ.filter (fun i => h'.drop i = ix1 d), x i = ∑ n : Fin 100000, ∑ p : Fin 32, x (ix3 n p d) := by
  have hk : S100000x32x64.kept [0, 1] = [2] := by decide
  have hdrop : ∀ i : S100000x32x64.Idx, (h'.drop i ⟨0, Nat.one_pos⟩).val = (i 2).val := fun i =>
    congrArg (fun z => (i z).val) ((List.getElem_of_eq hk _).trans rfl)
  rw [Finset.sum_filter, sum_idx3]
  refine Finset.sum_congr rfl fun n _ => Finset.sum_congr rfl fun p _ => ?_
  have hP : ∀ c : Fin 64, (h'.drop (ix3 n p c) = ix1 d) ↔ c = d := fun c =>
    ⟨fun h => Fin.ext ((hdrop (ix3 n p c)).symm.trans (congrArg Fin.val (congrFun h ⟨0, Nat.one_pos⟩))),
     fun h => by
      subst h
      funext b
      match b with
      | ⟨0, _⟩ => exact Fin.ext (hdrop _)⟩
  simp only [hP, Finset.sum_ite_eq', Finset.mem_univ, if_true]

/-- The host's sum over the first two axes, from zero, at a channel. -/
theorem reduce01_apply (x : S100000x32x64.Idx → EReal) (d : Fin 64) :
    Ideal.hostReduceAdd reducesTo_S100000x32x64_S64_d0_1 x (Ideal.ofBits .f32 0x00000000#32) (ix1 d)
      = ∑ n : Fin 100000, ∑ p : Fin 32, x (ix3 n p d) := by
  show Ideal.ofBits .f32 0x00000000#32
      + ∑ i ∈ Finset.univ.filter (fun i => reducesTo_S100000x32x64_S64_d0_1.drop i = ix1 d), x i = _
  rw [sum_drop01, Ideal.ofBits_zero_f32, zero_add]

/-- The per-channel sum of the projections. -/
theorem v35_apply (d : Fin 64) : r_v35 a (ix1 d) = Spec.sum1 (aX a) (aW a) (aNp a) (aCo a) d := by
  unfold r_v35
  show Ideal.hostReduceAdd reducesTo_S100000x32x64_S64_d0_1 (r_v34 a) (Ideal.ofBits .f32 0x00000000#32) (ix1 d) = _
  rw [reduce01_apply]
  unfold Spec.sum1
  exact Finset.sum_congr rfl fun n _ => Finset.sum_congr rfl fun p _ => v34_apply a n p d

/-- The per-channel mean. -/
theorem v37_apply (d : Fin 64) : r_v37 a (ix1 d) = Spec.mu (aX a) (aW a) (aNp a) (aCo a) d := by
  have h36 : r_v36 a (ix1 d) = Spec.count := by
    unfold r_v36
    exact (broadcastInDim_scalar_apply _ _ _).trans rfl
  show Ideal.div (r_v35 a (ix1 d)) (r_v36 a (ix1 d)) = _
  rw [v35_apply, h36]
  rfl

/-! ## The variance function -/

/-- The number of points as a real. -/
theorem count_eq : Spec.count = ((3200000 : ℝ) : EReal) := by
  unfold Spec.count
  simp [Ideal.ofBits, Ideal.ieee, -EReal.coe_mul]; norm_num

theorem count_pos : (0 : EReal) < Spec.count := by
  rw [count_eq]; exact EReal.coe_pos.mpr (by norm_num)

/-- A per-channel array broadcast over all points. -/
theorem bcast64_apply (x : (⟨S64, .f32⟩ : BufTy).Contents (Elt Ideal)) (n : Fin 100000) (p : Fin 32) (d : Fin 64) :
    broadcastInDim S100000x32x64 ![0, 1, 2] bcast_S1x1x64_S100000x32x64_0_1_2
      (broadcastInDim S1x1x64 ![2] bcast_S64_S1x1x64_2 x) (ix3 n p d) = x (ix1 d) := by
  refine (broadcastInDim_apply _ _ _ (ix3 n p d) (ix3 (0 : Fin 1) (0 : Fin 1) d) ?_).trans ?_
  · intro c; match c with | ⟨0, _⟩ => rfl | ⟨1, _⟩ => rfl | ⟨2, _⟩ => rfl
  exact broadcastInDim_apply _ _ _ (ix3 (0 : Fin 1) (0 : Fin 1) d) (ix1 d) (fun c => by match c with | ⟨0, _⟩ => rfl)

/-- The variance function's own mean is the same mean. -/
theorem call0_v3_apply (d : Fin 64) :
    r_call0_v3 a (ix3 (0 : Fin 1) (0 : Fin 1) d) = Spec.mu (aX a) (aW a) (aNp a) (aCo a) d := by
  have h0 : r_call0_v0 a (ix1 d) = Spec.sum1 (aX a) (aW a) (aNp a) (aCo a) d := by
    unfold r_call0_v0
    show Ideal.hostReduceAdd reducesTo_S100000x32x64_S64_d0_1 (r_v34 a) (Ideal.ofBits .f32 0x00000000#32) (ix1 d) = _
    rw [reduce01_apply]
    unfold Spec.sum1
    exact Finset.sum_congr rfl fun n _ => Finset.sum_congr rfl fun p _ => v34_apply a n p d
  have h1 : r_call0_v1 a (ix3 (0 : Fin 1) (0 : Fin 1) d) = r_call0_v0 a (ix1 d) := by
    unfold r_call0_v1
    exact broadcastInDim_apply _ _ _ (ix3 (0 : Fin 1) (0 : Fin 1) d) (ix1 d) (fun c => by match c with | ⟨0, _⟩ => rfl)
  have h2 : r_call0_v2 a (ix3 (0 : Fin 1) (0 : Fin 1) d) = Spec.count := by
    unfold r_call0_v2
    exact (broadcastInDim_scalar_apply _ _ _).trans rfl
  show Ideal.div (r_call0_v1 a (ix3 (0 : Fin 1) (0 : Fin 1) d)) (r_call0_v2 a (ix3 (0 : Fin 1) (0 : Fin 1) d)) = _
  rw [h1, h0, h2]
  rfl

/-- The squared deviation of a projected value from the mean. -/
theorem call0_v6_apply (n : Fin 100000) (p : Fin 32) (d : Fin 64) :
    r_call0_v6 a (ix3 n p d)
      = (Spec.proj (aX a) (aW a) (aNp a) (aCo a) n p d - Spec.mu (aX a) (aW a) (aNp a) (aCo a) d)
        * (Spec.proj (aX a) (aW a) (aNp a) (aCo a) n p d - Spec.mu (aX a) (aW a) (aNp a) (aCo a) d) := by
  have h4 : r_call0_v4 a (ix3 n p d) = Spec.mu (aX a) (aW a) (aNp a) (aCo a) d := by
    unfold r_call0_v4
    refine (broadcastInDim_apply _ _ _ (ix3 n p d) (ix3 (0 : Fin 1) (0 : Fin 1) d) ?_).trans (call0_v3_apply a d)
    intro c; match c with | ⟨0, _⟩ => rfl | ⟨1, _⟩ => rfl | ⟨2, _⟩ => rfl
  have h5 : r_call0_v5 a (ix3 n p d)
      = Spec.proj (aX a) (aW a) (aNp a) (aCo a) n p d - Spec.mu (aX a) (aW a) (aNp a) (aCo a) d := by
    show r_v34 a (ix3 n p d) - r_call0_v4 a (ix3 n p d) = _
    rw [v34_apply, h4]
  show r_call0_v5 a (ix3 n p d) * r_call0_v5 a (ix3 n p d) = _
  rw [h5]

/-- The normalizer: the number of points less the real zero. -/
theorem call0_v8_apply : r_call0_v8 a ix0 = Spec.count := by
  show Ideal.ofBits .f32 0x4A435000#32 - (((0#32 : BitVec 32).toInt : ℝ) : EReal) = _
  have h0 : (0#32 : BitVec 32).toInt = 0 := by decide
  rw [h0]
  show Spec.count - ((0 : ℤ) : ℝ) = _
  simp

/-- The variance: the mean squared deviation (the normalizer is positive, so the select takes the quotient). -/
theorem v38_apply (d : Fin 64) : r_v38 a (ix1 d) = Spec.varDev (aX a) (aW a) (aNp a) (aCo a) d := by
  have h9 : r_call0_v9 a (ix1 d) = Spec.sumDev (aX a) (aW a) (aNp a) (aCo a) (Spec.mu (aX a) (aW a) (aNp a) (aCo a)) d := by
    unfold r_call0_v9
    show Ideal.hostReduceAdd reducesTo_S100000x32x64_S64_d0_1 (r_call0_v6 a) (Ideal.ofBits .f32 0x00000000#32) (ix1 d) = _
    rw [reduce01_apply]
    unfold Spec.sumDev
    exact Finset.sum_congr rfl fun n _ => Finset.sum_congr rfl fun p _ => call0_v6_apply a n p d
  have h10 : r_call0_v10 a (ix1 d) = Spec.count := by
    unfold r_call0_v10
    exact (broadcastInDim_scalar_apply _ _ _).trans (call0_v8_apply a)
  have h11 : r_call0_v11 a (ix1 d) = Spec.varDev (aX a) (aW a) (aNp a) (aCo a) d := by
    show Ideal.div (r_call0_v9 a (ix1 d)) (r_call0_v10 a (ix1 d)) = _
    rw [h9, h10]
    rfl
  have h12 : r_call0_v12 a ix0 = 1#1 := by
    show Ideal.cmp .ogt (r_call0_v8 a ix0) (Ideal.ofBits .f32 0x00000000#32) = 1#1
    rw [call0_v8_apply, Ideal.ofBits_zero_f32]
    show BitVec.ofBool (decide ((0 : EReal) < Spec.count)) = 1#1
    rw [decide_eq_true count_pos]
    rfl
  unfold r_v38
  show Scalar.select (broadcastInDim S64 ![] bcast_S_S64 (r_call0_v12 a) (ix1 d)) (r_call0_v11 a (ix1 d))
      (r_call0_call0_v1 a (ix1 d)) = _
  rw [broadcastInDim_scalar_apply, h12, select_one, h11]

end Cert.RefSide

end
-- ==== Proof.RefValue.lean ====
/-
  The reference's result, read at an index and identified with the shared specification: each projected value
  less the per-channel mean, times the reciprocal square root of the variance plus epsilon, mapped by the affine
  pair, positive part (the maximum with the real zero); then over a pillar's 32 points the host's maximum from the
  bottom element, which is the supremum. With the run over named values this gives the reference's run stated
  over the specification.
-/
import proofs.«109379_j63986422775810_2_alg».proof.Proof.RefValueStats

noncomputable section

namespace Cert.RefSide

open Cert.ReferenceIdeal Cert.ReferenceIdeal.Gen Idealize.ShloMosaic Idealize.ShloMosaic.TcCoe Idealize.SL.Sem Idealize.ShloMosaic.ValueIdx
open scoped BigOperators

variable (a : Args Ideal)

/-! ## The normalised, mapped, positive part of a projected value -/

theorem v41_apply (n : Fin 100000) (p : Fin 32) (d : Fin 64) :
    r_v41 a (ix3 n p d)
      = Spec.proj (aX a) (aW a) (aNp a) (aCo a) n p d - Spec.mu (aX a) (aW a) (aNp a) (aCo a) d := by
  have h40 : r_v40 a (ix3 n p d) = Spec.mu (aX a) (aW a) (aNp a) (aCo a) d := by
    unfold r_v40 r_v39
    exact (bcast64_apply (r_v37 a) n p d).trans (v37_apply a d)
  show r_v34 a (ix3 n p d) - r_v40 a (ix3 n p d) = _
  rw [v34_apply, h40]

theorem v46_apply (n : Fin 100000) (p : Fin 32) (d : Fin 64) :
    r_v46 a (ix3 n p d) = Ideal.rsqrt (Spec.varDev (aX a) (aW a) (aNp a) (aCo a) d + Spec.eps) := by
  have h42 : r_v42 a (ix1 d) = Spec.eps := by
    unfold r_v42
    exact (broadcastInDim_scalar_apply _ _ _).trans rfl
  have h44 : r_v44 a (ix1 d) = Ideal.rsqrt (Spec.varDev (aX a) (aW a) (aNp a) (aCo a) d + Spec.eps) := by
    show Ideal.rsqrt (r_v38 a (ix1 d) + r_v42 a (ix1 d)) = _
    rw [v38_apply, h42]
  unfold r_v46 r_v45
  exact (bcast64_apply (r_v44 a) n p d).trans h44

theorem v54_apply (n : Fin 100000) (p : Fin 32) (d : Fin 64) :
    r_v54 a (ix3 n p d)
      = Spec.act (aG a) (aB a) (Spec.mu (aX a) (aW a) (aNp a) (aCo a)) (Spec.varDev (aX a) (aW a) (aNp a) (aCo a))
          (Spec.proj (aX a) (aW a) (aNp a) (aCo a) n p d) d := by
  have h49 : r_v49 a (ix3 n p d) = aG a d := by
    unfold r_v49 r_v48
    exact bcast64_apply a.γ n p d
  have h52 : r_v52 a (ix3 n p d) = aB a d := by
    unfold r_v52 r_v51
    exact bcast64_apply a.β n p d
  have hz : r_call1_v0 a (ix3 n p d) = 0 := by
    unfold r_call1_v0
    exact (broadcastInDim_scalar_apply _ _ _).trans Ideal.ofBits_zero_f32
  show max (r_v41 a (ix3 n p d) * r_v46 a (ix3 n p d) * r_v49 a (ix3 n p d) + r_v52 a (ix3 n p d))
      (r_call1_v0 a (ix3 n p d)) = _
  rw [v41_apply, v46_apply, h49, h52, hz]
  rfl

/-! ## The maximum over a pillar's points -/

theorem lift_pts64 (h : S100000x32x64.Reduces [1] S100000x64) (n : Fin 100000) (d : Fin 64) (p : Fin 32) :
    h.lift (ix2 n d) p = ix3 n p d := by
  funext c; apply Fin.ext
  match c with
  | ⟨0, _⟩ => rfl
  | ⟨1, _⟩ => rfl
  | ⟨2, _⟩ => rfl

/-- The fold of the maximum from the bottom element is the supremum. -/
theorem fold_maximumf_eq_sup {ι : Type} (s : Finset ι) (f : ι → EReal) :
    s.fold (FloatOps.maximumf (F := Ideal) (φ := .f32)) ⊥ f = s.sup f := by
  classical
  induction s using Finset.induction_on with
  | empty => rfl
  | insert i s hi ih =>
    rw [Finset.fold_insert hi, Finset.sup_insert, ih]
    first
      | rfl
      | exact sup_eq_max.symm

/-- The result at (pillar, channel). -/
theorem v55_apply (n : Fin 100000) (d : Fin 64) :
    r_v55 a (ix2 n d) = Spec.resDev (aX a) (aW a) (aG a) (aB a) (aNp a) (aCo a) n d := by
  have hR : S100000x32x64.Reduces [1] S100000x64 := by decide
  have hbot : r_cst_6 a (Shape.Idx.first h_S_) = ⊥ := by
    show Ideal.ofBits .f32 0xFF800000#32 = ⊥
    simp [Ideal.ofBits, Ideal.ieee]
  unfold r_v55
  show Host.reduce FloatOps.maximumf (r_v54 a) (r_cst_6 a) reducesTo_S100000x32x64_S100000x64_d1 h_S_ (ix2 n d) = _
  rw [Host.reduce_eq_fold_single FloatOps.maximumf (r_v54 a) (r_cst_6 a) _ hR h_S_ (ix2 n d), hbot]
  have hf : (r_v54 a ∘ hR.lift (ix2 n d)) = fun p : Fin 32 =>
      Spec.act (aG a) (aB a) (Spec.mu (aX a) (aW a) (aNp a) (aCo a)) (Spec.varDev (aX a) (aW a) (aNp a) (aCo a))
        (Spec.proj (aX a) (aW a) (aNp a) (aCo a) n p d) d :=
    funext fun p => (congrArg (r_v54 a) (lift_pts64 hR n d p)).trans (v54_apply a n p d)
  rw [hf]
  exact fold_maximumf_eq_sup _ _

/-- The whole result array is the specification's. -/
theorem value_eq :
    r_v55 a = Spec.arr2 (Spec.resDev (Spec.cur3 a.x) (Spec.cur2 a.w) (Spec.cur1 a.γ) (Spec.cur1 a.β) (Spec.cur1 a.np)
      (Spec.cur2 a.co)) := by
  funext i
  obtain ⟨n, d, rfl⟩ : ∃ (n : Fin 100000) (d : Fin 64), i = ix2 n d := ⟨i 0, i 1, eq_ix2 i⟩
  rw [Spec.arr2_ix2]
  exact v55_apply a n d

/-! ## The run -/

/-- Every weakly fair execution of the reference terminates with the result buffer at the specification's value of
    the arguments' launch contents and the arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v55)
          = Spec.arr2 (Spec.resDev
              (Spec.cur3 (m' ((c.tc : Thread Cert.ReferenceIdeal.nD Cert.ReferenceIdeal.τ).loc Cert.ReferenceIdeal.main_arg0)))
              (Spec.cur2 (m' ((c.tc : Thread Cert.ReferenceIdeal.nD Cert.ReferenceIdeal.τ).loc Cert.ReferenceIdeal.main_arg1)))
              (Spec.cur1 (m' ((c.tc : Thread Cert.ReferenceIdeal.nD Cert.ReferenceIdeal.τ).loc Cert.ReferenceIdeal.main_arg2)))
              (Spec.cur1 (m' ((c.tc : Thread Cert.ReferenceIdeal.nD Cert.ReferenceIdeal.τ).loc Cert.ReferenceIdeal.main_arg3)))
              (Spec.cur1 (m' ((c.tc : Thread Cert.ReferenceIdeal.nD Cert.ReferenceIdeal.τ).loc Cert.ReferenceIdeal.main_arg4)))
              (Spec.cur2 (m' ((c.tc : Thread Cert.ReferenceIdeal.nD Cert.ReferenceIdeal.τ).loc Cert.ReferenceIdeal.main_arg5))))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run (Cert.ReferenceIdeal.defs (F := Ideal)) _ _).mono
    (fun _ h c => ⟨(h c).1.trans (value_eq (argsOf (StableHlo.launchContents m' c))), (h c).2⟩)
    (run_named m' g')

end Cert.RefSide

end
-- ==== Proof.Finite.lean ====
/-
  From the printed precondition to finiteness: the precondition is the conjunction, over the four
  float arrays, of "every entry has absolute value below +∞"; on extended reals that says every entry
  is a real.
-/
import proofs.«109379_j63986422775810_2_alg».proof.Pre_finite_inputs
import proofs.«109379_j63986422775810_2_alg».proof.Proof.Spec
import Idealize.ShloMosaic.Lib.ReduceAll
import Idealize.ShloMosaic.Lib.IdealHost

noncomputable section

namespace Cert.Finite

open Idealize.ShloMosaic Idealize.ShloMosaic.ValueIdx
open Cert.Pre_finite_inputs

/-- The rank-0 shape has one index. -/
instance : Subsingleton S_.Idx := ⟨fun a b => funext fun d => d.elim0⟩

/-- The f32 word `0x7F800000` is +∞. -/
theorem ofBits_inf : Ideal.ofBits .f32 0x7F800000#32 = ⊤ := by simp [Ideal.ofBits, Ideal.ieee]

/-- An extended real whose absolute value `max x (−x)` is below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- Under the precondition every entry of the points array and of the weight matrix is a real. -/
theorem of_pre [Facts] (a0 : FVec Ideal S100000x32x4 .f32) (a1 : FVec Ideal S10x64 .f32)
    (a2 : FVec Ideal S64 .f32) (a3 : FVec Ideal S64 .f32) (a4 : IVec S100000 32) (a5 : IVec S100000x4 32)
    (h : fn (F := Ideal) a0 a1 a2 a3 a4 a5 = fun _ => 1#1) :
    (∀ i, ∃ r : ℝ, a0 i = (r : EReal)) ∧ (∀ i, ∃ r : ℝ, a1 i = (r : EReal)) := by
  have h0 := congrFun h ix0
  dsimp only [fn, fn_part1] at h0
  obtain ⟨h13, _⟩ := IntOp.andi_eq_one.1 h0
  obtain ⟨h8, _⟩ := IntOp.andi_eq_one.1 h13
  obtain ⟨h3, h7⟩ := IntOp.andi_eq_one.1 h8
  refine ⟨fun i => ?_, fun i => ?_⟩
  · have e := Host.reduce_andi_all _ _ _ _ _ h3 i
    rw [cmpf_apply, broadcastInDim_scalar_apply] at e
    exact real_of_abs_lt_inf _ e
  · have e := Host.reduce_andi_all _ _ _ _ _ h7 i
    rw [cmpf_apply, broadcastInDim_scalar_apply] at e
    exact real_of_abs_lt_inf _ e

end Cert.Finite

end
-- ==== Proof.lean ====
/-
  The certificate's five claims. The two kernel programs run as two pipelined kernels around host lines
  (their frames: every argument array ends as launched); the reference runs as one list of host operations.
  At the ideal instance the kernel program's result array is the per-pillar normalised maximum with the
  variance computed as mean of squares minus squared mean (clipped at zero), the reference's the same with
  the variance as the mean squared deviation; for finite inputs the two variances are one number, so the
  results agree element by element.
-/
import proofs.«109379_j63986422775810_2_alg».proof.Defs
import proofs.«109379_j63986422775810_2_alg».proof.Proof.Gen.Kernel
import proofs.«109379_j63986422775810_2_alg».proof.Proof.Gen.KernelIdeal
import proofs.«109379_j63986422775810_2_alg».proof.Proof.Gen.ReferenceIdeal
import proofs.«109379_j63986422775810_2_alg».proof.Proof.Gen.Pre_finite_inputs
import proofs.«109379_j63986422775810_2_alg».proof.Proof.MainRunBits
import proofs.«109379_j63986422775810_2_alg».proof.Proof.KFinal
import proofs.«109379_j63986422775810_2_alg».proof.Proof.RefValue
import proofs.«109379_j63986422775810_2_alg».proof.Proof.SpecLaws
import proofs.«109379_j63986422775810_2_alg».proof.Proof.Finite

noncomputable section

namespace Cert.Proof

open Idealize.ShloMosaic Idealize.SL.Sem Idealize.ShloMosaic.ValueIdx

theorem frame_k : Cert.frame_Kernel := fun m ρ _ =>
  (θ_run Cert.Kernel.defs _ _).mono (fun _ h c => (h c).2) (Cert.Kernel.Run.run_all (F := Bits) m ρ)

theorem frame_ki : Cert.frame_KernelIdeal := fun m ρ _ =>
  (θ_run Cert.KernelIdeal.defs _ _).mono (fun _ h c => (h c).2) (Cert.KernelIdeal.Run.run_all (F := Ideal) m ρ)

theorem frame_ri : Cert.frame_ReferenceIdeal := fun m ρ _ =>
  (θ_run Cert.ReferenceIdeal.defs _ _).mono (fun _ h c => (h c).2) (Cert.RefSide.run m ρ)

theorem preserves : Cert.preserves_Kernel_KernelIdeal := trivial

/-- Both programs end at the per-pillar normalised maximum; the kernel's variance (mean of squares minus squared
    mean, clipped) and the reference's (mean squared deviation) agree because every input is finite. -/
theorem algebraic : Cert.algebraic_KernelIdeal_ReferenceIdeal := by
  intro m ρ m' ρ' hpre hagree
  refine ⟨fun c => Cert.Spec.arr2 (Cert.Spec.resSq (Cert.KernelIdeal.Val.aX m c) (Cert.KernelIdeal.Val.aW m c) (Cert.KernelIdeal.Val.aG m c)
    (Cert.KernelIdeal.Val.aB m c) (Cert.KernelIdeal.Val.aN m c) (Cert.KernelIdeal.Val.aC m c)), Cert.KernelIdeal.Val.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2.1, (hagree c).2.2.2.2.1, (hagree c).2.2.2.2.2]
  have hfin := Cert.Finite.of_pre _ _ _ _ _ _ (hpre c)
  exact congrArg Cert.Spec.arr2 (Cert.Spec.resSq_eq_resDev _ _ _ _ _ _
    (fun n p ch => hfin.1 (ix3 n p ch)) (fun k d => hfin.2 (ix2 k d))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
